-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v92_0)) (v1 : (c : Dev Cert.KernelIdeal.nD) → Buf (Elt Ideal) ((c.tc : Thread Cert.KernelIdeal.nD Cert.KernelIdeal.τ).loc Cert.KernelIdeal.main_v92_1)) (v2 : (c : Dev Cert.KernelIdeal.nD) → Buf (Elt Ideal) ((c.tc : Thread Cert.KernelIdeal.nD Cert.KernelIdeal.τ).loc Cert.KernelIdeal.main_v92_2)) (v3 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92_0) = v0 c
          ∧ r.2.mem ((c.tc : Thread Cert.KernelIdeal.nD Cert.KernelIdeal.τ).loc Cert.KernelIdeal.main_v92_1) = v1 c
          ∧ r.2.mem ((c.tc : Thread Cert.KernelIdeal.nD Cert.KernelIdeal.τ).loc Cert.KernelIdeal.main_v92_2) = v2 c
          ∧ r.2.mem ((c.tc : Thread Cert.KernelIdeal.nD Cert.KernelIdeal.τ).loc Cert.KernelIdeal.main_v67) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x3 : Shape := ⟨2, ![10000, 3]⟩
abbrev S10000x5x3 : Shape := ⟨3, ![10000, 5, 3]⟩
abbrev S512x128 : Shape := ⟨2, ![512, 128]⟩
abbrev S128 : Shape := ⟨1, ![128]⟩
abbrev S128x128 : Shape := ⟨2, ![128, 128]⟩
abbrev S20x128 : Shape := ⟨2, ![20, 128]⟩
abbrev S128x1 : Shape := ⟨2, ![128, 1]⟩
abbrev S1 : Shape := ⟨1, ![1]⟩
abbrev S2x320000 : Shape := ⟨2, ![2, 320000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x3 : S_.BroadcastsInDim S10000x3 (![] : Fin 0 → Fin S10000x3.rank)
  reducesTo_S10000x3_S_d0_1 : S10000x3.ReducesTo [0, 1] S_
  bcast_S_S10000x5x3 : S_.BroadcastsInDim S10000x5x3 (![] : Fin 0 → Fin S10000x5x3.rank)
  reducesTo_S10000x5x3_S_d0_1_2 : S10000x5x3.ReducesTo [0, 1, 2] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S20x128 : S_.BroadcastsInDim S20x128 (![] : Fin 0 → Fin S20x128.rank)
  reducesTo_S20x128_S_d0_1 : S20x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S128x1 .f32) (main_arg15 : FVec F S1 .f32) (main_v63 : IVec S_ 1) (main_v67 : IVec S_ 1) : IVec S_ 1 :=
  let main_v68 : IVec S_ 1 := andi main_v63 main_v67
  let main_v69 : FVec F S128x1 .f32 := Host.absf main_arg14
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S128 .f32) (main_arg12 : FVec F S128x128 .f32) (main_arg13 : FVec F S128 .f32) (main_arg14 : FVec F S128x1 .f32) (main_arg15 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128 .f32) (main_arg8 : FVec F S20x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S20x128 .f32 := Host.absf main_arg8
  let main_cst_14 : FVec F S_ .f32 := constant S_ .f32 0x7F800000#32
  let main_v40 : FVec F S20x128 .f32 := broadcastInDim S20x128 ![] bcast_S_S20x128 main_cst_14
  let main_v41 : IVec S20x128 1 := cmpf .olt main_v39 main_v40
  let main_c_15 : IVec S_ 1 := constantI S_ 1 1#1
  let main_v42 : IVec S_ 1 := (fun x v => Host.reduce IntOp.andi x v reducesTo_S20x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_v48 main_v49 main_v50

def fn_part1 {F : FTy → Type} [FloatOps F] (main_arg4 : FVec F S512x128 .f32) (main_arg5 : FVec F S128 .f32) (main_arg6 : FVec F S128x128 .f32) (main_arg7 : FVec F S128 .f32) (main_arg8 : FVec F S20x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v13 : IVec S_ 1) (main_v16 : IVec S10000x128 1) : IVec S_ 1 :=
  let main_c_5 : IVec S_ 1 := constantI S_ 1 1#1
  let main_v17 : IVec S_ 1 := (fun x v => Host.reduce IntOp.andi x v reducesTo_S10000x128_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S10000x128 .f32) (main_arg1 : FVec F S10000x3 .f32) (main_arg2 : FVec F S10000x5x3 .f32) (main_arg3 : FVec F S10000x128 .f32) (main_arg4 : FVec F S512x128 .f32) (main_arg5 : FVec F S128 .f32) (main_arg6 : FVec F S128x128 .f32) (main_arg7 : FVec F S128 .f32) (main_arg8 : FVec F S20x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_arg16 : IVec S2x320000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x3 .f32 := Host.absf main_arg1
  let main_cst_0 : FVec F S_ .f32 := constant S_ .f32 0x7F800000#32
  let main_v5 : FVec F S10000x3 .f32 := broadcastInDim S10000x3 ![] bcast_S_S10000x3 main_cst_0
  let main_v6 : IVec S10000x3 1 := cmpf .olt main_v4 main_v5
  let main_c_1 : IVec S_ 1 := constantI S_ 1 1#1
  let main_v7 : IVec S_ 1 := (fun x v => Host.reduce IntOp.andi x v reducesTo_S10000x3_S_d0_1 h_S_) main_v6 main_c_1
  let main_v8 : IVec S_ 1 := andi main_v3 main_v7
  let main_v9 : FVec F S10000x5x3 .f32 := Host.absf main_arg2
  let main_cst_2 : FVec F S_ .f32 := constant S_ .f32 0x7F800000#32
  let main_v10 : FVec F S10000x5x3 .f32 := broadcastInDim S10000x5x3 ![] bcast_S_S10000x5x3 main_cst_2
  let main_v11 : IVec S10000x5x3 1 := cmpf .olt main_v9 main_v10
  let main_c_3 : IVec S_ 1 := constantI S_ 1 1#1
  let main_v12 : IVec S_ 1 := (fun x v => Host.reduce IntOp.andi x v reducesTo_S10000x5x3_S_d0_1_2 h_S_) main_v11 main_c_3
  let main_v13 : IVec S_ 1 := andi main_v8 main_v12
  let main_v14 : FVec F S10000x128 .f32 := Host.absf main_arg3
  let main_cst_4 : FVec F S_ .f32 := constant S_ .f32 0x7F800000#32
  let main_v15 : FVec F S10000x128 .f32 := broadcastInDim S10000x128 ![] bcast_S_S10000x128 main_cst_4
  let main_v16 : IVec S10000x128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S10000x128 : Shape := ⟨2, ![10000, 128]⟩
abbrev S10000x3 : Shape := ⟨2, ![10000, 3]⟩
abbrev S10000x5x3 : Shape := ⟨3, ![10000, 5, 3]⟩
abbrev S512x128 : Shape := ⟨2, ![512, 128]⟩
abbrev S128 : Shape := ⟨1, ![128]⟩
abbrev S128x128 : Shape := ⟨2, ![128, 128]⟩
abbrev S20x128 : Shape := ⟨2, ![20, 128]⟩
abbrev S128x1 : Shape := ⟨2, ![128, 1]⟩
abbrev S1 : Shape := ⟨1, ![1]⟩
abbrev S2x320000 : Shape := ⟨2, ![2, 320000]⟩
abbrev S15 : Shape := ⟨1, ![15]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S320000x3 : Shape := ⟨2, ![320000, 3]⟩
abbrev S320000x5x3 : Shape := ⟨3, ![320000, 5, 3]⟩
abbrev S1x15 : Shape := ⟨2, ![1, 15]⟩
abbrev S320000x15 : Shape := ⟨2, ![320000, 15]⟩
abbrev S320000x5 : Shape := ⟨2, ![320000, 5]⟩
abbrev S320000x20 : Shape := ⟨2, ![320000, 20]⟩
abbrev S1x128 : Shape := ⟨2, ![1, 128]⟩
abbrev S1x1 : Shape := ⟨2, ![1, 1]⟩
abbrev S3200x128 : Shape := ⟨2, ![3200, 128]⟩
abbrev S3200x20 : Shape := ⟨2, ![3200, 20]⟩
abbrev S3200x1 : Shape := ⟨2, ![3200, 1]⟩

abbrev nBuf : Space → Nat
  | .hbm => 136
  | .vmem => 28
  | .smem => 0
  | _ => 0

abbrev hbmTy0_0 (i : Nat) : BufTy := match i % 128 with
  | 0 => ⟨S10000x128, .f32⟩
  | 1 => ⟨S10000x3, .f32⟩
  | 2 => ⟨S10000x5x3, .f32⟩
  | 3 => ⟨S10000x128, .f32⟩
  | 4 => ⟨S512x128, .f32⟩
  | 5 => ⟨S128, .f32⟩
  | 6 => ⟨S128x128, .f32⟩
  | 7 => ⟨S128, .f32⟩
  | 8 => ⟨S20x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x1, .f32⟩
  | 15 => ⟨S1, .f32⟩
  | 16 => ⟨S2x320000, .i32⟩
  | 17 => ⟨S15, .f32⟩
  | 18 => ⟨S1x320000, .i32⟩
  | 19 => ⟨S320000, .i32⟩
  | 20 => ⟨S1x320000, .i32⟩
  | 21 => ⟨S320000, .i32⟩
  | 22 => ⟨S10000x128, .bf16⟩
  | 23 => ⟨S10000x128, .bf16⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S320000x128, .bf16⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x128, .bf16⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000x128, .bf16⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000x128, .bf16⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x3, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000x3, .f32⟩
  | 78 => ⟨S_, .i32⟩
  | 79 => ⟨S320000, .i32⟩
  | 80 => ⟨S320000, .i1⟩
  | 81 => ⟨S_, .i32⟩
  | 82 => ⟨S320000, .i32⟩
  | 83 => ⟨S320000, .i32⟩
  | 84 => ⟨S320000, .i32⟩
  | 85 => ⟨S320000x1, .i32⟩
  | 86 => ⟨S320000x5x3, .f32⟩
  | 87 => ⟨S_, .i32⟩
  | 88 => ⟨S320000, .i32⟩
  | 89 => ⟨S320000, .i1⟩
  | 90 => ⟨S_, .i32⟩
  | 91 => ⟨S320000, .i32⟩
  | 92 => ⟨S320000, .i32⟩
  | 93 => ⟨S320000, .i32⟩
  | 94 => ⟨S320000x1, .i32⟩
  | 95 => ⟨S320000x5x3, .f32⟩
  | 96 => ⟨S320000x3, .f32⟩
  | 97 => ⟨S320000x3, .f32⟩
  | 98 => ⟨S_, .f32⟩
  | 99 => ⟨S320000, .f32⟩
  | 100 => ⟨S320000x1, .f32⟩
  | 101 => ⟨S320000x1, .f32⟩
  | 102 => ⟨S_, .f32⟩
  | 103 => ⟨S320000x1, .f32⟩
  | 104 => ⟨S320000x1, .f32⟩
  | 105 => ⟨S320000x3, .f32⟩
  | 106 => ⟨S320000x3, .f32⟩
  | 107 => ⟨S320000x3, .f32⟩
  | 108 => ⟨S_, .f32⟩
  | 109 => ⟨S320000, .f32⟩
  | 110 => ⟨S320000x1, .f32⟩
  | 111 => ⟨S1x15, .f32⟩
  | 112 => ⟨S320000x15, .f32⟩
  | 113 => ⟨S320000x15, .f32⟩
  | 114 => ⟨S320000x15, .f32⟩
  | 115 => ⟨S320000x15, .f32⟩
  | 116 => ⟨S320000x5x3, .f32⟩
  | 117 => ⟨S_, .f32⟩
  | 118 => ⟨S320000x5, .f32⟩
  | 119 => ⟨S320000x20, .f32⟩
  | 120 => ⟨S320000x20, .bf16⟩
  | 121 => ⟨S512x128, .bf16⟩
  | 122 => ⟨S128x128, .bf16⟩
  | 123 => ⟨S20x128, .bf16⟩
  | 124 => ⟨S128x128, .bf16⟩
  | 125 => ⟨S128x128, .bf16⟩
  | 126 => ⟨S128x1, .bf16⟩
  | 127 => ⟨S1x128, .f32⟩
  | _ => ⟨S10000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S1x1, .f32⟩
  | 5 => ⟨S320000x128, .f32⟩
  | 6 => ⟨S320000x128, .f32⟩
  | 7 => ⟨S320000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S3200x128, .bf16⟩
  | .local _ .vmem, ⟨1, _⟩ => ⟨S3200x128, .bf16⟩
  | .local _ .vmem, ⟨2, _⟩ => ⟨S3200x128, .bf16⟩
  | .local _ .vmem, ⟨3, _⟩ => ⟨S3200x128, .bf16⟩
  | .local _ .vmem, ⟨4, _⟩ => ⟨S3200x128, .bf16⟩
  | .local _ .vmem, ⟨5, _⟩ => ⟨S3200x128, .bf16⟩
  | .local _ .vmem, ⟨6, _⟩ => ⟨S3200x128, .bf16⟩
  | .local _ .vmem, ⟨7, _⟩ => ⟨S3200x128, .bf16⟩
  | .local _ .vmem, ⟨8, _⟩ => ⟨S3200x20, .bf16⟩
  | .local _ .vmem, ⟨9, _⟩ => ⟨S3200x20, .bf16⟩
  | .local _ .vmem, ⟨10, _⟩ => ⟨S512x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S20x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S128x128, .bf16⟩
  | .local _ .vmem, ⟨19, _⟩ => ⟨S1x128, .f32⟩
  | .local _ .vmem, ⟨20, _⟩ => ⟨S128x1, .bf16⟩
  | .local _ .vmem, ⟨21, _⟩ => ⟨S1x1, .f32⟩
  | .local _ .vmem, ⟨22, _⟩ => ⟨S3200x128, .f32⟩
  | .local _ .vmem, ⟨23, _⟩ => ⟨S3200x128, .f32⟩
  | .local _ .vmem, ⟨24, _⟩ => ⟨S3200x128, .f32⟩
  | .local _ .vmem, ⟨25, _⟩ => ⟨S3200x128, .f32⟩
  | .local _ .vmem, ⟨26, _⟩ => ⟨S3200x128, .f32⟩
  | .local _ .vmem, ⟨27, _⟩ => ⟨S3200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_1 : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_9 : Ref sig .tc := ⟨.hbm, 69, rfl⟩
abbrev main_v41 : Ref sig .tc := ⟨.hbm, 70, rfl⟩
abbrev main_v42 : Ref sig .tc := ⟨.hbm, 71, rfl⟩
abbrev main_c_10 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_11 : Ref sig .tc := ⟨.hbm, 78, rfl⟩
abbrev main_v48 : Ref sig .tc := ⟨.hbm, 79, rfl⟩
abbrev main_v49 : Ref sig .tc := ⟨.hbm, 80, rfl⟩
abbrev main_c_12 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_13 : Ref sig .tc := ⟨.hbm, 87, rfl⟩
abbrev main_v55 : Ref sig .tc := ⟨.hbm, 88, rfl⟩
abbrev main_v56 : Ref sig .tc := ⟨.hbm, 89, rfl⟩
abbrev main_c_14 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_call0_v0 : Ref sig .tc := ⟨.hbm, 97, rfl⟩
abbrev main_call0_cst : Ref sig .tc := ⟨.hbm, 98, rfl⟩
abbrev main_call0_v1 : Ref sig .tc := ⟨.hbm, 99, rfl⟩
abbrev main_call0_v2 : Ref sig .tc := ⟨.hbm, 100, rfl⟩
abbrev main_v63 : Ref sig .tc := ⟨.hbm, 101, rfl⟩
abbrev main_cst_15 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_16 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_17 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92_0 : Ref sig .tc := ⟨.hbm, 133, rfl⟩
abbrev main_v92_1 : Ref sig .tc := ⟨.hbm, 134, rfl⟩
abbrev main_v92_2 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3200x20 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S20x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S3200x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S3200x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S3200x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bitsLt_bf16_f32 : FTy.bits .bf16 < FTy.bits .f32
  bcast_S_S320000 : S_.BroadcastsInDim S320000 (![] : Fin 0 → Fin S320000.rank)
  bcast_S320000_S320000x1_0 : S320000.BroadcastsInDim S320000x1 (![0] : Fin 1 → Fin S320000x1.rank)
  reducesTo_S320000x3_S320000_d1 : S320000x3.ReducesTo [1] S320000
  h_S_ : 0 < S_.numel
  bcast_S_S320000x1 : S_.BroadcastsInDim S320000x1 (![] : Fin 0 → Fin S320000x1.rank)
  bcast_S320000x1_S320000x3_0_1 : S320000x1.BroadcastsInDim S320000x3 (![0, 1] : Fin 2 → Fin S320000x3.rank)
  bcast_S15_S1x15_1 : S15.BroadcastsInDim S1x15 (![1] : Fin 1 → Fin S1x15.rank)
  bcast_S320000x1_S320000x15_0_1 : S320000x1.BroadcastsInDim S320000x15 (![0, 1] : Fin 2 → Fin S320000x15.rank)
  bcast_S1x15_S320000x15_0_1 : S1x15.BroadcastsInDim S320000x15 (![0, 1] : Fin 2 → Fin S320000x15.rank)
  reducesTo_S320000x5x3_S320000x5_d2 : S320000x5x3.ReducesTo [2] S320000x5
  concatenates_S320000x5_S320000x15_S320000x20_d1 : Shape.Concatenates [S320000x5, S320000x15] S320000x20 1
  shapeCasts_S128_S1x128 : S128.ShapeCasts S1x128
  shapeCasts_S1_S1x1 : S1.ShapeCasts S1x1
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x128_o0_0_S128x128 : S512x128.Slices ![0, 0] S128x128
  slices_S512x128_o128_0_S128x128 : S512x128.Slices ![128, 0] S128x128
  slices_S512x128_o256_0_S128x128 : S512x128.Slices ![256, 0] S128x128
  slices_S512x128_o384_0_S128x128 : S512x128.Slices ![384, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3200x20_S3200x20_0_0 : ∀ a, (![0, 0] : Fin 2 → Nat) a + S3200x20.size a ≤ S3200x20.size a
  h_S3200x20 : 0 < S3200x20.numel
  shapeCasts_S3200x20_S3200x20 : S3200x20.ShapeCasts S3200x20
  inb_S20x128_S20x128_0_0 : ∀ a, (![0, 0] : Fin 2 → Nat) a + S20x128.size a ≤ S20x128.size a
  h_S20x128 : 0 < S20x128.numel
  shapeCasts_S20x128_S20x128 : S20x128.ShapeCasts S20x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3200x1 : S1x1.Broadcasts S3200x1
  broadcasts_S3200x1_S3200x128 : S3200x1.Broadcasts S3200x128
  gather_S10000x128_S320000x1_S320000x128_1_0_n_n_0_1_1128_wf : GatherDims.WF S10000x128 S320000x1 S320000x128 [1] [0] [] [0] [] 1 ![1, 128]
  gather_S10000x3_S320000x1_S320000x3_1_0_n_n_0_1_13_wf : GatherDims.WF S10000x3 S320000x1 S320000x3 [1] [0] [] [0] [] 1 ![1, 3]
  gather_S10000x5x3_S320000x1_S320000x5x3_12_0_n_n_0_1_153_wf : GatherDims.WF S10000x5x3 S320000x1 S320000x5x3 [1, 2] [0] [] [0] [] 1 ![1, 5, 3]
  dot_S3200x128_S128x128_S3200x128_1_0_0_1_n_n_wf : DotDims.WF S3200x128 S128x128 S3200x128 [1] [0] [0] [1] [] []
  dot_S3200x20_S20x128_S3200x128_1_0_0_1_n_n_wf : DotDims.WF S3200x20 S20x128 S3200x128 [1] [0] [0] [1] [] []
  dot_S3200x128_S128x1_S3200x1_1_0_0_1_n_n_wf : DotDims.WF S3200x128 S128x1 S3200x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S320000x128.size a
  hwx0_0 : ∀ i : grid0.Coords, EltTy.bits .bf16 = 32 ∨ (Rect.block (s := S320000x128) S3200x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S320000x128.size a
  hwx0_1 : ∀ i : grid0.Coords, EltTy.bits .bf16 = 32 ∨ (Rect.block (s := S320000x128) S3200x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S320000x128.size a
  hwx0_2 : ∀ i : grid0.Coords, EltTy.bits .bf16 = 32 ∨ (Rect.block (s := S320000x128) S3200x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x128.size a ≤ S320000x128.size a
  hwx0_3 : ∀ i : grid0.Coords, EltTy.bits .bf16 = 32 ∨ (Rect.block (s := S320000x128) S3200x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3200x20.size a ≤ S320000x20.size a
  hwx0_4 : ∀ i : grid0.Coords, EltTy.bits .bf16 = 32 ∨ (Rect.block (s := S320000x20) S3200x20.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .bf16 = 32 ∨ (Rect.block (s := S512x128) S512x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S20x128.size a ≤ S20x128.size a
  hwx0_9 : ∀ i : grid0.Coords, EltTy.bits .bf16 = 32 ∨ (Rect.block (s := S20x128) S20x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .bf16 = 32 ∨ (Rect.block (s := S128x128) S128x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x1.size a ≤ S128x1.size a
  hwx0_15 : ∀ i : grid0.Coords, EltTy.bits .bf16 = 32 ∨ (Rect.block (s := S128x1) S128x1.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S3200x128.size a ≤ S320000x128.size a
  hwx0_17 : ∀ i : grid0.Coords, EltTy.bits .f32 = 32 ∨ (Rect.block (s := S320000x128) S3200x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S3200x128.size a ≤ S320000x128.size a
  hwx0_18 : ∀ i : grid0.Coords, EltTy.bits .f32 = 32 ∨ (Rect.block (s := S320000x128) S3200x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S3200x128.size a ≤ S320000x128.size a
  hwx0_19 : ∀ i : grid0.Coords, EltTy.bits .f32 = 32 ∨ (Rect.block (s := S320000x128) S3200x128.size (cc0_transform_19 i) (hinb0_19 i)).WholeWords (EltTy.packing .f32)

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def gather_S10000x3_S320000x1_S320000x3_1_0_n_n_0_1_13 : GatherDims S10000x3 S320000x1 S320000x3 where
  offsetDims := [1]
  collapsedSliceDims := [0]
  operandBatchingDims := []
  startIndicesBatchingDims := []
  startIndexMap := [0]
  indexVectorDim := 1
  sliceSizes := ![1, 3]
  wf := gather_S10000x3_S320000x1_S320000x3_1_0_n_n_0_1_13_wf
def gather_S10000x5x3_S320000x1_S320000x5x3_12_0_n_n_0_1_153 : GatherDims S10000x5x3 S320000x1 S320000x5x3 where
  offsetDims := [1, 2]
  collapsedSliceDims := [0]
  operandBatchingDims := []
  startIndicesBatchingDims := []
  startIndexMap := [0]
  indexVectorDim := 1
  sliceSizes := ![1, 5, 3]
  wf := gather_S10000x5x3_S320000x1_S320000x5x3_12_0_n_n_0_1_153_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x20_S20x128_S3200x128_1_0_0_1_n_n : DotDims S3200x20 S20x128 S3200x128 where
  lhsContracting := [1]
  rhsContracting := [0]
  lhsNonContracting := [0]
  rhsNonContracting := [1]
  lhsBatch := []
  rhsBatch := []
  wf := dot_S3200x20_S20x128_S3200x128_1_0_0_1_n_n_wf
def dot_S3200x128_S128x1_S3200x1_1_0_0_1_n_n : DotDims S3200x128 S128x1 S3200x1 where
  lhsContracting := [1]
  rhsContracting := [0]
  lhsNonContracting := [0]
  rhsNonContracting := [1]
  lhsBatch := []
  rhsBatch := []
  wf := dot_S3200x128_S128x1_S3200x1_1_0_0_1_n_n_wf

abbrev win0_0 : Pipeline.Window sig grid0 :=
  Pipeline.Window.ofSpec (Memref.whole main_v12) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S3200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S3200x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v79) S3200x20.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v80) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v86) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v81) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v87) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v82) S20x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v88) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v83) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v89) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v84) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v90) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v85) S128x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v91) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v92_0) S3200x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v92_1) S3200x128.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v92_2) S3200x128.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x3 : Shape := ⟨2, ![10000, 3]⟩
abbrev S10000x5x3 : Shape := ⟨3, ![10000, 5, 3]⟩
abbrev S512x128 : Shape := ⟨2, ![512, 128]⟩
abbrev S128 : Shape := ⟨1, ![128]⟩
abbrev S128x128 : Shape := ⟨2, ![128, 128]⟩
abbrev S20x128 : Shape := ⟨2, ![20, 128]⟩
abbrev S128x1 : Shape := ⟨2, ![128, 1]⟩
abbrev S1 : Shape := ⟨1, ![1]⟩
abbrev S2x320000 : Shape := ⟨2, ![2, 320000]⟩
abbrev S15 : Shape := ⟨1, ![15]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x3 : Shape := ⟨2, ![320000, 3]⟩
abbrev S1x15 : Shape := ⟨2, ![1, 15]⟩
abbrev S320000x15 : Shape := ⟨2, ![320000, 15]⟩
abbrev S320000x5x3 : Shape := ⟨3, ![320000, 5, 3]⟩
abbrev S320000x5 : Shape := ⟨2, ![320000, 5]⟩
abbrev S320000x128 : Shape := ⟨2, ![320000, 128]⟩
abbrev S320000x512 : Shape := ⟨2, ![320000, 512]⟩
abbrev S320000x20 : Shape := ⟨2, ![320000, 20]⟩
abbrev S1x128 : Shape := ⟨2, ![1, 128]⟩
abbrev S1x1 : Shape := ⟨2, ![1, 1]⟩

abbrev nBuf : Space → Nat
  | .hbm => 199
  | .vmem => 0
  | .smem => 0
  | _ => 0

abbrev hbmTy0_0 (i : Nat) : BufTy := match i % 128 with
  | 0 => ⟨S10000x128, .f32⟩
  | 1 => ⟨S10000x3, .f32⟩
  | 2 => ⟨S10000x5x3, .f32⟩
  | 3 => ⟨S10000x128, .f32⟩
  | 4 => ⟨S512x128, .f32⟩
  | 5 => ⟨S128, .f32⟩
  | 6 => ⟨S128x128, .f32⟩
  | 7 => ⟨S128, .f32⟩
  | 8 => ⟨S20x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x1, .f32⟩
  | 15 => ⟨S1, .f32⟩
  | 16 => ⟨S2x320000, .i32⟩
  | 17 => ⟨S15, .f32⟩
  | 18 => ⟨S1x320000, .i32⟩
  | 19 => ⟨S320000, .i32⟩
  | 20 => ⟨S1x320000, .i32⟩
  | 21 => ⟨S320000, .i32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S320000x3, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000x3, .f32⟩
  | 40 => ⟨S320000x3, .f32⟩
  | 41 => ⟨S320000x3, .f32⟩
  | 42 => ⟨S_, .f32⟩
  | 43 => ⟨S320000, .f32⟩
  | 44 => ⟨S320000x1, .f32⟩
  | 45 => ⟨S320000x1, .f32⟩
  | 46 => ⟨S_, .f32⟩
  | 47 => ⟨S320000x1, .f32⟩
  | 48 => ⟨S320000x1, .f32⟩
  | 49 => ⟨S320000x3, .f32⟩
  | 50 => ⟨S320000x3, .f32⟩
  | 51 => ⟨S320000x3, .f32⟩
  | 52 => ⟨S_, .f32⟩
  | 53 => ⟨S320000, .f32⟩
  | 54 => ⟨S320000x1, .f32⟩
  | 55 => ⟨S1x15, .f32⟩
  | 56 => ⟨S320000x15, .f32⟩
  | 57 => ⟨S320000x15, .f32⟩
  | 58 => ⟨S320000x15, .f32⟩
  | 59 => ⟨S320000x15, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x5x3, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000x5x3, .f32⟩
  | 78 => ⟨S320000x5x3, .f32⟩
  | 79 => ⟨S_, .f32⟩
  | 80 => ⟨S320000x5, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000x128, .f32⟩
  | 90 => ⟨S_, .i32⟩
  | 91 => ⟨S320000, .i32⟩
  | 92 => ⟨S320000, .i1⟩
  | 93 => ⟨S_, .i32⟩
  | 94 => ⟨S320000, .i32⟩
  | 95 => ⟨S320000, .i32⟩
  | 96 => ⟨S320000, .i32⟩
  | 97 => ⟨S320000x1, .i32⟩
  | 98 => ⟨S320000x128, .f32⟩
  | 99 => ⟨S_, .i32⟩
  | 100 => ⟨S320000, .i32⟩
  | 101 => ⟨S320000, .i1⟩
  | 102 => ⟨S_, .i32⟩
  | 103 => ⟨S320000, .i32⟩
  | 104 => ⟨S320000, .i32⟩
  | 105 => ⟨S320000, .i32⟩
  | 106 => ⟨S320000x1, .i32⟩
  | 107 => ⟨S320000x128, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000x128, .f32⟩
  | 117 => ⟨S320000x512, .f32⟩
  | 118 => ⟨S320000x20, .f32⟩
  | 119 => ⟨S320000x128, .f32⟩
  | 120 => ⟨S1x128, .f32⟩
  | 121 => ⟨S320000x128, .f32⟩
  | 122 => ⟨S320000x128, .f32⟩
  | 123 => ⟨S320000x128, .f32⟩
  | 124 => ⟨S320000x128, .f32⟩
  | 125 => ⟨S_, .f32⟩
  | 126 => ⟨S320000x128, .f32⟩
  | 127 => ⟨S320000x128, .f32⟩
  | _ => ⟨S10000x128, .f32⟩

abbrev hbmTy0_1 (i : Nat) : BufTy := match i % 128 with
  | 0 => ⟨S_, .f32⟩
  | 1 => ⟨S320000x128, .f32⟩
  | 2 => ⟨S320000x128, .f32⟩
  | 3 => ⟨S320000x128, .f32⟩
  | 4 => ⟨S320000x128, .f32⟩
  | 5 => ⟨S1x128, .f32⟩
  | 6 => ⟨S320000x128, .f32⟩
  | 7 => ⟨S320000x128, .f32⟩
  | 8 => ⟨S320000x128, .f32⟩
  | 9 => ⟨S320000x128, .f32⟩
  | 10 => ⟨S_, .f32⟩
  | 11 => ⟨S320000x128, .f32⟩
  | 12 => ⟨S320000x128, .f32⟩
  | 13 => ⟨S_, .f32⟩
  | 14 => ⟨S320000x128, .f32⟩
  | 15 => ⟨S320000x128, .f32⟩
  | 16 => ⟨S320000x128, .f32⟩
  | 17 => ⟨S320000x128, .f32⟩
  | 18 => ⟨S1x128, .f32⟩
  | 19 => ⟨S320000x128, .f32⟩
  | 20 => ⟨S320000x128, .f32⟩
  | 21 => ⟨S320000x128, .f32⟩
  | 22 => ⟨S320000x128, .f32⟩
  | 23 => ⟨S_, .f32⟩
  | 24 => ⟨S320000x128, .f32⟩
  | 25 => ⟨S320000x128, .f32⟩
  | 26 => ⟨S_, .f32⟩
  | 27 => ⟨S320000x128, .f32⟩
  | 28 => ⟨S320000x128, .f32⟩
  | 29 => ⟨S320000x128, .f32⟩
  | 30 => ⟨S320000x128, .f32⟩
  | 31 => ⟨S1x128, .f32⟩
  | 32 => ⟨S320000x128, .f32⟩
  | 33 => ⟨S320000x128, .f32⟩
  | 34 => ⟨S320000x128, .f32⟩
  | 35 => ⟨S320000x128, .f32⟩
  | 36 => ⟨S_, .f32⟩
  | 37 => ⟨S320000x128, .f32⟩
  | 38 => ⟨S320000x128, .f32⟩
  | 39 => ⟨S_, .f32⟩
  | 40 => ⟨S320000x128, .f32⟩
  | 41 => ⟨S320000x128, .f32⟩
  | 42 => ⟨S320000x128, .f32⟩
  | 43 => ⟨S320000x128, .f32⟩
  | 44 => ⟨S1x128, .f32⟩
  | 45 => ⟨S320000x128, .f32⟩
  | 46 => ⟨S320000x128, .f32⟩
  | 47 => ⟨S320000x128, .f32⟩
  | 48 => ⟨S320000x128, .f32⟩
  | 49 => ⟨S_, .f32⟩
  | 50 => ⟨S320000x128, .f32⟩
  | 51 => ⟨S320000x128, .f32⟩
  | 52 => ⟨S_, .f32⟩
  | 53 => ⟨S320000x128, .f32⟩
  | 54 => ⟨S320000x128, .f32⟩
  | 55 => ⟨S320000x128, .f32⟩
  | 56 => ⟨S320000x128, .f32⟩
  | 57 => ⟨S320000x1, .f32⟩
  | 58 => ⟨S1x1, .f32⟩
  | 59 => ⟨S320000x1, .f32⟩
  | 60 => ⟨S320000x1, .f32⟩
  | 61 => ⟨S320000x1, .f32⟩
  | 62 => ⟨S320000x1, .f32⟩
  | 63 => ⟨S_, .f32⟩
  | 64 => ⟨S320000x1, .f32⟩
  | 65 => ⟨S320000x1, .f32⟩
  | 66 => ⟨S_, .f32⟩
  | 67 => ⟨S320000x1, .f32⟩
  | 68 => ⟨S320000x1, .f32⟩
  | 69 => ⟨S320000x128, .f32⟩
  | 70 => ⟨S320000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_v0 : Ref sig .tc := ⟨.hbm, 41, rfl⟩
abbrev main_call0_cst : Ref sig .tc := ⟨.hbm, 42, rfl⟩
abbrev main_call0_v1 : Ref sig .tc := ⟨.hbm, 43, rfl⟩
abbrev main_call0_v2 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_5 : Ref sig .tc := ⟨.hbm, 60, rfl⟩
abbrev main_v32 : Ref sig .tc := ⟨.hbm, 61, rfl⟩
abbrev main_v33 : Ref sig .tc := ⟨.hbm, 62, rfl⟩
abbrev main_c_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_7 : Ref sig .tc := ⟨.hbm, 69, rfl⟩
abbrev main_v39 : Ref sig .tc := ⟨.hbm, 70, rfl⟩
abbrev main_v40 : Ref sig .tc := ⟨.hbm, 71, rfl⟩
abbrev main_c_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_9 : Ref sig .tc := ⟨.hbm, 79, rfl⟩
abbrev main_v47 : Ref sig .tc := ⟨.hbm, 80, rfl⟩
abbrev main_c_10 : Ref sig .tc := ⟨.hbm, 81, rfl⟩
abbrev main_v48 : Ref sig .tc := ⟨.hbm, 82, rfl⟩
abbrev main_v49 : Ref sig .tc := ⟨.hbm, 83, rfl⟩
abbrev main_c_11 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_12 : Ref sig .tc := ⟨.hbm, 90, rfl⟩
abbrev main_v55 : Ref sig .tc := ⟨.hbm, 91, rfl⟩
abbrev main_v56 : Ref sig .tc := ⟨.hbm, 92, rfl⟩
abbrev main_c_13 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_14 : Ref sig .tc := ⟨.hbm, 99, rfl⟩
abbrev main_v62 : Ref sig .tc := ⟨.hbm, 100, rfl⟩
abbrev main_v63 : Ref sig .tc := ⟨.hbm, 101, rfl⟩
abbrev main_c_15 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_c_16 : Ref sig .tc := ⟨.hbm, 108, rfl⟩
abbrev main_v69 : Ref sig .tc := ⟨.hbm, 109, rfl⟩
abbrev main_v70 : Ref sig .tc := ⟨.hbm, 110, rfl⟩
abbrev main_c_17 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_call1_v0 : Ref sig .tc := ⟨.hbm, 123, rfl⟩
abbrev main_call1_v1 : Ref sig .tc := ⟨.hbm, 124, rfl⟩
abbrev main_call1_cst : Ref sig .tc := ⟨.hbm, 125, rfl⟩
abbrev main_call1_v2 : Ref sig .tc := ⟨.hbm, 126, rfl⟩
abbrev main_call1_v3 : Ref sig .tc := ⟨.hbm, 127, rfl⟩
abbrev main_call1_cst_0 : Ref sig .tc := ⟨.hbm, 128, rfl⟩
abbrev main_call1_v4 : Ref sig .tc := ⟨.hbm, 129, rfl⟩
abbrev main_call1_v5 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_call2_v0 : Ref sig .tc := ⟨.hbm, 136, rfl⟩
abbrev main_call2_v1 : Ref sig .tc := ⟨.hbm, 137, rfl⟩
abbrev main_call2_cst : Ref sig .tc := ⟨.hbm, 138, rfl⟩
abbrev main_call2_v2 : Ref sig .tc := ⟨.hbm, 139, rfl⟩
abbrev main_call2_v3 : Ref sig .tc := ⟨.hbm, 140, rfl⟩
abbrev main_call2_cst_0 : Ref sig .tc := ⟨.hbm, 141, rfl⟩
abbrev main_call2_v4 : Ref sig .tc := ⟨.hbm, 142, rfl⟩
abbrev main_call2_v5 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_call3_v0 : Ref sig .tc := ⟨.hbm, 149, rfl⟩
abbrev main_call3_v1 : Ref sig .tc := ⟨.hbm, 150, rfl⟩
abbrev main_call3_cst : Ref sig .tc := ⟨.hbm, 151, rfl⟩
abbrev main_call3_v2 : Ref sig .tc := ⟨.hbm, 152, rfl⟩
abbrev main_call3_v3 : Ref sig .tc := ⟨.hbm, 153, rfl⟩
abbrev main_call3_cst_0 : Ref sig .tc := ⟨.hbm, 154, rfl⟩
abbrev main_call3_v4 : Ref sig .tc := ⟨.hbm, 155, rfl⟩
abbrev main_call3_v5 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_call4_v0 : Ref sig .tc := ⟨.hbm, 162, rfl⟩
abbrev main_call4_v1 : Ref sig .tc := ⟨.hbm, 163, rfl⟩
abbrev main_call4_cst : Ref sig .tc := ⟨.hbm, 164, rfl⟩
abbrev main_call4_v2 : Ref sig .tc := ⟨.hbm, 165, rfl⟩
abbrev main_call4_v3 : Ref sig .tc := ⟨.hbm, 166, rfl⟩
abbrev main_call4_cst_0 : Ref sig .tc := ⟨.hbm, 167, rfl⟩
abbrev main_call4_v4 : Ref sig .tc := ⟨.hbm, 168, rfl⟩
abbrev main_call4_v5 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_call5_v0 : Ref sig .tc := ⟨.hbm, 175, rfl⟩
abbrev main_call5_v1 : Ref sig .tc := ⟨.hbm, 176, rfl⟩
abbrev main_call5_cst : Ref sig .tc := ⟨.hbm, 177, rfl⟩
abbrev main_call5_v2 : Ref sig .tc := ⟨.hbm, 178, rfl⟩
abbrev main_call5_v3 : Ref sig .tc := ⟨.hbm, 179, rfl⟩
abbrev main_call5_cst_0 : Ref sig .tc := ⟨.hbm, 180, rfl⟩
abbrev main_call5_v4 : Ref sig .tc := ⟨.hbm, 181, rfl⟩
abbrev main_call5_v5 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_cst_18 : Ref sig .tc := ⟨.hbm, 191, rfl⟩
abbrev main_v110 : Ref sig .tc := ⟨.hbm, 192, rfl⟩
abbrev main_v111 : Ref sig .tc := ⟨.hbm, 193, rfl⟩
abbrev main_cst_19 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  reducesTo_S320000x3_S320000_d1 : S320000x3.ReducesTo [1] S320000
  h_S_ : 0 < S_.numel
  bcast_S_S320000x1 : S_.BroadcastsInDim S320000x1 (![] : Fin 0 → Fin S320000x1.rank)
  bcast_S320000x1_S320000x3_0_1 : S320000x1.BroadcastsInDim S320000x3 (![0, 1] : Fin 2 → Fin S320000x3.rank)
  bcast_S15_S1x15_1 : S15.BroadcastsInDim S1x15 (![1] : Fin 1 → Fin S1x15.rank)
  bcast_S320000x1_S320000x15_0_1 : S320000x1.BroadcastsInDim S320000x15 (![0, 1] : Fin 2 → Fin S320000x15.rank)
  bcast_S1x15_S320000x15_0_1 : S1x15.BroadcastsInDim S320000x15 (![0, 1] : Fin 2 → Fin S320000x15.rank)
  reducesTo_S320000x5x3_S320000x5_d2 : S320000x5x3.ReducesTo [2] S320000x5
  concatenates_S320000x128_S320000x128_S320000x128_S320000x128_S320000x512_d1 : Shape.Concatenates [S320000x128, S320000x128, S320000x128, S320000x128] S320000x512 1
  concatenates_S320000x5_S320000x15_S320000x20_d1 : Shape.Concatenates [S320000x5, S320000x15] S320000x20 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  bcast_S320000x1_S320000x128_0_1 : S320000x1.BroadcastsInDim S320000x128 (![0, 1] : Fin 2 → Fin S320000x128.rank)
  gather_S10000x3_S320000x1_S320000x3_1_0_n_n_0_1_13_wf : GatherDims.WF S10000x3 S320000x1 S320000x3 [1] [0] [] [0] [] 1 ![1, 3]
  gather_S10000x5x3_S320000x1_S320000x5x3_12_0_n_n_0_1_153_wf : GatherDims.WF S10000x5x3 S320000x1 S320000x5x3 [1, 2] [0] [] [0] [] 1 ![1, 5, 3]
  gather_S10000x128_S320000x1_S320000x128_1_0_n_n_0_1_1128_wf : GatherDims.WF S10000x128 S320000x1 S320000x128 [1] [0] [] [0] [] 1 ![1, 128]
  dot_S320000x512_S512x128_S320000x128_1_0_0_1_n_n_wf : DotDims.WF S320000x512 S512x128 S320000x128 [1] [0] [0] [1] [] []
  dot_S320000x128_S128x128_S320000x128_1_0_0_1_n_n_wf : DotDims.WF S320000x128 S128x128 S320000x128 [1] [0] [0] [1] [] []
  dot_S320000x20_S20x128_S320000x128_1_0_0_1_n_n_wf : DotDims.WF S320000x20 S20x128 S320000x128 [1] [0] [0] [1] [] []
  dot_S320000x128_S128x1_S320000x1_1_0_0_1_n_n_wf : DotDims.WF S320000x128 S128x1 S320000x1 [1] [0] [0] [1] [] []

variable [Facts₀]

def gather_S10000x3_S320000x1_S320000x3_1_0_n_n_0_1_13 : GatherDims S10000x3 S320000x1 S320000x3 where
  offsetDims := [1]
  collapsedSliceDims := [0]
  operandBatchingDims := []
  startIndicesBatchingDims := []
  startIndexMap := [0]
  indexVectorDim := 1
  sliceSizes := ![1, 3]
  wf := gather_S10000x3_S320000x1_S320000x3_1_0_n_n_0_1_13_wf
def gather_S10000x5x3_S320000x1_S320000x5x3_12_0_n_n_0_1_153 : GatherDims S10000x5x3 S320000x1 S320000x5x3 where
  offsetDims := [1, 2]
  collapsedSliceDims := [0]
  operandBatchingDims := []
  startIndicesBatchingDims := []
  startIndexMap := [0]
  indexVectorDim := 1
  sliceSizes := ![1, 5, 3]
  wf := gather_S10000x5x3_S320000x1_S320000x5x3_12_0_n_n_0_1_153_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x512_S512x128_S320000x128_1_0_0_1_n_n : DotDims S320000x512 S512x128 S320000x128 where
  lhsContracting := [1]
  rhsContracting := [0]
  lhsNonContracting := [0]
  rhsNonContracting := [1]
  lhsBatch := []
  rhsBatch := []
  wf := dot_S320000x512_S512x128_S320000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def dot_S320000x20_S20x128_S320000x128_1_0_0_1_n_n : DotDims S320000x20 S20x128 S320000x128 where
  lhsContracting := [1]
  rhsContracting := [0]
  lhsNonContracting := [0]
  rhsNonContracting := [1]
  lhsBatch := []
  rhsBatch := []
  wf := dot_S320000x20_S20x128_S320000x128_1_0_0_1_n_n_wf
def dot_S320000x128_S128x1_S320000x1_1_0_0_1_n_n : DotDims S320000x128 S128x1 S320000x1 where
  lhsContracting := [1]
  rhsContracting := [0]
  lhsNonContracting := [0]
  rhsNonContracting := [1]
  lhsBatch := []
  rhsBatch := []
  wf := dot_S320000x128_S128x1_S320000x1_1_0_0_1_n_n_wf

class Facts : Prop extends Facts₀ where

variable [Facts]
-- ==== Proof.RowSpec.lean ====
/-
  The per-edge arithmetic, on the extended reals, as functions of ROWS.

  Every result row of the message network depends only on the same row of its five edge inputs (the four gathered
  node-feature rows and the twenty geometric features) and on the weights: two two-layer perceptrons with the gate
  `x ↦ x · 1/(1 + e^(-x))`, a gated product and an attention gate.  Both programs are read against these functions:
  the kernel block by block (a row of a block is a row of the array), the reference on whole arrays.

  The one algebraic law: the first layer of the feature perceptron contracts a row of length 512 that is the
  concatenation of four rows of length 128; the kernel contracts the four quarters separately against the four
  quarters of the weight and adds the partial sums.  A finite sum over `Fin 512` splits into the four quarter sums
  (`sum512`), in any additive commutative monoid, so no finiteness is needed.
-/
import Idealize.ShloMosaic.PureOps.Ideal
import Idealize.ShloMosaic.PureOps.Ideal.Laws
import Idealize.ShloMosaic.Lib.ValueIdx

noncomputable section

namespace Cert.EdgeMlp

open Idealize.ShloMosaic

/-- The gate `x · 1/(1 + e^(-x))`. -/
def gate (x : EReal) : EReal := x * Ideal.logistic x

/-- One dense layer on a row: `∑ₖ x k · W k j + b j`. -/
def dense {K N : Nat} (x : Fin K → EReal) (W : Fin K → Fin N → EReal) (b : Fin N → EReal) (j : Fin N) : EReal :=
  (∑ k : Fin K, x k * W k j) + b j

/-- Position `k` of quarter `q` of a row of length 512. -/
def at4 (q : Fin 4) (k : Fin 128) : Fin 512 := ⟨k.val + 128 * q.val, by have := q.isLt; have := k.isLt; omega⟩

/-- The dense layer on four rows of length 128 against the four quarters of a 512-row weight, the partial sums added
    left to right, then the bias. -/
def dense4 (x0 x1 x2 x3 : Fin 128 → EReal) (W : Fin 512 → Fin 128 → EReal) (b : Fin 128 → EReal) (j : Fin 128) : EReal :=
  ((((∑ k : Fin 128, x0 k * W (at4 0 k) j) + ∑ k : Fin 128, x1 k * W (at4 1 k) j) + ∑ k : Fin 128, x2 k * W (at4 2 k) j)
    + ∑ k : Fin 128, x3 k * W (at4 3 k) j) + b j

/-- Four rows of length 128 laid end to end. -/
def cat4 (x0 x1 x2 x3 : Fin 128 → EReal) (k : Fin 512) : EReal :=
  if h0 : k.val < 128 then x0 ⟨k.val, h0⟩
  else if h1 : k.val < 256 then x1 ⟨k.val - 128, by omega⟩
  else if h2 : k.val < 384 then x2 ⟨k.val - 256, by omega⟩
  else x3 ⟨k.val - 384, by have := k.isLt; omega⟩

theorem cat4_at0 (x0 x1 x2 x3 : Fin 128 → EReal) (k : Fin 128) : cat4 x0 x1 x2 x3 (at4 0 k) = x0 k := by
  have hk := k.isLt
  have hv : (at4 0 k).val = k.val := by show k.val + 128 * 0 = k.val; omega
  unfold cat4
  rw [dif_pos (by rw [hv]; exact hk)]
  exact congrArg x0 (Fin.ext hv)

theorem cat4_at1 (x0 x1 x2 x3 : Fin 128 → EReal) (k : Fin 128) : cat4 x0 x1 x2 x3 (at4 1 k) = x1 k := by
  have hk := k.isLt
  have hv : (at4 1 k).val = k.val + 128 := by show k.val + 128 * 1 = k.val + 128; omega
  unfold cat4
  rw [dif_neg (by rw [hv]; omega), dif_pos (by rw [hv]; omega)]
  exact congrArg x1 (Fin.ext (by show (at4 1 k).val - 128 = k.val; rw [hv]; omega))

theorem cat4_at2 (x0 x1 x2 x3 : Fin 128 → EReal) (k : Fin 128) : cat4 x0 x1 x2 x3 (at4 2 k) = x2 k := by
  have hk := k.isLt
  have hv : (at4 2 k).val = k.val + 256 := by show k.val + 128 * 2 = k.val + 256; omega
  unfold cat4
  rw [dif_neg (by rw [hv]; omega), dif_neg (by rw [hv]; omega), dif_pos (by rw [hv]; omega)]
  exact congrArg x2 (Fin.ext (by show (at4 2 k).val - 256 = k.val; rw [hv]; omega))

theorem cat4_at3 (x0 x1 x2 x3 : Fin 128 → EReal) (k : Fin 128) : cat4 x0 x1 x2 x3 (at4 3 k) = x3 k := by
  have hk := k.isLt
  have hv : (at4 3 k).val = k.val + 384 := by show k.val + 128 * 3 = k.val + 384; omega
  unfold cat4
  rw [dif_neg (by rw [hv]; omega), dif_neg (by rw [hv]; omega), dif_neg (by rw [hv]; omega)]
  exact congrArg x3 (Fin.ext (by show (at4 3 k).val - 384 = k.val; rw [hv]; omega))

/-- A sum over 512 positions is the sum of its four quarter sums. -/
theorem sum512 {M : Type} [AddCommMonoid M] (f : Fin 512 → M) :
    ∑ k : Fin 512, f k
      = (((∑ k : Fin 128, f (at4 0 k)) + ∑ k : Fin 128, f (at4 1 k)) + ∑ k : Fin 128, f (at4 2 k)) + ∑ k : Fin 128, f (at4 3 k) := by
  have key : ∀ g : Fin (128 + 128 + 128 + 128) → M, ∑ k, g k
      = (((∑ k : Fin 128, g (Fin.castAdd 128 (Fin.castAdd 128 (Fin.castAdd 128 k)))) + ∑ k : Fin 128, g (Fin.castAdd 128 (Fin.castAdd 128 (Fin.natAdd 128 k))))
          + ∑ k : Fin 128, g (Fin.castAdd 128 (Fin.natAdd (128 + 128) k))) + ∑ k : Fin 128, g (Fin.natAdd (128 + 128 + 128) k) := by
    intro g
    rw [Fin.sum_univ_add, Fin.sum_univ_add, Fin.sum_univ_add]
  refine (key f).trans ?_
  have e0 : ∀ k : Fin 128, (Fin.castAdd 128 (Fin.castAdd 128 (Fin.castAdd 128 k)) : Fin (128 + 128 + 128 + 128)) = at4 0 k :=
    fun k => Fin.ext (by show k.val = k.val + 128 * 0; omega)
  have e1 : ∀ k : Fin 128, (Fin.castAdd 128 (Fin.castAdd 128 (Fin.natAdd 128 k)) : Fin (128 + 128 + 128 + 128)) = at4 1 k :=
    fun k => Fin.ext (by show 128 + k.val = k.val + 128 * 1; omega)
  have e2 : ∀ k : Fin 128, (Fin.castAdd 128 (Fin.natAdd (128 + 128) k) : Fin (128 + 128 + 128 + 128)) = at4 2 k :=
    fun k => Fin.ext (by show 128 + 128 + k.val = k.val + 128 * 2; omega)
  have e3 : ∀ k : Fin 128, (Fin.natAdd (128 + 128 + 128) k : Fin (128 + 128 + 128 + 128)) = at4 3 k :=
    fun k => Fin.ext (by show 128 + 128 + 128 + k.val = k.val + 128 * 3; omega)
  simp only [e0, e1, e2, e3]

/-- The dense layer on the concatenated row is the dense layer on the four quarters. -/
theorem dense_cat4 (x0 x1 x2 x3 : Fin 128 → EReal) (W : Fin 512 → Fin 128 → EReal) (b : Fin 128 → EReal) (j : Fin 128) :
    dense (cat4 x0 x1 x2 x3) W b j = dense4 x0 x1 x2 x3 W b j := by
  unfold dense dense4
  rw [sum512]
  simp only [cat4_at0, cat4_at1, cat4_at2, cat4_at3]

/-- The feature perceptron's row: two gated dense layers, the first on the four gathered rows. -/
def chemRow (x0 x1 x2 x3 : Fin 128 → EReal) (W1 : Fin 512 → Fin 128 → EReal) (b1 : Fin 128 → EReal)
    (W2 : Fin 128 → Fin 128 → EReal) (b2 : Fin 128 → EReal) : Fin 128 → EReal :=
  fun j => gate (dense (fun k => gate (dense4 x0 x1 x2 x3 W1 b1 k)) W2 b2 j)

/-- The geometric perceptron's row: two gated dense layers on the twenty geometric features. -/
def posRow (p : Fin 20 → EReal) (W1 : Fin 20 → Fin 128 → EReal) (b1 : Fin 128 → EReal)
    (W2 : Fin 128 → Fin 128 → EReal) (b2 : Fin 128 → EReal) : Fin 128 → EReal :=
  fun j => gate (dense (fun k => gate (dense p W1 b1 k)) W2 b2 j)

/-- The gated product before attention. -/
def preRow (chem pos : Fin 128 → EReal) (Ws : Fin 128 → Fin 128 → EReal) (bs : Fin 128 → EReal) : Fin 128 → EReal :=
  fun j => gate (dense chem Ws bs j) * pos j

/-- The attention logit of a row. -/
def attLogit (pre : Fin 128 → EReal) (aw : Fin 128 → Fin 1 → EReal) (ab : Fin 1 → EReal) : EReal := dense pre aw ab 0

/-- The result row: the gated product scaled by the logistic of its attention logit. -/
def outRow (pre : Fin 128 → EReal) (aw : Fin 128 → Fin 1 → EReal) (ab : Fin 1 → EReal) : Fin 128 → EReal :=
  fun j => pre j * Ideal.logistic (attLogit pre aw ab)

/-! ## A plain matrix product's contraction as a sum over `Fin K` -/

open ValueIdx in
/-- For dimension numbers that contract the left operand's columns with the right operand's rows (stated by what the
    operand indices are, coordinate by coordinate), the contraction over the product's own index type is the sum over
    `Fin K` of `l (r, k) · r (k, c)`. -/
theorem plainDot_sum {A K B : Nat} (d : DotDims ⟨2, ![A, K]⟩ ⟨2, ![K, B]⟩ ⟨2, ![A, B]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  have el : ∀ k : d.contr.Idx, d.lhsIdx j k = ix2 (j 0) (contrEquiv1 d K hr hs k) := fun k => by
    funext a
    match a with
    | ⟨0, _⟩ => exact Fin.ext (hl0 j k)
    | ⟨1, _⟩ => exact Fin.ext (hl1 j k)
  have er : ∀ k : d.contr.Idx, d.rhsIdx j k = ix2 (contrEquiv1 d K hr hs k) (j 1) := fun k => by
    funext a
    match a with
    | ⟨0, _⟩ => exact Fin.ext (hr0 j k)
    | ⟨1, _⟩ => exact Fin.ext (hr1 j k)
  refine (Finset.sum_congr rfl fun k _ => by rw [el k, er k]).trans ?_
  exact Equiv.sum_comp (contrEquiv1 d K hr hs) fun k : Fin K => l (ix2 (j 0) k) * r (ix2 k (j 1))

/-! ## The same on arrays: a result entry is the row function of the entry's row -/

open ValueIdx

/-- A matrix of extended reals. -/
abbrev Mat (A B : Nat) := (⟨2, ![A, B]⟩ : Shape).Idx → EReal

/-- Row `i` of a matrix. -/
def rowOf {A B : Nat} (X : Mat A B) (i : Fin A) : Fin B → EReal := fun k => X (ix2 i k)

/-- A matrix by its two coordinates. -/
def matOf {A B : Nat} (W : Mat A B) : Fin A → Fin B → EReal := fun k c => W (ix2 k c)

/-- A vector by its coordinate. -/
def vecOf {A : Nat} (b : (⟨1, ![A]⟩ : Shape).Idx → EReal) : Fin A → EReal := fun c => b (ix1 c)

/-- The feature perceptron on every row of the four gathered arrays. -/
def chemArr {E : Nat} (HR HC NR NC : Mat E 128) (w1 : Mat 512 128) (b1 : Fin 128 → EReal) (w2 : Mat 128 128) (b2 : Fin 128 → EReal) :
    Mat E 128 :=
  fun i => chemRow (rowOf HR (i 0)) (rowOf HC (i 0)) (rowOf NR (i 0)) (rowOf NC (i 0)) (matOf w1) b1 (matOf w2) b2 (i 1)

/-- The geometric perceptron on every row of the geometric features. -/
def posArr {E : Nat} (P : Mat E 20) (w1 : Mat 20 128) (b1 : Fin 128 → EReal) (w2 : Mat 128 128) (b2 : Fin 128 → EReal) : Mat E 128 :=
  fun i => posRow (rowOf P (i 0)) (matOf w1) b1 (matOf w2) b2 (i 1)

/-- The gated product on every row. -/
def preArr {E : Nat} (chem pos : Mat E 128) (ws : Mat 128 128) (bs : Fin 128 → EReal) : Mat E 128 :=
  fun i => gate (dense (rowOf chem (i 0)) (matOf ws) bs (i 1)) * pos i

/-- The attention-gated result on every row. -/
def outArr {E : Nat} (pre : Mat E 128) (aw : Mat 128 1) (ab : Fin 1 → EReal) : Mat E 128 :=
  fun i => pre i * Ideal.logistic (attLogit (rowOf pre (i 0)) (matOf aw) ab)

/-! ## A block of rows of an array: the row functions see only the rows -/

theorem chemArr_restrict {E E' : Nat} {HR HC NR NC : Mat E 128} {HR' HC' NR' NC' : Mat E' 128} {w1 w1' : Mat 512 128}
    {b1 b1' : Fin 128 → EReal} {w2 w2' : Mat 128 128} {b2 b2' : Fin 128 → EReal} (r : Fin E) (r' : Fin E')
    (h0 : rowOf HR r = rowOf HR' r') (h1 : rowOf HC r = rowOf HC' r') (h2 : rowOf NR r = rowOf NR' r') (h3 : rowOf NC r = rowOf NC' r')
    (hw1 : w1 = w1') (hb1 : b1 = b1') (hw2 : w2 = w2') (hb2 : b2 = b2') (k : Fin 128) :
    chemArr HR HC NR NC w1 b1 w2 b2 (ix2 r k) = chemArr HR' HC' NR' NC' w1' b1' w2' b2' (ix2 r' k) := by
  subst hw1 hb1 hw2 hb2
  show chemRow (rowOf HR r) (rowOf HC r) (rowOf NR r) (rowOf NC r) (matOf w1) b1 (matOf w2) b2 k
    = chemRow (rowOf HR' r') (rowOf HC' r') (rowOf NR' r') (rowOf NC' r') (matOf w1) b1 (matOf w2) b2 k
  rw [h0, h1, h2, h3]

theorem posArr_restrict {E E' : Nat} {P : Mat E 20} {P' : Mat E' 20} {w1 w1' : Mat 20 128} {b1 b1' : Fin 128 → EReal}
    {w2 w2' : Mat 128 128} {b2 b2' : Fin 128 → EReal} (r : Fin E) (r' : Fin E') (h : rowOf P r = rowOf P' r')
    (hw1 : w1 = w1') (hb1 : b1 = b1') (hw2 : w2 = w2') (hb2 : b2 = b2') (k : Fin 128) :
    posArr P w1 b1 w2 b2 (ix2 r k) = posArr P' w1' b1' w2' b2' (ix2 r' k) := by
  subst hw1 hb1 hw2 hb2
  show posRow (rowOf P r) (matOf w1) b1 (matOf w2) b2 k = posRow (rowOf P' r') (matOf w1) b1 (matOf w2) b2 k
  rw [h]

theorem preArr_restrict {E E' : Nat} {chem pos : Mat E 128} {chem' pos' : Mat E' 128} {ws ws' : Mat 128 128}
    {bs bs' : Fin 128 → EReal} (r : Fin E) (r' : Fin E') (hc : rowOf chem r = rowOf chem' r') (hp : rowOf pos r = rowOf pos' r')
    (hws : ws = ws') (hbs : bs = bs') (k : Fin 128) :
    preArr chem pos ws bs (ix2 r k) = preArr chem' pos' ws' bs' (ix2 r' k) := by
  subst hws hbs
  show gate (dense (rowOf chem r) (matOf ws) bs k) * pos (ix2 r k) = gate (dense (rowOf chem' r') (matOf ws) bs k) * pos' (ix2 r' k)
  rw [hc, show pos (ix2 r k) = pos' (ix2 r' k) from congrFun hp k]

theorem outArr_restrict {E E' : Nat} {pre : Mat E 128} {pre' : Mat E' 128} {aw aw' : Mat 128 1} {ab ab' : Fin 1 → EReal}
    (r : Fin E) (r' : Fin E') (hp : rowOf pre r = rowOf pre' r') (haw : aw = aw') (hab : ab = ab') (k : Fin 128) :
    outArr pre aw ab (ix2 r k) = outArr pre' aw' ab' (ix2 r' k) := by
  subst haw hab
  show pre (ix2 r k) * Ideal.logistic (attLogit (rowOf pre r) (matOf aw) ab)
    = pre' (ix2 r' k) * Ideal.logistic (attLogit (rowOf pre' r') (matOf aw) ab)
  rw [hp, show pre (ix2 r k) = pre' (ix2 r' k) from congrFun hp k]

end Cert.EdgeMlp

end
-- ==== Proof.KerPay.lean ====
/-
  The kernel body's arithmetic at the exact instance, as the row functions.

  The body loads the four gathered feature blocks, the geometric block and the weights, and computes three blocks.
  Each matrix product into a zero accumulator is, entry by entry, the plain sum over the contracted axis; a slice of
  the 512-row weight is one of its quarters; the bias blocks and the attention gate are broadcasts; a change of float
  format is the identity.  Rewriting the body's one pure term with these facts leaves exactly the row functions of
  the specification applied to the rows of the loaded blocks.
-/
import proofs.«174778_j83236466196758_2_alg».proof.Proof.Gen.KernelIdeal
import proofs.«174778_j83236466196758_2_alg».proof.Proof.Gen.KernelIdeal.Skeleton
import proofs.«174778_j83236466196758_2_alg».proof.Proof.RowSpec
import Idealize.ShloMosaic.Lib.Pipeline.Value
import Idealize.ShloMosaic.PureOps.Ideal.Laws

noncomputable section

namespace Cert.KernelIdeal.Pay

open Cert.KernelIdeal Cert.KernelIdeal.Gen Cert.EdgeMlp Idealize.ShloMosaic Idealize.ShloMosaic.ValueIdx

/-! ## The operations of the body as functions of an index -/

theorem mm128 (X : FVec Ideal S3200x128 .bf16) (W : FVec Ideal S128x128 .bf16) :
    matmul dot_S3200x128_S128x128_S3200x128_1_0_0_1_n_n none X W (constant (F := Ideal) S3200x128 .f32 0x00000000#32)
      = fun j => ∑ k : Fin 128, X (ix2 (j 0) k) * W (ix2 k (j 1)) := by
  funext j
  exact (Ideal.matmul_constant_zero_apply _ _ X W j).trans
    (plainDot_sum dot_S3200x128_S128x128_S3200x128_1_0_0_1_n_n rfl rfl (fun _ _ => rfl) (fun _ _ => rfl) (fun _ _ => rfl) (fun _ _ => rfl) X W j)

theorem mm20 (X : FVec Ideal S3200x20 .bf16) (W : FVec Ideal S20x128 .bf16) :
    matmul dot_S3200x20_S20x128_S3200x128_1_0_0_1_n_n none X W (constant (F := Ideal) S3200x128 .f32 0x00000000#32)
      = fun j => ∑ k : Fin 20, X (ix2 (j 0) k) * W (ix2 k (j 1)) := by
  funext j
  exact (Ideal.matmul_constant_zero_apply _ _ X W j).trans
    (plainDot_sum dot_S3200x20_S20x128_S3200x128_1_0_0_1_n_n rfl rfl (fun _ _ => rfl) (fun _ _ => rfl) (fun _ _ => rfl) (fun _ _ => rfl) X W j)

theorem mm1 (X : FVec Ideal S3200x128 .bf16) (W : FVec Ideal S128x1 .bf16) :
    matmul dot_S3200x128_S128x1_S3200x1_1_0_0_1_n_n none X W (constant (F := Ideal) S3200x1 .f32 0x00000000#32)
      = fun j => ∑ k : Fin 128, X (ix2 (j 0) k) * W (ix2 k (j 1)) := by
  funext j
  exact (Ideal.matmul_constant_zero_apply _ _ X W j).trans
    (plainDot_sum dot_S3200x128_S128x1_S3200x1_1_0_0_1_n_n rfl rfl (fun _ _ => rfl) (fun _ _ => rfl) (fun _ _ => rfl) (fun _ _ => rfl) X W j)

theorem quarter0 (P : FVec Ideal S512x128 .bf16) :
    extractStridedSlice S128x128 ![0, 0] P slices_S512x128_o0_0_S128x128 = fun j => P (ix2 (at4 0 (j 0)) (j 1)) := by
  funext j
  refine extractStridedSlice_apply _ P _ j (ix2 (at4 0 (j 0)) (j 1)) fun a => ?_
  match a with
  | ⟨0, _⟩ => show (j 0).val + 128 * 0 = 0 + (j 0).val; omega
  | ⟨1, _⟩ => show (j 1).val = 0 + (j 1).val; omega

theorem quarter1 (P : FVec Ideal S512x128 .bf16) :
    extractStridedSlice S128x128 ![128, 0] P slices_S512x128_o128_0_S128x128 = fun j => P (ix2 (at4 1 (j 0)) (j 1)) := by
  funext j
  refine extractStridedSlice_apply _ P _ j (ix2 (at4 1 (j 0)) (j 1)) fun a => ?_
  match a with
  | ⟨0, _⟩ => show (j 0).val + 128 * 1 = 128 + (j 0).val; omega
  | ⟨1, _⟩ => show (j 1).val = 0 + (j 1).val; omega

theorem quarter2 (P : FVec Ideal S512x128 .bf16) :
    extractStridedSlice S128x128 ![256, 0] P slices_S512x128_o256_0_S128x128 = fun j => P (ix2 (at4 2 (j 0)) (j 1)) := by
  funext j
  refine extractStridedSlice_apply _ P _ j (ix2 (at4 2 (j 0)) (j 1)) fun a => ?_
  match a with
  | ⟨0, _⟩ => show (j 0).val + 128 * 2 = 256 + (j 0).val; omega
  | ⟨1, _⟩ => show (j 1).val = 0 + (j 1).val; omega

theorem quarter3 (P : FVec Ideal S512x128 .bf16) :
    extractStridedSlice S128x128 ![384, 0] P slices_S512x128_o384_0_S128x128 = fun j => P (ix2 (at4 3 (j 0)) (j 1)) := by
  funext j
  refine extractStridedSlice_apply _ P _ j (ix2 (at4 3 (j 0)) (j 1)) fun a => ?_
  match a with
  | ⟨0, _⟩ => show (j 0).val + 128 * 3 = 384 + (j 0).val; omega
  | ⟨1, _⟩ => show (j 1).val = 0 + (j 1).val; omega

/-- A bias block `[1, 128]` spread over the rows. -/
theorem spreadRows (b : FVec Ideal S1x128 .f32) :
    broadcastTo S3200x128 b broadcasts_S1x128_S3200x128 = fun j => b (ix2 0 (j 1)) := by
  funext j
  refine broadcastTo_apply b _ j (ix2 0 (j 1)) fun a => ?_
  match a with
  | ⟨0, _⟩ => show (0 : Nat) = (if (1 : Nat) = 1 then 0 else (j 0).val); rw [if_pos rfl]
  | ⟨1, _⟩ => show (j 1).val = (if (128 : Nat) = 1 then 0 else (j 1).val); rw [if_neg (by decide)]

/-- A column `[3200, 1]` spread over the lanes. -/
theorem spreadCols (v : FVec Ideal S3200x1 .f32) :
    broadcastTo S3200x128 v broadcasts_S3200x1_S3200x128 = fun j => v (ix2 (j 0) 0) := by
  funext j
  refine broadcastTo_apply v _ j (ix2 (j 0) 0) fun a => ?_
  match a with
  | ⟨0, _⟩ => show (j 0).val = (if (3200 : Nat) = 1 then 0 else (j 0).val); rw [if_neg (by decide)]
  | ⟨1, _⟩ => show (0 : Nat) = (if (1 : Nat) = 1 then 0 else (j 1).val); rw [if_pos rfl]

/-- The one attention bias spread over the rows of a column. -/
theorem spreadOne (v : FVec Ideal S1x1 .f32) :
    broadcastTo S3200x1 v broadcasts_S1x1_S3200x1 = fun _ => v (ix2 0 0) := by
  funext j
  refine broadcastTo_apply v _ j (ix2 0 0) fun a => ?_
  match a with
  | ⟨0, _⟩ => show (0 : Nat) = (if (1 : Nat) = 1 then 0 else (j 0).val); rw [if_pos rfl]
  | ⟨1, _⟩ => show (0 : Nat) = (if (1 : Nat) = 1 then 0 else (j 1).val); rw [if_pos rfl]

/-! ## The payloads -/

/-- The second layer's pre-activation of the feature perceptron. -/
theorem pay2_eq (P0 P1 P2 P3 : Vec Ideal S3200x128 .bf16) (P4 : Vec Ideal S512x128 .bf16) (P5 : Vec Ideal S1x128 .f32)
    (P6 : Vec Ideal S128x128 .bf16) (P7 : Vec Ideal S1x128 .f32) :
    k0_pay2 P0 P1 P2 P3 P4 P5 P6 P7
      = fun j => dense (fun k => gate (dense4 (rowOf P0 (j 0)) (rowOf P1 (j 0)) (rowOf P2 (j 0)) (rowOf P3 (j 0)) (matOf P4) (fun c => P5 (ix2 0 c)) k))
          (matOf P6) (fun c => P7 (ix2 0 c)) (j 1) := by
  unfold k0_pay2
  simp only [shapeCast_self, mm128, quarter0, quarter1, quarter2, quarter3, spreadRows]
  rfl

/-- The feature perceptron's block is the feature perceptron on the rows of the four loaded blocks. -/
theorem chem_block (P0 P1 P2 P3 : Vec Ideal S3200x128 .bf16) (P4 : Vec Ideal S512x128 .bf16) (P5 : Vec Ideal S1x128 .f32)
    (P6 : Vec Ideal S128x128 .bf16) (P7 : Vec Ideal S1x128 .f32) :
    k0_pay4 (k0_pay2 P0 P1 P2 P3 P4 P5 P6 P7) (k0_pay3 P0 P1 P2 P3 P4 P5 P6 P7)
      = chemArr (E := 3200) P0 P1 P2 P3 P4 (fun c => P5 (ix2 0 c)) P6 (fun c => P7 (ix2 0 c)) := by
  unfold k0_pay4 k0_pay3
  rw [pay2_eq]
  rfl

/-- The geometric perceptron's block. -/
theorem pos_block (P8 : Vec Ideal S3200x20 .bf16) (P9 : Vec Ideal S20x128 .bf16) (P10 : Vec Ideal S1x128 .f32)
    (P11 : Vec Ideal S128x128 .bf16) (P12 : Vec Ideal S1x128 .f32) :
    k0_pay5 P8 P9 P10 P11 P12 = posArr (E := 3200) P8 P9 (fun c => P10 (ix2 0 c)) P11 (fun c => P12 (ix2 0 c)) := by
  unfold k0_pay5
  simp only [shapeCast_self, mm128, mm20, spreadRows]
  rfl

/-- The gated product's block, over whatever the first two values are. -/
theorem pre_block (v36 v37 : FVec Ideal S3200x128 .f32) (P8 : Vec Ideal S3200x20 .bf16) (P9 : Vec Ideal S20x128 .bf16) (P10 : Vec Ideal S1x128 .f32)
    (P11 : Vec Ideal S128x128 .bf16) (P12 : Vec Ideal S1x128 .f32) (P13 : Vec Ideal S128x128 .bf16) (P14 : Vec Ideal S1x128 .f32) :
    k0_pay6 v36 v37 P8 P9 P10 P11 P12 P13 P14
      = preArr (E := 3200) (k0_pay4 v36 v37) (k0_pay5 P8 P9 P10 P11 P12) P13 (fun c => P14 (ix2 0 c)) := by
  unfold k0_pay6
  simp only [shapeCast_self, mm128, spreadRows]
  rfl

/-- The attention logits' column, before the bias. -/
theorem att_block (v36 v37 : FVec Ideal S3200x128 .f32) (P8 : Vec Ideal S3200x20 .bf16) (P9 : Vec Ideal S20x128 .bf16) (P10 : Vec Ideal S1x128 .f32)
    (P11 : Vec Ideal S128x128 .bf16) (P12 : Vec Ideal S1x128 .f32) (P13 : Vec Ideal S128x128 .bf16) (P14 : Vec Ideal S1x128 .f32) (P15 : Vec Ideal S128x1 .bf16) :
    k0_pay7 v36 v37 P8 P9 P10 P11 P12 P13 P14 P15
      = fun j => ∑ k : Fin 128, k0_pay6 v36 v37 P8 P9 P10 P11 P12 P13 P14 (ix2 (j 0) k) * P15 (ix2 k (j 1)) := by
  unfold k0_pay7
  simp only [shapeCast_self, mm1]
  rfl

/-- The result block from the gated product and the logits' column. -/
theorem gate_block (v73 : FVec Ideal S3200x128 .f32) (v77 : FVec Ideal S3200x1 .f32) (P16 : Vec Ideal S1x1 .f32) :
    k0_pay1 v73 v77 P16 = fun j => v73 j * Ideal.logistic (v77 (ix2 (j 0) 0) + P16 (ix2 0 0)) := by
  unfold k0_pay1
  simp only [shapeCast_self, spreadOne, spreadCols]
  rfl

/-- The result block is the attention-gated product on the rows of the loaded blocks. -/
theorem out_block (P0 P1 P2 P3 : Vec Ideal S3200x128 .bf16) (P4 : Vec Ideal S512x128 .bf16) (P5 : Vec Ideal S1x128 .f32)
    (P6 : Vec Ideal S128x128 .bf16) (P7 : Vec Ideal S1x128 .f32) (P8 : Vec Ideal S3200x20 .bf16) (P9 : Vec Ideal S20x128 .bf16) (P10 : Vec Ideal S1x128 .f32)
    (P11 : Vec Ideal S128x128 .bf16) (P12 : Vec Ideal S1x128 .f32) (P13 : Vec Ideal S128x128 .bf16) (P14 : Vec Ideal S1x128 .f32) (P15 : Vec Ideal S128x1 .bf16) (P16 : Vec Ideal S1x1 .f32) :
    k0_pay1 (k0_pay6 (k0_pay2 P0 P1 P2 P3 P4 P5 P6 P7) (k0_pay3 P0 P1 P2 P3 P4 P5 P6 P7) P8 P9 P10 P11 P12 P13 P14)
        (k0_pay7 (k0_pay2 P0 P1 P2 P3 P4 P5 P6 P7) (k0_pay3 P0 P1 P2 P3 P4 P5 P6 P7) P8 P9 P10 P11 P12 P13 P14 P15) P16
      = outArr (E := 3200)
          (preArr (chemArr (E := 3200) P0 P1 P2 P3 P4 (fun c => P5 (ix2 0 c)) P6 (fun c => P7 (ix2 0 c)))
            (posArr (E := 3200) P8 P9 (fun c => P10 (ix2 0 c)) P11 (fun c => P12 (ix2 0 c))) P13 (fun c => P14 (ix2 0 c)))
          P15 (fun _ => P16 (ix2 0 0)) := by
  rw [gate_block, att_block, pre_block, chem_block, pos_block]
  rfl

end Cert.KernelIdeal.Pay

end
-- ==== Proof.KerFinal.lean ====
/-
  From the blocks to the arrays.

  The grid has 100 points; point `t` stages rows `3200·t … 3200·t + 3199` of the five edge arrays and of the three
  result arrays, and the whole of every weight and bias.  So row `r` of a staged block is row `3200·t + r` of its
  array, and — the network being row by row — what point `t` writes back is block `t` of the network applied to the
  whole arrays.  The 100 blocks tile the 320000 rows, so after the run each result array is that function.
-/
import proofs.«174778_j83236466196758_2_alg».proof.Proof.KernelIdealValueP
import proofs.«174778_j83236466196758_2_alg».proof.Proof.KerPay
import proofs.«174778_j83236466196758_2_alg».proof.Proof.RowSpec

noncomputable section

namespace Cert.KernelIdeal.Final

open Cert.KernelIdeal Cert.KernelIdeal.Gen Cert.KernelIdeal.Pay Cert.EdgeMlp Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 100 points -/

/-- The edge windows and the result windows stage block `t` of the rows. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_17.index t (0 : Fin 2) = t.val ∧ win0_17.index t (1 : Fin 2) = 0
    ∧ win0_18.index t (0 : Fin 2) = t.val ∧ win0_18.index t (1 : Fin 2) = 0
    ∧ win0_19.index t (0 : Fin 2) = t.val ∧ win0_19.index t (1 : Fin 2) = 0 :=
  (by decide +kernel : ∀ t : Fin grid0.N, _)

/-- The weight and bias windows stage the whole array at every point. -/
theorem idx_fixed : ∀ t : Fin cfg0.N,
    win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0 :=
  (by decide +kernel : ∀ t : Fin grid0.N, _)

/-- Row `r` of block `t` is row `3200·t + r` of the array. -/
def rowAt (t : Fin cfg0.N) (r : Fin 3200) : Fin 320000 :=
  ⟨t.val * 3200 + r.val, by have h : t.val < 100 := Nat.lt_of_lt_of_eq t.isLt N_0; have := r.isLt; omega⟩

theorem emb0 (t : Fin cfg0.N) (y : S3200x128.Idx) : ((cfg0.win 0).blk t).view.emb y = ix2 (rowAt t (y 0)) (y 1) := by
  obtain ⟨e0a, e0b, e1a, e1b, e2a, e2b, e3a, e3b, e4a, e4b, e17a, e17b, e18a, e18b, e19a, e19b⟩ := idx_rows t
  funext a; apply Fin.ext
  match a with
  | ⟨0, _⟩ => show win0_0.index t (0 : Fin 2) * 3200 + 1 * (y 0).val = t.val * 3200 + (y 0).val; rw [e0a]; omega
  | ⟨1, _⟩ => show win0_0.index t (1 : Fin 2) * 128 + 1 * (y 1).val = (y 1).val; rw [e0b]; omega

theorem emb1 (t : Fin cfg0.N) (y : S3200x128.Idx) : ((cfg0.win 1).blk t).view.emb y = ix2 (rowAt t (y 0)) (y 1) := by
  obtain ⟨e0a, e0b, e1a, e1b, e2a, e2b, e3a, e3b, e4a, e4b, e17a, e17b, e18a, e18b, e19a, e19b⟩ := idx_rows t
  funext a; apply Fin.ext
  match a with
  | ⟨0, _⟩ => show win0_1.index t (0 : Fin 2) * 3200 + 1 * (y 0).val = t.val * 3200 + (y 0).val; rw [e1a]; omega
  | ⟨1, _⟩ => show win0_1.index t (1 : Fin 2) * 128 + 1 * (y 1).val = (y 1).val; rw [e1b]; omega

theorem emb2 (t : Fin cfg0.N) (y : S3200x128.Idx) : ((cfg0.win 2).blk t).view.emb y = ix2 (rowAt t (y 0)) (y 1) := by
  obtain ⟨e0a, e0b, e1a, e1b, e2a, e2b, e3a, e3b, e4a, e4b, e17a, e17b, e18a, e18b, e19a, e19b⟩ := idx_rows t
  funext a; apply Fin.ext
  match a with
  | ⟨0, _⟩ => show win0_2.index t (0 : Fin 2) * 3200 + 1 * (y 0).val = t.val * 3200 + (y 0).val; rw [e2a]; omega
  | ⟨1, _⟩ => show win0_2.index t (1 : Fin 2) * 128 + 1 * (y 1).val = (y 1).val; rw [e2b]; omega

theorem emb3 (t : Fin cfg0.N) (y : S3200x128.Idx) : ((cfg0.win 3).blk t).view.emb y = ix2 (rowAt t (y 0)) (y 1) := by
  obtain ⟨e0a, e0b, e1a, e1b, e2a, e2b, e3a, e3b, e4a, e4b, e17a, e17b, e18a, e18b, e19a, e19b⟩ := idx_rows t
  funext a; apply Fin.ext
  match a with
  | ⟨0, _⟩ => show win0_3.index t (0 : Fin 2) * 3200 + 1 * (y 0).val = t.val * 3200 + (y 0).val; rw [e3a]; omega
  | ⟨1, _⟩ => show win0_3.index t (1 : Fin 2) * 128 + 1 * (y 1).val = (y 1).val; rw [e3b]; omega

theorem emb4 (t : Fin cfg0.N) (y : S3200x20.Idx) : ((cfg0.win 4).blk t).view.emb y = ix2 (rowAt t (y 0)) (y 1) := by
  obtain ⟨e0a, e0b, e1a, e1b, e2a, e2b, e3a, e3b, e4a, e4b, e17a, e17b, e18a, e18b, e19a, e19b⟩ := idx_rows t
  funext a; apply Fin.ext
  match a with
  | ⟨0, _⟩ => show win0_4.index t (0 : Fin 2) * 3200 + 1 * (y 0).val = t.val * 3200 + (y 0).val; rw [e4a]; omega
  | ⟨1, _⟩ => show win0_4.index t (1 : Fin 2) * 20 + 1 * (y 1).val = (y 1).val; rw [e4b]; omega

theorem emb17 (t : Fin cfg0.N) (y : S3200x128.Idx) : ((cfg0.win 17).blk t).view.emb y = ix2 (rowAt t (y 0)) (y 1) := by
  obtain ⟨e0a, e0b, e1a, e1b, e2a, e2b, e3a, e3b, e4a, e4b, e17a, e17b, e18a, e18b, e19a, e19b⟩ := idx_rows t
  funext a; apply Fin.ext
  match a with
  | ⟨0, _⟩ => show win0_17.index t (0 : Fin 2) * 3200 + 1 * (y 0).val = t.val * 3200 + (y 0).val; rw [e17a]; omega
  | ⟨1, _⟩ => show win0_17.index t (1 : Fin 2) * 128 + 1 * (y 1).val = (y 1).val; rw [e17b]; omega

theorem emb18 (t : Fin cfg0.N) (y : S3200x128.Idx) : ((cfg0.win 18).blk t).view.emb y = ix2 (rowAt t (y 0)) (y 1) := by
  obtain ⟨e0a, e0b, e1a, e1b, e2a, e2b, e3a, e3b, e4a, e4b, e17a, e17b, e18a, e18b, e19a, e19b⟩ := idx_rows t
  funext a; apply Fin.ext
  match a with
  | ⟨0, _⟩ => show win0_18.index t (0 : Fin 2) * 3200 + 1 * (y 0).val = t.val * 3200 + (y 0).val; rw [e18a]; omega
  | ⟨1, _⟩ => show win0_18.index t (1 : Fin 2) * 128 + 1 * (y 1).val = (y 1).val; rw [e18b]; omega

theorem emb19 (t : Fin cfg0.N) (y : S3200x128.Idx) : ((cfg0.win 19).blk t).view.emb y = ix2 (rowAt t (y 0)) (y 1) := by
  obtain ⟨e0a, e0b, e1a, e1b, e2a, e2b, e3a, e3b, e4a, e4b, e17a, e17b, e18a, e18b, e19a, e19b⟩ := idx_rows t
  funext a; apply Fin.ext
  match a with
  | ⟨0, _⟩ => show win0_19.index t (0 : Fin 2) * 3200 + 1 * (y 0).val = t.val * 3200 + (y 0).val; rw [e19a]; omega
  | ⟨1, _⟩ => show win0_19.index t (1 : Fin 2) * 128 + 1 * (y 1).val = (y 1).val; rw [e19b]; omega

theorem emb5 (t : Fin cfg0.N) (y : S512x128.Idx) : ((cfg0.win 5).blk t).view.emb y = y := by
  obtain ⟨e5a, e5b, e6a, e6b, e7a, e7b, e8a, e8b, e9a, e9b, e10a, e10b, e11a, e11b, e12a, e12b, e13a, e13b, e14a, e14b, e15a, e15b, e16a, e16b⟩ := idx_fixed t
  funext a; apply Fin.ext
  match a with
  | ⟨0, _⟩ => show win0_5.index t (0 : Fin 2) * 512 + 1 * (y 0).val = (y 0).val; rw [e5a]; omega
  | ⟨1, _⟩ => show win0_5.index t (1 : Fin 2) * 128 + 1 * (y 1).val = (y 1).val; rw [e5b]; omega

theorem emb6 (t : Fin cfg0.N) (y : S1x128.Idx) : ((cfg0.win 6).blk t).view.emb y = y := by
  obtain ⟨e5a, e5b, e6a, e6b, e7a, e7b, e8a, e8b, e9a, e9b, e10a, e10b, e11a, e11b, e12a, e12b, e13a, e13b, e14a, e14b, e15a, e15b, e16a, e16b⟩ := idx_fixed t
  funext a; apply Fin.ext
  match a with
  | ⟨0, _⟩ => show win0_6.index t (0 : Fin 2) * 1 + 1 * (y 0).val = (y 0).val; rw [e6a]; omega
  | ⟨1, _⟩ => show win0_6.index t (1 : Fin 2) * 128 + 1 * (y 1).val = (y 1).val; rw [e6b]; omega

theorem emb7 (t : Fin cfg0.N) (y : S128x128.Idx) : ((cfg0.win 7).blk t).view.emb y = y := by
  obtain ⟨e5a, e5b, e6a, e6b, e7a, e7b, e8a, e8b, e9a, e9b, e10a, e10b, e11a, e11b, e12a, e12b, e13a, e13b, e14a, e14b, e15a, e15b, e16a, e16b⟩ := idx_fixed t
  funext a; apply Fin.ext
  match a with
  | ⟨0, _⟩ => show win0_7.index t (0 : Fin 2) * 128 + 1 * (y 0).val = (y 0).val; rw [e7a]; omega
  | ⟨1, _⟩ => show win0_7.index t (1 : Fin 2) * 128 + 1 * (y 1).val = (y 1).val; rw [e7b]; omega

theorem emb8 (t : Fin cfg0.N) (y : S1x128.Idx) : ((cfg0.win 8).blk t).view.emb y = y := by
  obtain ⟨e5a, e5b, e6a, e6b, e7a, e7b, e8a, e8b, e9a, e9b, e10a, e10b, e11a, e11b, e12a, e12b, e13a, e13b, e14a, e14b, e15a, e15b, e16a, e16b⟩ := idx_fixed t
  funext a; apply Fin.ext
  match a with
  | ⟨0, _⟩ => show win0_8.index t (0 : Fin 2) * 1 + 1 * (y 0).val = (y 0).val; rw [e8a]; omega
  | ⟨1, _⟩ => show win0_8.index t (1 : Fin 2) * 128 + 1 * (y 1).val = (y 1).val; rw [e8b]; omega

theorem emb9 (t : Fin cfg0.N) (y : S20x128.Idx) : ((cfg0.win 9).blk t).view.emb y = y := by
  obtain ⟨e5a, e5b, e6a, e6b, e7a, e7b, e8a, e8b, e9a, e9b, e10a, e10b, e11a, e11b, e12a, e12b, e13a, e13b, e14a, e14b, e15a, e15b, e16a, e16b⟩ := idx_fixed t
  funext a; apply Fin.ext
  match a with
  | ⟨0, _⟩ => show win0_9.index t (0 : Fin 2) * 20 + 1 * (y 0).val = (y 0).val; rw [e9a]; omega
  | ⟨1, _⟩ => show win0_9.index t (1 : Fin 2) * 128 + 1 * (y 1).val = (y 1).val; rw [e9b]; omega

theorem emb10 (t : Fin cfg0.N) (y : S1x128.Idx) : ((cfg0.win 10).blk t).view.emb y = y := by
  obtain ⟨e5a, e5b, e6a, e6b, e7a, e7b, e8a, e8b, e9a, e9b, e10a, e10b, e11a, e11b, e12a, e12b, e13a, e13b, e14a, e14b, e15a, e15b, e16a, e16b⟩ := idx_fixed t
  funext a; apply Fin.ext
  match a with
  | ⟨0, _⟩ => show win0_10.index t (0 : Fin 2) * 1 + 1 * (y 0).val = (y 0).val; rw [e10a]; omega
  | ⟨1, _⟩ => show win0_10.index t (1 : Fin 2) * 128 + 1 * (y 1).val = (y 1).val; rw [e10b]; omega

theorem emb11 (t : Fin cfg0.N) (y : S128x128.Idx) : ((cfg0.win 11).blk t).view.emb y = y := by
  obtain ⟨e5a, e5b, e6a, e6b, e7a, e7b, e8a, e8b, e9a, e9b, e10a, e10b, e11a, e11b, e12a, e12b, e13a, e13b, e14a, e14b, e15a, e15b, e16a, e16b⟩ := idx_fixed t
  funext a; apply Fin.ext
  match a with
  | ⟨0, _⟩ => show win0_11.index t (0 : Fin 2) * 128 + 1 * (y 0).val = (y 0).val; rw [e11a]; omega
  | ⟨1, _⟩ => show win0_11.index t (1 : Fin 2) * 128 + 1 * (y 1).val = (y 1).val; rw [e11b]; omega

theorem emb12 (t : Fin cfg0.N) (y : S1x128.Idx) : ((cfg0.win 12).blk t).view.emb y = y := by
  obtain ⟨e5a, e5b, e6a, e6b, e7a, e7b, e8a, e8b, e9a, e9b, e10a, e10b, e11a, e11b, e12a, e12b, e13a, e13b, e14a, e14b, e15a, e15b, e16a, e16b⟩ := idx_fixed t
  funext a; apply Fin.ext
  match a with
  | ⟨0, _⟩ => show win0_12.index t (0 : Fin 2) * 1 + 1 * (y 0).val = (y 0).val; rw [e12a]; omega
  | ⟨1, _⟩ => show win0_12.index t (1 : Fin 2) * 128 + 1 * (y 1).val = (y 1).val; rw [e12b]; omega

theorem emb13 (t : Fin cfg0.N) (y : S128x128.Idx) : ((cfg0.win 13).blk t).view.emb y = y := by
  obtain ⟨e5a, e5b, e6a, e6b, e7a, e7b, e8a, e8b, e9a, e9b, e10a, e10b, e11a, e11b, e12a, e12b, e13a, e13b, e14a, e14b, e15a, e15b, e16a, e16b⟩ := idx_fixed t
  funext a; apply Fin.ext
  match a with
  | ⟨0, _⟩ => show win0_13.index t (0 : Fin 2) * 128 + 1 * (y 0).val = (y 0).val; rw [e13a]; omega
  | ⟨1, _⟩ => show win0_13.index t (1 : Fin 2) * 128 + 1 * (y 1).val = (y 1).val; rw [e13b]; omega

theorem emb14 (t : Fin cfg0.N) (y : S1x128.Idx) : ((cfg0.win 14).blk t).view.emb y = y := by
  obtain ⟨e5a, e5b, e6a, e6b, e7a, e7b, e8a, e8b, e9a, e9b, e10a, e10b, e11a, e11b, e12a, e12b, e13a, e13b, e14a, e14b, e15a, e15b, e16a, e16b⟩ := idx_fixed t
  funext a; apply Fin.ext
  match a with
  | ⟨0, _⟩ => show win0_14.index t (0 : Fin 2) * 1 + 1 * (y 0).val = (y 0).val; rw [e14a]; omega
  | ⟨1, _⟩ => show win0_14.index t (1 : Fin 2) * 128 + 1 * (y 1).val = (y 1).val; rw [e14b]; omega

theorem emb15 (t : Fin cfg0.N) (y : S128x1.Idx) : ((cfg0.win 15).blk t).view.emb y = y := by
  obtain ⟨e5a, e5b, e6a, e6b, e7a, e7b, e8a, e8b, e9a, e9b, e10a, e10b, e11a, e11b, e12a, e12b, e13a, e13b, e14a, e14b, e15a, e15b, e16a, e16b⟩ := idx_fixed t
  funext a; apply Fin.ext
  match a with
  | ⟨0, _⟩ => show win0_15.index t (0 : Fin 2) * 128 + 1 * (y 0).val = (y 0).val; rw [e15a]; omega
  | ⟨1, _⟩ => show win0_15.index t (1 : Fin 2) * 1 + 1 * (y 1).val = (y 1).val; rw [e15b]; omega

theorem emb16 (t : Fin cfg0.N) (y : S1x1.Idx) : ((cfg0.win 16).blk t).view.emb y = y := by
  obtain ⟨e5a, e5b, e6a, e6b, e7a, e7b, e8a, e8b, e9a, e9b, e10a, e10b, e11a, e11b, e12a, e12b, e13a, e13b, e14a, e14b, e15a, e15b, e16a, e16b⟩ := idx_fixed t
  funext a; apply Fin.ext
  match a with
  | ⟨0, _⟩ => show win0_16.index t (0 : Fin 2) * 1 + 1 * (y 0).val = (y 0).val; rw [e16a]; omega
  | ⟨1, _⟩ => show win0_16.index t (1 : Fin 2) * 1 + 1 * (y 1).val = (y 1).val; rw [e16b]; omega

/-! ## The staged blocks read off the arrays -/

theorem rows0 (c : Dev nD) (t : Fin cfg0.N) (r : Fin 3200) :
    rowOf (iblk m c 0 t : Mat 3200 128) r = rowOf (V m c main_v12 : Mat 320000 128) (rowAt t r) := by
  funext k
  show V m c main_v12 (((cfg0.win 0).blk t).view.emb (ix2 r k)) = V m c main_v12 (ix2 (rowAt t r) k)
  rw [emb0]
  rfl

theorem rows1 (c : Dev nD) (t : Fin cfg0.N) (r : Fin 3200) :
    rowOf (iblk m c 1 t : Mat 3200 128) r = rowOf (V m c main_v19 : Mat 320000 128) (rowAt t r) := by
  funext k
  show V m c main_v19 (((cfg0.win 1).blk t).view.emb (ix2 r k)) = V m c main_v19 (ix2 (rowAt t r) k)
  rw [emb1]
  rfl

theorem rows2 (c : Dev nD) (t : Fin cfg0.N) (r : Fin 3200) :
    rowOf (iblk m c 2 t : Mat 3200 128) r = rowOf (V m c main_v26 : Mat 320000 128) (rowAt t r) := by
  funext k
  show V m c main_v26 (((cfg0.win 2).blk t).view.emb (ix2 r k)) = V m c main_v26 (ix2 (rowAt t r) k)
  rw [emb2]
  rfl

theorem rows3 (c : Dev nD) (t : Fin cfg0.N) (r : Fin 3200) :
    rowOf (iblk m c 3 t : Mat 3200 128) r = rowOf (V m c main_v33 : Mat 320000 128) (rowAt t r) := by
  funext k
  show V m c main_v33 (((cfg0.win 3).blk t).view.emb (ix2 r k)) = V m c main_v33 (ix2 (rowAt t r) k)
  rw [emb3]
  rfl

theorem rows4 (c : Dev nD) (t : Fin cfg0.N) (r : Fin 3200) :
    rowOf (iblk m c 4 t : Mat 3200 20) r = rowOf (V m c main_v79 : Mat 320000 20) (rowAt t r) := by
  funext k
  show V m c main_v79 (((cfg0.win 4).blk t).view.emb (ix2 r k)) = V m c main_v79 (ix2 (rowAt t r) k)
  rw [emb4]
  rfl

theorem whole5 (c : Dev nD) (t : Fin cfg0.N) : (iblk m c 5 t : Mat 512 128) = (V m c main_v80 : Mat 512 128) := by
  funext y
  show V m c main_v80 (((cfg0.win 5).blk t).view.emb y) = V m c main_v80 y
  rw [emb5]

theorem whole6 (c : Dev nD) (t : Fin cfg0.N) : (iblk m c 6 t : Mat 1 128) = (V m c main_v86 : Mat 1 128) := by
  funext y
  show V m c main_v86 (((cfg0.win 6).blk t).view.emb y) = V m c main_v86 y
  rw [emb6]

theorem whole7 (c : Dev nD) (t : Fin cfg0.N) : (iblk m c 7 t : Mat 128 128) = (V m c main_v81 : Mat 128 128) := by
  funext y
  show V m c main_v81 (((cfg0.win 7).blk t).view.emb y) = V m c main_v81 y
  rw [emb7]

theorem whole8 (c : Dev nD) (t : Fin cfg0.N) : (iblk m c 8 t : Mat 1 128) = (V m c main_v87 : Mat 1 128) := by
  funext y
  show V m c main_v87 (((cfg0.win 8).blk t).view.emb y) = V m c main_v87 y
  rw [emb8]

theorem whole9 (c : Dev nD) (t : Fin cfg0.N) : (iblk m c 9 t : Mat 20 128) = (V m c main_v82 : Mat 20 128) := by
  funext y
  show V m c main_v82 (((cfg0.win 9).blk t).view.emb y) = V m c main_v82 y
  rw [emb9]

theorem whole10 (c : Dev nD) (t : Fin cfg0.N) : (iblk m c 10 t : Mat 1 128) = (V m c main_v88 : Mat 1 128) := by
  funext y
  show V m c main_v88 (((cfg0.win 10).blk t).view.emb y) = V m c main_v88 y
  rw [emb10]

theorem whole11 (c : Dev nD) (t : Fin cfg0.N) : (iblk m c 11 t : Mat 128 128) = (V m c main_v83 : Mat 128 128) := by
  funext y
  show V m c main_v83 (((cfg0.win 11).blk t).view.emb y) = V m c main_v83 y
  rw [emb11]

theorem whole12 (c : Dev nD) (t : Fin cfg0.N) : (iblk m c 12 t : Mat 1 128) = (V m c main_v89 : Mat 1 128) := by
  funext y
  show V m c main_v89 (((cfg0.win 12).blk t).view.emb y) = V m c main_v89 y
  rw [emb12]

theorem whole13 (c : Dev nD) (t : Fin cfg0.N) : (iblk m c 13 t : Mat 128 128) = (V m c main_v84 : Mat 128 128) := by
  funext y
  show V m c main_v84 (((cfg0.win 13).blk t).view.emb y) = V m c main_v84 y
  rw [emb13]

theorem whole14 (c : Dev nD) (t : Fin cfg0.N) : (iblk m c 14 t : Mat 1 128) = (V m c main_v90 : Mat 1 128) := by
  funext y
  show V m c main_v90 (((cfg0.win 14).blk t).view.emb y) = V m c main_v90 y
  rw [emb14]

theorem whole15 (c : Dev nD) (t : Fin cfg0.N) : (iblk m c 15 t : Mat 128 1) = (V m c main_v85 : Mat 128 1) := by
  funext y
  show V m c main_v85 (((cfg0.win 15).blk t).view.emb y) = V m c main_v85 y
  rw [emb15]

theorem whole16 (c : Dev nD) (t : Fin cfg0.N) : (iblk m c 16 t : Mat 1 1) = (V m c main_v91 : Mat 1 1) := by
  funext y
  show V m c main_v91 (((cfg0.win 16).blk t).view.emb y) = V m c main_v91 y
  rw [emb16]

/-! ## The network on the arrays the region finds, and on the blocks of a point -/

/-- The feature perceptron on the whole arrays. -/
def Gchem (c : Dev nD) : Mat 320000 128 :=
  chemArr (E := 320000) (V m c main_v12) (V m c main_v19) (V m c main_v26) (V m c main_v33) (V m c main_v80)
    (fun k => V m c main_v86 (ix2 0 k)) (V m c main_v81) (fun k => V m c main_v87 (ix2 0 k))

/-- The geometric perceptron on the whole arrays. -/
def Gpos (c : Dev nD) : Mat 320000 128 :=
  posArr (E := 320000) (V m c main_v79) (V m c main_v82) (fun k => V m c main_v88 (ix2 0 k)) (V m c main_v83)
    (fun k => V m c main_v89 (ix2 0 k))

/-- The gated product on the whole arrays. -/
def Gpre (c : Dev nD) : Mat 320000 128 :=
  preArr (E := 320000) (Gchem m c) (Gpos m c) (V m c main_v84) (fun k => V m c main_v90 (ix2 0 k))

/-- The attention-gated product on the whole arrays. -/
def Gout (c : Dev nD) : Mat 320000 128 :=
  outArr (E := 320000) (Gpre m c) (V m c main_v85) (fun _ => V m c main_v91 (ix2 0 0))

/-- The same three on the blocks point `t` stages. -/
def Bchem (c : Dev nD) (t : Fin cfg0.N) : Mat 3200 128 :=
  chemArr (E := 3200) (iblk m c 0 t) (iblk m c 1 t) (iblk m c 2 t) (iblk m c 3 t) (iblk m c 5 t) (fun k => iblk m c 6 t (ix2 0 k)) (iblk m c 7 t) (fun k => iblk m c 8 t (ix2 0 k))

def Bpos (c : Dev nD) (t : Fin cfg0.N) : Mat 3200 128 :=
  posArr (E := 3200) (iblk m c 4 t) (iblk m c 9 t) (fun k => iblk m c 10 t (ix2 0 k)) (iblk m c 11 t) (fun k => iblk m c 12 t (ix2 0 k))

def Bpre (c : Dev nD) (t : Fin cfg0.N) : Mat 3200 128 :=
  preArr (E := 3200) (Bchem m c t) (Bpos m c t) (iblk m c 13 t) (fun k => iblk m c 14 t (ix2 0 k))

def Bout (c : Dev nD) (t : Fin cfg0.N) : Mat 3200 128 :=
  outArr (E := 3200) (Bpre m c t) (iblk m c 15 t) (fun _ => iblk m c 16 t (ix2 0 0))

theorem chem_restr (c : Dev nD) (t : Fin cfg0.N) (r : Fin 3200) (k : Fin 128) :
    Bchem m c t (ix2 r k) = Gchem m c (ix2 (rowAt t r) k) :=
  chemArr_restrict r (rowAt t r) (rows0 m c t r) (rows1 m c t r) (rows2 m c t r) (rows3 m c t r) (whole5 m c t)
    (funext fun k => congrFun (whole6 m c t) (ix2 0 k)) (whole7 m c t) (funext fun k => congrFun (whole8 m c t) (ix2 0 k)) k

theorem pos_restr (c : Dev nD) (t : Fin cfg0.N) (r : Fin 3200) (k : Fin 128) :
    Bpos m c t (ix2 r k) = Gpos m c (ix2 (rowAt t r) k) :=
  posArr_restrict r (rowAt t r) (rows4 m c t r) (whole9 m c t) (funext fun k => congrFun (whole10 m c t) (ix2 0 k)) (whole11 m c t)
    (funext fun k => congrFun (whole12 m c t) (ix2 0 k)) k

theorem pre_restr (c : Dev nD) (t : Fin cfg0.N) (r : Fin 3200) (k : Fin 128) :
    Bpre m c t (ix2 r k) = Gpre m c (ix2 (rowAt t r) k) :=
  preArr_restrict r (rowAt t r)
    (show rowOf (Bchem m c t) r = rowOf (Gchem m c) (rowAt t r) from funext fun k' => chem_restr m c t r k')
    (show rowOf (Bpos m c t) r = rowOf (Gpos m c) (rowAt t r) from funext fun k' => pos_restr m c t r k')
    (whole13 m c t) (funext fun k => congrFun (whole14 m c t) (ix2 0 k)) k

theorem out_restr (c : Dev nD) (t : Fin cfg0.N) (r : Fin 3200) (k : Fin 128) :
    Bout m c t (ix2 r k) = Gout m c (ix2 (rowAt t r) k) :=
  outArr_restrict r (rowAt t r)
    (show rowOf (Bpre m c t) r = rowOf (Gpre m c) (rowAt t r) from funext fun k' => pre_restr m c t r k')
    (whole15 m c t) (funext fun _ => congrFun (whole16 m c t) (ix2 0 0)) k

theorem chem_point (c : Dev nD) (t : Fin cfg0.N) (y : S3200x128.Idx) :
    Bchem m c t y = Gchem m c (((cfg0.win 18).blk t).view.emb y) := by
  rw [emb18 t y]
  exact (congrArg (Bchem m c t) (eq_ix2 y)).trans (chem_restr m c t (y 0) (y 1))

theorem pos_point (c : Dev nD) (t : Fin cfg0.N) (y : S3200x128.Idx) :
    Bpos m c t y = Gpos m c (((cfg0.win 19).blk t).view.emb y) := by
  rw [emb19 t y]
  exact (congrArg (Bpos m c t) (eq_ix2 y)).trans (pos_restr m c t (y 0) (y 1))

theorem out_point (c : Dev nD) (t : Fin cfg0.N) (y : S3200x128.Idx) :
    Bout m c t y = Gout m c (((cfg0.win 17).blk t).view.emb y) := by
  rw [emb17 t y]
  exact (congrArg (Bout m c t) (eq_ix2 y)).trans (out_restr m c t (y 0) (y 1))

/-! ## What each point writes back -/

theorem flushed18_eq (c : Dev nD) (t : Fin cfg0.N) :
    (dats m 0 c).flushed 18 t = ((cfg0.win 18).blk t).view.read (Elt Ideal) (Gchem m c) := by
  rw [ValueP.flushed18 m c t]
  unfold out0_18
  rw [View.canon_unit_zero hz]
  simp only [View.ld_unit_zero (S := S3200x128) hz, View.ld_unit_zero (S := S512x128) hz, View.ld_unit_zero (S := S1x128) hz,
    View.ld_unit_zero (S := S128x128) hz]
  funext j
  refine (congrFun (chem_block (iblk m c 0 t) (iblk m c 1 t) (iblk m c 2 t) (iblk m c 3 t) (iblk m c 5 t) (iblk m c 6 t) (iblk m c 7 t) (iblk m c 8 t)) j).trans ?_
  exact chem_point m c t j

theorem flushed19_eq (c : Dev nD) (t : Fin cfg0.N) :
    (dats m 0 c).flushed 19 t = ((cfg0.win 19).blk t).view.read (Elt Ideal) (Gpos m c) := by
  rw [ValueP.flushed19 m c t]
  unfold out0_19
  rw [View.canon_unit_zero hz]
  simp only [View.ld_unit_zero (S := S3200x20) hz, View.ld_unit_zero (S := S20x128) hz, View.ld_unit_zero (S := S1x128) hz,
    View.ld_unit_zero (S := S128x128) hz]
  funext j
  refine (congrFun (pos_block (iblk m c 4 t) (iblk m c 9 t) (iblk m c 10 t) (iblk m c 11 t) (iblk m c 12 t)) j).trans ?_
  exact pos_point m c t j

theorem flushed17_eq (c : Dev nD) (t : Fin cfg0.N) :
    (dats m 0 c).flushed 17 t = ((cfg0.win 17).blk t).view.read (Elt Ideal) (Gout m c) := by
  rw [ValueP.flushed17 m c t]
  unfold out0_17
  rw [View.canon_unit_zero hz]
  simp only [View.ld_unit_zero (S := S3200x128) hz, View.ld_unit_zero (S := S512x128) hz, View.ld_unit_zero (S := S1x128) hz,
    View.ld_unit_zero (S := S128x128) hz, View.ld_unit_zero (S := S3200x20) hz, View.ld_unit_zero (S := S20x128) hz,
    View.ld_unit_zero (S := S128x1) hz, View.ld_unit_zero (S := S1x1) hz]
  funext j
  refine (congrFun (out_block (iblk m c 0 t) (iblk m c 1 t) (iblk m c 2 t) (iblk m c 3 t) (iblk m c 5 t) (iblk m c 6 t) (iblk m c 7 t) (iblk m c 8 t) (iblk m c 4 t) (iblk m c 9 t) (iblk m c 10 t) (iblk m c 11 t) (iblk m c 12 t) (iblk m c 13 t) (iblk m c 14 t) (iblk m c 15 t) (iblk m c 16 t)) j).trans ?_
  exact out_point m c t j

/-! ## The blocks tile the rows -/

theorem mem_blk17 (t : Fin cfg0.N) (i : S320000x128.Idx) :
    i ∈ ((cfg0.win 17).blk t).view.set ↔ ∀ a : Fin 2, win0_17.index t a * S3200x128.size a ≤ (i a).val ∧ (i a).val < win0_17.index t a * S3200x128.size a + S3200x128.size a := by
  show i ∈ ((View.whole main_v92_0).slice (win0_17.rect t)).set ↔ _
  rw [View.set_slice_whole, Rect.mem_set_unit]
  exact Iff.rfl

/-- Row `i` lies in the block of point `i / 3200`. -/
theorem cover17 (i : S320000x128.Idx) : ∃ t : Fin cfg0.N, (cfg0.win 17).flush t = true ∧ i ∈ ((cfg0.win 17).blk t).view.set := by
  have hi0 : (i 0).val < 320000 := (i 0).isLt
  have hi1 : (i 1).val < 128 := (i 1).isLt
  have hlt : (i 0).val / 3200 < cfg0.N := by show (i 0).val / 3200 < 100; omega
  obtain ⟨e0a, e0b, e1a, e1b, e2a, e2b, e3a, e3b, e4a, e4b, e17a, e17b, e18a, e18b, e19a, e19b⟩ := idx_rows ⟨(i 0).val / 3200, hlt⟩
  refine ⟨⟨(i 0).val / 3200, hlt⟩, flush0_17 _, ?_⟩
  rw [mem_blk17]
  intro a
  match a with
  | ⟨0, _⟩ =>
    show win0_17.index ⟨(i 0).val / 3200, hlt⟩ (0 : Fin 2) * 3200 ≤ (i 0).val ∧ (i 0).val < win0_17.index ⟨(i 0).val / 3200, hlt⟩ (0 : Fin 2) * 3200 + 3200
    rw [e17a]
    show (i 0).val / 3200 * 3200 ≤ (i 0).val ∧ (i 0).val < (i 0).val / 3200 * 3200 + 3200
    omega
  | ⟨1, _⟩ =>
    show win0_17.index ⟨(i 0).val / 3200, hlt⟩ (1 : Fin 2) * 128 ≤ (i 1).val ∧ (i 1).val < win0_17.index ⟨(i 0).val / 3200, hlt⟩ (1 : Fin 2) * 128 + 128
    rw [e17b]
    omega

theorem mem_blk18 (t : Fin cfg0.N) (i : S320000x128.Idx) :
    i ∈ ((cfg0.win 18).blk t).view.set ↔ ∀ a : Fin 2, win0_18.index t a * S3200x128.size a ≤ (i a).val ∧ (i a).val < win0_18.index t a * S3200x128.size a + S3200x128.size a := by
  show i ∈ ((View.whole main_v92_1).slice (win0_18.rect t)).set ↔ _
  rw [View.set_slice_whole, Rect.mem_set_unit]
  exact Iff.rfl

/-- Row `i` lies in the block of point `i / 3200`. -/
theorem cover18 (i : S320000x128.Idx) : ∃ t : Fin cfg0.N, (cfg0.win 18).flush t = true ∧ i ∈ ((cfg0.win 18).blk t).view.set := by
  have hi0 : (i 0).val < 320000 := (i 0).isLt
  have hi1 : (i 1).val < 128 := (i 1).isLt
  have hlt : (i 0).val / 3200 < cfg0.N := by show (i 0).val / 3200 < 100; omega
  obtain ⟨e0a, e0b, e1a, e1b, e2a, e2b, e3a, e3b, e4a, e4b, e17a, e17b, e18a, e18b, e19a, e19b⟩ := idx_rows ⟨(i 0).val / 3200, hlt⟩
  refine ⟨⟨(i 0).val / 3200, hlt⟩, flush0_18 _, ?_⟩
  rw [mem_blk18]
  intro a
  match a with
  | ⟨0, _⟩ =>
    show win0_18.index ⟨(i 0).val / 3200, hlt⟩ (0 : Fin 2) * 3200 ≤ (i 0).val ∧ (i 0).val < win0_18.index ⟨(i 0).val / 3200, hlt⟩ (0 : Fin 2) * 3200 + 3200
    rw [e18a]
    show (i 0).val / 3200 * 3200 ≤ (i 0).val ∧ (i 0).val < (i 0).val / 3200 * 3200 + 3200
    omega
  | ⟨1, _⟩ =>
    show win0_18.index ⟨(i 0).val / 3200, hlt⟩ (1 : Fin 2) * 128 ≤ (i 1).val ∧ (i 1).val < win0_18.index ⟨(i 0).val / 3200, hlt⟩ (1 : Fin 2) * 128 + 128
    rw [e18b]
    omega

theorem mem_blk19 (t : Fin cfg0.N) (i : S320000x128.Idx) :
    i ∈ ((cfg0.win 19).blk t).view.set ↔ ∀ a : Fin 2, win0_19.index t a * S3200x128.size a ≤ (i a).val ∧ (i a).val < win0_19.index t a * S3200x128.size a + S3200x128.size a := by
  show i ∈ ((View.whole main_v92_2).slice (win0_19.rect t)).set ↔ _
  rw [View.set_slice_whole, Rect.mem_set_unit]
  exact Iff.rfl

/-- Row `i` lies in the block of point `i / 3200`. -/
theorem cover19 (i : S320000x128.Idx) : ∃ t : Fin cfg0.N, (cfg0.win 19).flush t = true ∧ i ∈ ((cfg0.win 19).blk t).view.set := by
  have hi0 : (i 0).val < 320000 := (i 0).isLt
  have hi1 : (i 1).val < 128 := (i 1).isLt
  have hlt : (i 0).val / 3200 < cfg0.N := by show (i 0).val / 3200 < 100; omega
  obtain ⟨e0a, e0b, e1a, e1b, e2a, e2b, e3a, e3b, e4a, e4b, e17a, e17b, e18a, e18b, e19a, e19b⟩ := idx_rows ⟨(i 0).val / 3200, hlt⟩
  refine ⟨⟨(i 0).val / 3200, hlt⟩, flush0_19 _, ?_⟩
  rw [mem_blk19]
  intro a
  match a with
  | ⟨0, _⟩ =>
    show win0_19.index ⟨(i 0).val / 3200, hlt⟩ (0 : Fin 2) * 3200 ≤ (i 0).val ∧ (i 0).val < win0_19.index ⟨(i 0).val / 3200, hlt⟩ (0 : Fin 2) * 3200 + 3200
    rw [e19a]
    show (i 0).val / 3200 * 3200 ≤ (i 0).val ∧ (i 0).val < (i 0).val / 3200 * 3200 + 3200
    omega
  | ⟨1, _⟩ =>
    show win0_19.index ⟨(i 0).val / 3200, hlt⟩ (1 : Fin 2) * 128 ≤ (i 1).val ∧ (i 1).val < win0_19.index ⟨(i 0).val / 3200, hlt⟩ (1 : Fin 2) * 128 + 128
    rw [e19b]
    omega

/-! ## The arrays after the run -/

theorem final17 (c : Dev nD) : (dats m 0 c).arrAt 17 cfg0.N = Gout m c :=
  (dats m 0 c).arrAt_eq_of_cover 17 (Gout m c) (fun t _ => flushed17_eq m c t) cover17

theorem final18 (c : Dev nD) : (dats m 0 c).arrAt 18 cfg0.N = Gchem m c :=
  (dats m 0 c).arrAt_eq_of_cover 18 (Gchem m c) (fun t _ => flushed18_eq m c t) cover18

theorem final19 (c : Dev nD) : (dats m 0 c).arrAt 19 cfg0.N = Gpos m c :=
  (dats m 0 c).arrAt_eq_of_cover 19 (Gpos m c) (fun t _ => flushed19_eq m c t) cover19

/-- The kernel program's run: the three result arrays are the network on the arrays the region finds, the
    direction array is as the host left it, and the arguments are unchanged. -/
theorem run : θ_run defs (onTc (τ := τ) (main (F := Ideal))) ⟨m, fun _ => 0, ρ⟩ fun r => ∀ c : Dev nD,
      r.2.mem ((c : Thread nD τ).loc main_v92_0) = Gout m c
      ∧ r.2.mem ((c : Thread nD τ).loc main_v92_1) = Gchem m c
      ∧ r.2.mem ((c : Thread nD τ).loc main_v92_2) = Gpos m c
      ∧ r.2.mem ((c : Thread nD τ).loc main_v67) = V m c main_v67
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(ValueP.post17 m r h c).trans (final17 m c),
      (ValueP.post18 m r h c).trans (final18 m c),
      (ValueP.post19 m r h c).trans (final19 m c),
      (h c).2 main_v67 (Pipeline.mem_restRefs_of main_v67 (by decide) (by decide)),
      ValueP.kept_main_arg0 m r h c,
      ValueP.kept_main_arg1 m r h c,
      ValueP.kept_main_arg2 m r h c,
      ValueP.kept_main_arg3 m r h c,
      ValueP.kept_main_arg4 m r h c,
      ValueP.kept_main_arg5 m r h c,
      ValueP.kept_main_arg6 m r h c,
      ValueP.kept_main_arg7 m r h c,
      ValueP.kept_main_arg8 m r h c,
      ValueP.kept_main_arg9 m r h c,
      ValueP.kept_main_arg10 m r h c,
      ValueP.kept_main_arg11 m r h c,
      ValueP.kept_main_arg12 m r h c,
      ValueP.kept_main_arg13 m r h c,
      ValueP.kept_main_arg14 m r h c,
      ValueP.kept_main_arg15 m r h c,
      ValueP.kept_main_arg16 m r h c⟩)
    (run_main m ρ)

end Cert.KernelIdeal.Final

end
-- ==== Proof.RefRun.lean ====
/-
  The reference's host program read back as one line of operations.
  `@main` of the reference is 139 statements in three windows; two private functions (the Euclidean norm's
  square root of a row sum, and `x ↦ x · 1/(1 + e^(-x))`) are called six times. Unfolding each call at its site gives
  a straight line of 182 host operations; every weakly fair execution runs them in order, so each buffer ends at the
  fold of the operations over the launch contents (`run_main`).
-/
import proofs.«174778_j83236466196758_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The first window's operations, the norm's five inlined at its call. -/
abbrev ops0 : List (HloOp τ sig (Elt F)) :=
  [ StableHlo.nullary main_cst (fun i => FloatOps.ofBits .f32 (lit0 (S15.rowMajor i))),
    StableHlo.unary main_arg16 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg16 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.nullary main_c (constantI S_ 32 0#32),
    StableHlo.unary main_c main_v4 (broadcastInDim S320000 ![] bcast_S_S320000 : (⟨S_, .i32⟩ : BufTy).Contents (Elt F) → (⟨S320000, .i32⟩ : BufTy).Contents (Elt F)),
    StableHlo.binary main_v1 main_v4 main_v5 (cmpi .slt : (⟨S320000, .i32⟩ : BufTy).Contents (Elt F) → (⟨S320000, .i32⟩ : BufTy).Contents (Elt F) → (⟨S320000, .i1⟩ : BufTy).Contents (Elt F)),
    StableHlo.nullary main_c_0 (constantI S_ 32 10000#32),
    StableHlo.unary main_c_0 main_v6 (broadcastInDim S320000 ![] bcast_S_S320000 : (⟨S_, .i32⟩ : BufTy).Contents (Elt F) → (⟨S320000, .i32⟩ : BufTy).Contents (Elt F)),
    StableHlo.binary main_v1 main_v6 main_v7 (addi : (⟨S320000, .i32⟩ : BufTy).Contents (Elt F) → (⟨S320000, .i32⟩ : BufTy).Contents (Elt F) → (⟨S320000, .i32⟩ : BufTy).Contents (Elt F)),
    StableHlo.ternary main_v5 main_v7 main_v1 main_v8 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v8 main_v9 (broadcastInDim S320000x1 ![0] bcast_S320000_S320000x1_0 : (⟨S320000, .i32⟩ : BufTy).Contents (Elt F) → (⟨S320000x1, .i32⟩ : BufTy).Contents (Elt F)),
    StableHlo.binary main_arg1 main_v9 main_v10 ((fun x i => Host.gather gather_S10000x3_S320000x1_S320000x3_1_0_n_n_0_1_13 x i) : (⟨S10000x3, .f32⟩ : BufTy).Contents (Elt F) → (⟨S320000x1, .i32⟩ : BufTy).Contents (Elt F) → (⟨S320000x3, .f32⟩ : BufTy).Contents (Elt F)),
    StableHlo.nullary main_c_1 (constantI S_ 32 0#32),
    StableHlo.unary main_c_1 main_v11 (broadcastInDim S320000 ![] bcast_S_S320000 : (⟨S_, .i32⟩ : BufTy).Contents (Elt F) → (⟨S320000, .i32⟩ : BufTy).Contents (Elt F)),
    StableHlo.binary main_v3 main_v11 main_v12 (cmpi .slt : (⟨S320000, .i32⟩ : BufTy).Contents (Elt F) → (⟨S320000, .i32⟩ : BufTy).Contents (Elt F) → (⟨S320000, .i1⟩ : BufTy).Contents (Elt F)),
    StableHlo.nullary main_c_2 (constantI S_ 32 10000#32),
    StableHlo.unary main_c_2 main_v13 (broadcastInDim S320000 ![] bcast_S_S320000 : (⟨S_, .i32⟩ : BufTy).Contents (Elt F) → (⟨S320000, .i32⟩ : BufTy).Contents (Elt F)),
    StableHlo.binary main_v3 main_v13 main_v14 (addi : (⟨S320000, .i32⟩ : BufTy).Contents (Elt F) → (⟨S320000, .i32⟩ : BufTy).Contents (Elt F) → (⟨S320000, .i32⟩ : BufTy).Contents (Elt F)),
    StableHlo.ternary main_v12 main_v14 main_v3 main_v15 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v15 main_v16 (broadcastInDim S320000x1 ![0] bcast_S320000_S320000x1_0 : (⟨S320000, .i32⟩ : BufTy).Contents (Elt F) → (⟨S320000x1, .i32⟩ : BufTy).Contents (Elt F)),
    StableHlo.binary main_arg1 main_v16 main_v17 ((fun x i => Host.gather gather_S10000x3_S320000x1_S320000x3_1_0_n_n_0_1_13 x i) : (⟨S10000x3, .f32⟩ : BufTy).Contents (Elt F) → (⟨S320000x1, .i32⟩ : BufTy).Contents (Elt F) → (⟨S320000x3, .f32⟩ : BufTy).Contents (Elt F)),
    StableHlo.binary main_v10 main_v17 main_v18 (subf : (⟨S320000x3, .f32⟩ : BufTy).Contents (Elt F) → (⟨S320000x3, .f32⟩ : BufTy).Contents (Elt F) → (⟨S320000x3, .f32⟩ : BufTy).Contents (Elt F)),
    StableHlo.TRef.binary (.of main_v18 : StableHlo.TRef sig ⟨S320000x3, .f32⟩) (.of main_v18 : StableHlo.TRef sig ⟨S320000x3, .f32⟩) main_call0.v0 mulf,
    StableHlo.TRef.nullary main_call0.cst (constant S_ .f32 0x00000000#32),
    StableHlo.TRef.binary main_call0.v0 main_call0.cst main_call0.v1 (fun x v => Host.reduceAdd x v reducesTo_S320000x3_S320000_d1 h_S_),
    StableHlo.TRef.unary main_call0.v1 main_call0.v2 (broadcastInDim S320000x1 ![0] bcast_S320000_S320000x1_0),
    StableHlo.TRef.unary main_call0.v2 main_call0.v3 Host.sqrt,
    StableHlo.nullary main_cst_3 (constant S_ .f32 0x322BCC77#32),
    StableHlo.unary main_cst_3 main_v20 (broadcastInDim S320000x1 ![] bcast_S_S320000x1 : (⟨S_, .f32⟩ : BufTy).Contents (Elt F) → (⟨S320000x1, .f32⟩ : BufTy).Contents (Elt F)),
    StableHlo.binary main_v19 main_v20 main_v21 (addf : (⟨S320000x1, .f32⟩ : BufTy).Contents (Elt F) → (⟨S320000x1, .f32⟩ : BufTy).Contents (Elt F) → (⟨S320000x1, .f32⟩ : BufTy).Contents (Elt F)),
    StableHlo.unary main_v21 main_v22 (broadcastInDim S320000x3 ![0, 1] bcast_S320000x1_S320000x3_0_1 : (⟨S320000x1, .f32⟩ : BufTy).Contents (Elt F) → (⟨S320000x3, .f32⟩ : BufTy).Contents (Elt F)),
    StableHlo.binary main_v18 main_v22 main_v23 (Host.divf : (⟨S320000x3, .f32⟩ : BufTy).Contents (Elt F) → (⟨S320000x3, .f32⟩ : BufTy).Contents (Elt F) → (⟨S320000x3, .f32⟩ : BufTy).Contents (Elt F)),
    StableHlo.binary main_v23 main_v23 main_v24 (mulf : (⟨S320000x3, .f32⟩ : BufTy).Contents (Elt F) → (⟨S320000x3, .f32⟩ : BufTy).Contents (Elt F) → (⟨S320000x3, .f32⟩ : BufTy).Contents (Elt F)),
    StableHlo.nullary main_cst_4 (constant S_ .f32 0x00000000#32),
    StableHlo.binary main_v24 main_cst_4 main_v25 ((fun x v => Host.reduceAdd x v reducesTo_S320000x3_S320000_d1 h_S_) : (⟨S320000x3, .f32⟩ : BufTy).Contents (Elt F) → (⟨S_, .f32⟩ : BufTy).Contents (Elt F) → (⟨S320000, .f32⟩ : BufTy).Contents (Elt F)),
    StableHlo.unary main_v25 main_v26 (broadcastInDim S320000x1 ![0] bcast_S320000_S320000x1_0 : (⟨S320000, .f32⟩ : BufTy).Contents (Elt F) → (⟨S320000x1, .f32⟩ : BufTy).Contents (Elt F)),
    StableHlo.unary main_cst main_v27 (broadcastInDim S1x15 ![1] bcast_S15_S1x15_1 : (⟨S15, .f32⟩ : BufTy).Contents (Elt F) → (⟨S1x15, .f32⟩ : BufTy).Contents (Elt F)),
    StableHlo.unary main_v26 main_v28 (broadcastInDim S320000x15 ![0, 1] bcast_S320000x1_S320000x15_0_1 : (⟨S320000x1, .f32⟩ : BufTy).Contents (Elt F) → (⟨S320000x15, .f32⟩ : BufTy).Contents (Elt F)),
    StableHlo.unary main_v27 main_v29 (broadcastInDim S320000x15 ![0, 1] bcast_S1x15_S320000x15_0_1 : (⟨S1x15, .f32⟩ : BufTy).Contents (Elt F) → (⟨S320000x15, .f32⟩ : BufTy).Contents (Elt F)),
    StableHlo.binary main_v28 main_v29 main_v30 (mulf : (⟨S320000x15, .f32⟩ : BufTy).Contents (Elt F) → (⟨S320000x15, .f32⟩ : BufTy).Contents (Elt F) → (⟨S320000x15, .f32⟩ : BufTy).Contents (Elt F)),
    StableHlo.unary main_v30 main_v31 (Host.exp : (⟨S320000x15, .f32⟩ : BufTy).Contents (Elt F) → (⟨S320000x15, .f32⟩ : BufTy).Contents (Elt F)),
    StableHlo.nullary main_c_5 (constantI S_ 32 0#32),
    StableHlo.unary main_c_5 main_v32 (broadcastInDim S320000 ![] bcast_S_S320000 : (⟨S_, .i32⟩ : BufTy).Contents (Elt F) → (⟨S320000, .i32⟩ : BufTy).Contents (Elt F)),
    StableHlo.binary main_v1 main_v32 main_v33 (cmpi .slt : (⟨S320000, .i32⟩ : BufTy).Contents (Elt F) → (⟨S320000, .i32⟩ : BufTy).Contents (Elt F) → (⟨S320000, .i1⟩ : BufTy).Contents (Elt F)),
    StableHlo.nullary main_c_6 (constantI S_ 32 10000#32),
    StableHlo.unary main_c_6 main_v34 (broadcastInDim S320000 ![] bcast_S_S320000 : (⟨S_, .i32⟩ : BufTy).Contents (Elt F) → (⟨S320000, .i32⟩ : BufTy).Contents (Elt F)),
    StableHlo.binary main_v1 main_v34 main_v35 (addi : (⟨S320000, .i32⟩ : BufTy).Contents (Elt F) → (⟨S320000, .i32⟩ : BufTy).Contents (Elt F) → (⟨S320000, .i32⟩ : BufTy).Contents (Elt F)),
    StableHlo.ternary main_v33 main_v35 main_v1 main_v36 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v36 main_v37 (broadcastInDim S320000x1 ![0] bcast_S320000_S320000x1_0 : (⟨S320000, .i32⟩ : BufTy).Contents (Elt F) → (⟨S320000x1, .i32⟩ : BufTy).Contents (Elt F)),
    StableHlo.binary main_arg2 main_v37 main_v38 ((fun x i => Host.gather gather_S10000x5x3_S320000x1_S320000x5x3_12_0_n_n_0_1_153 x i) : (⟨S10000x5x3, .f32⟩ : BufTy).Contents (Elt F) → (⟨S320000x1, .i32⟩ : BufTy).Contents (Elt F) → (⟨S320000x5x3, .f32⟩ : BufTy).Contents (Elt F)),
    StableHlo.nullary main_c_7 (constantI S_ 32 0#32),
    StableHlo.unary main_c_7 main_v39 (broadcastInDim S320000 ![] bcast_S_S320000 : (⟨S_, .i32⟩ : BufTy).Contents (Elt F) → (⟨S320000, .i32⟩ : BufTy).Contents (Elt F)),
    StableHlo.binary main_v3 main_v39 main_v40 (cmpi .slt : (⟨S320000, .i32⟩ : BufTy).Contents (Elt F) → (⟨S320000, .i32⟩ : BufTy).Contents (Elt F) → (⟨S320000, .i1⟩ : BufTy).Contents (Elt F)),
    StableHlo.nullary main_c_8 (constantI S_ 32 10000#32),
    StableHlo.unary main_c_8 main_v41 (broadcastInDim S320000 ![] bcast_S_S320000 : (⟨S_, .i32⟩ : BufTy).Contents (Elt F) → (⟨S320000, .i32⟩ : BufTy).Contents (Elt F)),
    StableHlo.binary main_v3 main_v41 main_v42 (addi : (⟨S320000, .i32⟩ : BufTy).Contents (Elt F) → (⟨S320000, .i32⟩ : BufTy).Contents (Elt F) → (⟨S320000, .i32⟩ : BufTy).Contents (Elt F)),
    StableHlo.ternary main_v40 main_v42 main_v3 main_v43 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v43 main_v44 (broadcastInDim S320000x1 ![0] bcast_S320000_S320000x1_0 : (⟨S320000, .i32⟩ : BufTy).Contents (Elt F) → (⟨S320000x1, .i32⟩ : BufTy).Contents (Elt F)),
    StableHlo.binary main_arg2 main_v44 main_v45 ((fun x i => Host.gather gather_S10000x5x3_S320000x1_S320000x5x3_12_0_n_n_0_1_153 x i) : (⟨S10000x5x3, .f32⟩ : BufTy).Contents (Elt F) → (⟨S320000x1, .i32⟩ : BufTy).Contents (Elt F) → (⟨S320000x5x3, .f32⟩ : BufTy).Contents (Elt F)),
    StableHlo.binary main_v38 main_v45 main_v46 (mulf : (⟨S320000x5x3, .f32⟩ : BufTy).Contents (Elt F) → (⟨S320000x5x3, .f32⟩ : BufTy).Contents (Elt F) → (⟨S320000x5x3, .f32⟩ : BufTy).Contents (Elt F)),
    StableHlo.nullary main_cst_9 (constant S_ .f32 0x00000000#32),
    StableHlo.binary main_v46 main_cst_9 main_v47 ((fun x v => Host.reduceAdd x v reducesTo_S320000x5x3_S320000x5_d2 h_S_) : (⟨S320000x5x3, .f32⟩ : BufTy).Contents (Elt F) → (⟨S_, .f32⟩ : BufTy).Contents (Elt F) → (⟨S320000x5, .f32⟩ : BufTy).Contents (Elt F)) ]

/-- The second window's operations, four calls of the gate function inlined. -/
abbrev ops1 : List (HloOp τ sig (Elt F)) :=
  [ StableHlo.nullary main_c_10 (constantI S_ 32 0#32),
    StableHlo.unary main_c_10 main_v48 (broadcastInDim S320000 ![] bcast_S_S320000 : (⟨S_, .i32⟩ : BufTy).Contents (Elt F) → (⟨S320000, .i32⟩ : BufTy).Contents (Elt F)),
    StableHlo.binary main_v1 main_v48 main_v49 (cmpi .slt : (⟨S320000, .i32⟩ : BufTy).Contents (Elt F) → (⟨S320000, .i32⟩ : BufTy).Contents (Elt F) → (⟨S320000, .i1⟩ : BufTy).Contents (Elt F)),
    StableHlo.nullary main_c_11 (constantI S_ 32 10000#32),
    StableHlo.unary main_c_11 main_v50 (broadcastInDim S320000 ![] bcast_S_S320000 : (⟨S_, .i32⟩ : BufTy).Contents (Elt F) → (⟨S320000, .i32⟩ : BufTy).Contents (Elt F)),
    StableHlo.binary main_v1 main_v50 main_v51 (addi : (⟨S320000, .i32⟩ : BufTy).Contents (Elt F) → (⟨S320000, .i32⟩ : BufTy).Contents (Elt F) → (⟨S320000, .i32⟩ : BufTy).Contents (Elt F)),
    StableHlo.ternary main_v49 main_v51 main_v1 main_v52 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v52 main_v53 (broadcastInDim S320000x1 ![0] bcast_S320000_S320000x1_0 : (⟨S320000, .i32⟩ : BufTy).Contents (Elt F) → (⟨S320000x1, .i32⟩ : BufTy).Contents (Elt F)),
    StableHlo.binary main_arg0 main_v53 main_v54 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    StableHlo.nullary main_c_12 (constantI S_ 32 0#32),
    StableHlo.unary main_c_12 main_v55 (broadcastInDim S320000 ![] bcast_S_S320000 : (⟨S_, .i32⟩ : BufTy).Contents (Elt F) → (⟨S320000, .i32⟩ : BufTy).Contents (Elt F)),
    StableHlo.binary main_v3 main_v55 main_v56 (cmpi .slt : (⟨S320000, .i32⟩ : BufTy).Contents (Elt F) → (⟨S320000, .i32⟩ : BufTy).Contents (Elt F) → (⟨S320000, .i1⟩ : BufTy).Contents (Elt F)),
    StableHlo.nullary main_c_13 (constantI S_ 32 10000#32),
    StableHlo.unary main_c_13 main_v57 (broadcastInDim S320000 ![] bcast_S_S320000 : (⟨S_, .i32⟩ : BufTy).Contents (Elt F) → (⟨S320000, .i32⟩ : BufTy).Contents (Elt F)),
    StableHlo.binary main_v3 main_v57 main_v58 (addi : (⟨S320000, .i32⟩ : BufTy).Contents (Elt F) → (⟨S320000, .i32⟩ : BufTy).Contents (Elt F) → (⟨S320000, .i32⟩ : BufTy).Contents (Elt F)),
    StableHlo.ternary main_v56 main_v58 main_v3 main_v59 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v59 main_v60 (broadcastInDim S320000x1 ![0] bcast_S320000_S320000x1_0 : (⟨S320000, .i32⟩ : BufTy).Contents (Elt F) → (⟨S320000x1, .i32⟩ : BufTy).Contents (Elt F)),
    StableHlo.binary main_arg0 main_v60 main_v61 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    StableHlo.nullary main_c_14 (constantI S_ 32 0#32),
    StableHlo.unary main_c_14 main_v62 (broadcastInDim S320000 ![] bcast_S_S320000 : (⟨S_, .i32⟩ : BufTy).Contents (Elt F) → (⟨S320000, .i32⟩ : BufTy).Contents (Elt F)),
    StableHlo.binary main_v1 main_v62 main_v63 (cmpi .slt : (⟨S320000, .i32⟩ : BufTy).Contents (Elt F) → (⟨S320000, .i32⟩ : BufTy).Contents (Elt F) → (⟨S320000, .i1⟩ : BufTy).Contents (Elt F)),
    StableHlo.nullary main_c_15 (constantI S_ 32 10000#32),
    StableHlo.unary main_c_15 main_v64 (broadcastInDim S320000 ![] bcast_S_S320000 : (⟨S_, .i32⟩ : BufTy).Contents (Elt F) → (⟨S320000, .i32⟩ : BufTy).Contents (Elt F)),
    StableHlo.binary main_v1 main_v64 main_v65 (addi : (⟨S320000, .i32⟩ : BufTy).Contents (Elt F) → (⟨S320000, .i32⟩ : BufTy).Contents (Elt F) → (⟨S320000, .i32⟩ : BufTy).Contents (Elt F)),
    StableHlo.ternary main_v63 main_v65 main_v1 main_v66 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v66 main_v67 (broadcastInDim S320000x1 ![0] bcast_S320000_S320000x1_0 : (⟨S320000, .i32⟩ : BufTy).Contents (Elt F) → (⟨S320000x1, .i32⟩ : BufTy).Contents (Elt F)),
    StableHlo.binary main_arg3 main_v67 main_v68 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    StableHlo.nullary main_c_16 (constantI S_ 32 0#32),
    StableHlo.unary main_c_16 main_v69 (broadcastInDim S320000 ![] bcast_S_S320000 : (⟨S_, .i32⟩ : BufTy).Contents (Elt F) → (⟨S320000, .i32⟩ : BufTy).Contents (Elt F)),
    StableHlo.binary main_v3 main_v69 main_v70 (cmpi .slt : (⟨S320000, .i32⟩ : BufTy).Contents (Elt F) → (⟨S320000, .i32⟩ : BufTy).Contents (Elt F) → (⟨S320000, .i1⟩ : BufTy).Contents (Elt F)),
    StableHlo.nullary main_c_17 (constantI S_ 32 10000#32),
    StableHlo.unary main_c_17 main_v71 (broadcastInDim S320000 ![] bcast_S_S320000 : (⟨S_, .i32⟩ : BufTy).Contents (Elt F) → (⟨S320000, .i32⟩ : BufTy).Contents (Elt F)),
    StableHlo.binary main_v3 main_v71 main_v72 (addi : (⟨S320000, .i32⟩ : BufTy).Contents (Elt F) → (⟨S320000, .i32⟩ : BufTy).Contents (Elt F) → (⟨S320000, .i32⟩ : BufTy).Contents (Elt F)),
    StableHlo.ternary main_v70 main_v72 main_v3 main_v73 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v73 main_v74 (broadcastInDim S320000x1 ![0] bcast_S320000_S320000x1_0 : (⟨S320000, .i32⟩ : BufTy).Contents (Elt F) → (⟨S320000x1, .i32⟩ : BufTy).Contents (Elt F)),
    StableHlo.binary main_arg3 main_v74 main_v75 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    StableHlo.nary ![main_v54, main_v61, main_v68, main_v75] main_v76 (fun u => concatenate S320000x512 1 [⟨S320000x128, u 0⟩, ⟨S320000x128, u 1⟩, ⟨S320000x128, u 2⟩, ⟨S320000x128, u 3⟩] concatenates_S320000x128_S320000x128_S320000x128_S320000x128_S320000x512_d1),
    StableHlo.binary main_v47 main_v31 main_v77 ((fun a b => concatenate S320000x20 1 [⟨S320000x5, a⟩, ⟨S320000x15, b⟩] concatenates_S320000x5_S320000x15_S320000x20_d1) : (⟨S320000x5, .f32⟩ : BufTy).Contents (Elt F) → (⟨S320000x15, .f32⟩ : BufTy).Contents (Elt F) → (⟨S320000x20, .f32⟩ : BufTy).Contents (Elt F)),
    StableHlo.binary main_v76 main_arg4 main_v78 ((fun l r => Host.dotGeneral dot_S320000x512_S512x128_S320000x128_1_0_0_1_n_n none l r) : (⟨S320000x512, .f32⟩ : BufTy).Contents (Elt F) → (⟨S512x128, .f32⟩ : BufTy).Contents (Elt F) → (⟨S320000x128, .f32⟩ : BufTy).Contents (Elt F)),
    StableHlo.unary main_arg5 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S320000x128 ![0, 1] bcast_S1x128_S320000x128_0_1 : (⟨S1x128, .f32⟩ : BufTy).Contents (Elt F) → (⟨S320000x128, .f32⟩ : BufTy).Contents (Elt F)),
    StableHlo.binary main_v78 main_v80 main_v81 (addf : (⟨S320000x128, .f32⟩ : BufTy).Contents (Elt F) → (⟨S320000x128, .f32⟩ : BufTy).Contents (Elt F) → (⟨S320000x128, .f32⟩ : BufTy).Contents (Elt F)),
    StableHlo.TRef.unary (.of main_v81 : StableHlo.TRef sig ⟨S320000x128, .f32⟩) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S320000x128 ![] bcast_S_S320000x128),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S320000x128 ![] bcast_S_S320000x128),
    StableHlo.TRef.binary main_call1.v4 main_call1.v3 main_call1.v5 Host.divf,
    StableHlo.TRef.binary (.of main_v81 : StableHlo.TRef sig ⟨S320000x128, .f32⟩) main_call1.v5 main_call1.v6 mulf,
    StableHlo.binary main_v82 main_arg6 main_v83 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    StableHlo.unary main_arg7 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S320000x128 ![0, 1] bcast_S1x128_S320000x128_0_1 : (⟨S1x128, .f32⟩ : BufTy).Contents (Elt F) → (⟨S320000x128, .f32⟩ : BufTy).Contents (Elt F)),
    StableHlo.binary main_v83 main_v85 main_v86 (addf : (⟨S320000x128, .f32⟩ : BufTy).Contents (Elt F) → (⟨S320000x128, .f32⟩ : BufTy).Contents (Elt F) → (⟨S320000x128, .f32⟩ : BufTy).Contents (Elt F)),
    StableHlo.TRef.unary (.of main_v86 : StableHlo.TRef sig ⟨S320000x128, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S320000x128 ![] bcast_S_S320000x128),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S320000x128 ![] bcast_S_S320000x128),
    StableHlo.TRef.binary main_call2.v4 main_call2.v3 main_call2.v5 Host.divf,
    StableHlo.TRef.binary (.of main_v86 : StableHlo.TRef sig ⟨S320000x128, .f32⟩) main_call2.v5 main_call2.v6 mulf,
    StableHlo.binary main_v77 main_arg8 main_v88 ((fun l r => Host.dotGeneral dot_S320000x20_S20x128_S320000x128_1_0_0_1_n_n none l r) : (⟨S320000x20, .f32⟩ : BufTy).Contents (Elt F) → (⟨S20x128, .f32⟩ : BufTy).Contents (Elt F) → (⟨S320000x128, .f32⟩ : BufTy).Contents (Elt F)),
    StableHlo.unary main_arg9 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S320000x128 ![0, 1] bcast_S1x128_S320000x128_0_1 : (⟨S1x128, .f32⟩ : BufTy).Contents (Elt F) → (⟨S320000x128, .f32⟩ : BufTy).Contents (Elt F)),
    StableHlo.binary main_v88 main_v90 main_v91 (addf : (⟨S320000x128, .f32⟩ : BufTy).Contents (Elt F) → (⟨S320000x128, .f32⟩ : BufTy).Contents (Elt F) → (⟨S320000x128, .f32⟩ : BufTy).Contents (Elt F)),
    StableHlo.TRef.unary (.of main_v91 : StableHlo.TRef sig ⟨S320000x128, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S320000x128 ![] bcast_S_S320000x128),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S320000x128 ![] bcast_S_S320000x128),
    StableHlo.TRef.binary main_call3.v4 main_call3.v3 main_call3.v5 Host.divf,
    StableHlo.TRef.binary (.of main_v91 : StableHlo.TRef sig ⟨S320000x128, .f32⟩) main_call3.v5 main_call3.v6 mulf,
    StableHlo.binary main_v92 main_arg10 main_v93 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    StableHlo.unary main_arg11 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S320000x128 ![0, 1] bcast_S1x128_S320000x128_0_1 : (⟨S1x128, .f32⟩ : BufTy).Contents (Elt F) → (⟨S320000x128, .f32⟩ : BufTy).Contents (Elt F)),
    StableHlo.binary main_v93 main_v95 main_v96 (addf : (⟨S320000x128, .f32⟩ : BufTy).Contents (Elt F) → (⟨S320000x128, .f32⟩ : BufTy).Contents (Elt F) → (⟨S320000x128, .f32⟩ : BufTy).Contents (Elt F)),
    StableHlo.TRef.unary (.of main_v96 : StableHlo.TRef sig ⟨S320000x128, .f32⟩) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S320000x128 ![] bcast_S_S320000x128),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S320000x128 ![] bcast_S_S320000x128),
    StableHlo.TRef.binary main_call4.v4 main_call4.v3 main_call4.v5 Host.divf,
    StableHlo.TRef.binary (.of main_v96 : StableHlo.TRef sig ⟨S320000x128, .f32⟩) main_call4.v5 main_call4.v6 mulf,
    StableHlo.binary main_v87 main_arg12 main_v98 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    StableHlo.unary main_arg13 main_v99 (broadcastInDim S1x128 ![1] bcast_S128_S1x128_1 : (⟨S128, .f32⟩ : BufTy).Contents (Elt F) → (⟨S1x128, .f32⟩ : BufTy).Contents (Elt F)) ]

/-- The third window's operations, one call of the gate function inlined. -/
abbrev ops2 : List (HloOp τ sig (Elt F)) :=
  [ StableHlo.unary main_v99 main_v100 (broadcastInDim S320000x128 ![0, 1] bcast_S1x128_S320000x128_0_1 : (⟨S1x128, .f32⟩ : BufTy).Contents (Elt F) → (⟨S320000x128, .f32⟩ : BufTy).Contents (Elt F)),
    StableHlo.binary main_v98 main_v100 main_v101 (addf : (⟨S320000x128, .f32⟩ : BufTy).Contents (Elt F) → (⟨S320000x128, .f32⟩ : BufTy).Contents (Elt F) → (⟨S320000x128, .f32⟩ : BufTy).Contents (Elt F)),
    StableHlo.TRef.unary (.of main_v101 : StableHlo.TRef sig ⟨S320000x128, .f32⟩) main_call5.v0 Host.negf,
    StableHlo.TRef.unary main_call5.v0 main_call5.v1 Host.exp,
    StableHlo.TRef.nullary main_call5.cst (constant S_ .f32 0x3F800000#32),
    StableHlo.TRef.unary main_call5.cst main_call5.v2 (broadcastInDim S320000x128 ![] bcast_S_S320000x128),
    StableHlo.TRef.binary main_call5.v2 main_call5.v1 main_call5.v3 addf,
    StableHlo.TRef.nullary main_call5.cst_0 (constant S_ .f32 0x3F800000#32),
    StableHlo.TRef.unary main_call5.cst_0 main_call5.v4 (broadcastInDim S320000x128 ![] bcast_S_S320000x128),
    StableHlo.TRef.binary main_call5.v4 main_call5.v3 main_call5.v5 Host.divf,
    StableHlo.TRef.binary (.of main_v101 : StableHlo.TRef sig ⟨S320000x128, .f32⟩) main_call5.v5 main_call5.v6 mulf,
    StableHlo.binary main_v102 main_v97 main_v103 (mulf : (⟨S320000x128, .f32⟩ : BufTy).Contents (Elt F) → (⟨S320000x128, .f32⟩ : BufTy).Contents (Elt F) → (⟨S320000x128, .f32⟩ : BufTy).Contents (Elt F)),
    StableHlo.binary main_v103 main_arg14 main_v104 ((fun l r => Host.dotGeneral dot_S320000x128_S128x1_S320000x1_1_0_0_1_n_n none l r) : (⟨S320000x128, .f32⟩ : BufTy).Contents (Elt F) → (⟨S128x1, .f32⟩ : BufTy).Contents (Elt F) → (⟨S320000x1, .f32⟩ : BufTy).Contents (Elt F)),
    StableHlo.unary main_arg15 main_v105 (broadcastInDim S1x1 ![1] bcast_S1_S1x1_1 : (⟨S1, .f32⟩ : BufTy).Contents (Elt F) → (⟨S1x1, .f32⟩ : BufTy).Contents (Elt F)),
    StableHlo.unary main_v105 main_v106 (broadcastInDim S320000x1 ![0, 1] bcast_S1x1_S320000x1_0_1 : (⟨S1x1, .f32⟩ : BufTy).Contents (Elt F) → (⟨S320000x1, .f32⟩ : BufTy).Contents (Elt F)),
    StableHlo.binary main_v104 main_v106 main_v107 (addf : (⟨S320000x1, .f32⟩ : BufTy).Contents (Elt F) → (⟨S320000x1, .f32⟩ : BufTy).Contents (Elt F) → (⟨S320000x1, .f32⟩ : BufTy).Contents (Elt F)),
    StableHlo.unary main_v107 main_v108 (Host.negf : (⟨S320000x1, .f32⟩ : BufTy).Contents (Elt F) → (⟨S320000x1, .f32⟩ : BufTy).Contents (Elt F)),
    StableHlo.unary main_v108 main_v109 (Host.exp : (⟨S320000x1, .f32⟩ : BufTy).Contents (Elt F) → (⟨S320000x1, .f32⟩ : BufTy).Contents (Elt F)),
    StableHlo.nullary main_cst_18 (constant S_ .f32 0x3F800000#32),
    StableHlo.unary main_cst_18 main_v110 (broadcastInDim S320000x1 ![] bcast_S_S320000x1 : (⟨S_, .f32⟩ : BufTy).Contents (Elt F) → (⟨S320000x1, .f32⟩ : BufTy).Contents (Elt F)),
    StableHlo.binary main_v110 main_v109 main_v111 (addf : (⟨S320000x1, .f32⟩ : BufTy).Contents (Elt F) → (⟨S320000x1, .f32⟩ : BufTy).Contents (Elt F) → (⟨S320000x1, .f32⟩ : BufTy).Contents (Elt F)),
    StableHlo.nullary main_cst_19 (constant S_ .f32 0x3F800000#32),
    StableHlo.unary main_cst_19 main_v112 (broadcastInDim S320000x1 ![] bcast_S_S320000x1 : (⟨S_, .f32⟩ : BufTy).Contents (Elt F) → (⟨S320000x1, .f32⟩ : BufTy).Contents (Elt F)),
    StableHlo.binary main_v112 main_v111 main_v113 (Host.divf : (⟨S320000x1, .f32⟩ : BufTy).Contents (Elt F) → (⟨S320000x1, .f32⟩ : BufTy).Contents (Elt F) → (⟨S320000x1, .f32⟩ : BufTy).Contents (Elt F)),
    StableHlo.unary main_v113 main_v114 (broadcastInDim S320000x128 ![0, 1] bcast_S320000x1_S320000x128_0_1 : (⟨S320000x1, .f32⟩ : BufTy).Contents (Elt F) → (⟨S320000x128, .f32⟩ : BufTy).Contents (Elt F)),
    StableHlo.binary main_v103 main_v114 main_v115 (mulf : (⟨S320000x128, .f32⟩ : BufTy).Contents (Elt F) → (⟨S320000x128, .f32⟩ : BufTy).Contents (Elt F) → (⟨S320000x128, .f32⟩ : BufTy).Contents (Elt F)) ]

/-- All of them, in program order. -/
abbrev ops : List (HloOp τ sig (Elt F)) := ops0 ++ (ops1 ++ ops2)

/-- The operations up to the last gather: the index arithmetic, the eight gathers and the geometric features. -/
abbrev opsP : List (HloOp τ sig (Elt F)) :=
  [ StableHlo.nullary main_cst (fun i => FloatOps.ofBits .f32 (lit0 (S15.rowMajor i))),
    StableHlo.unary main_arg16 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg16 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.nullary main_c (constantI S_ 32 0#32),
    StableHlo.unary main_c main_v4 (broadcastInDim S320000 ![] bcast_S_S320000 : (⟨S_, .i32⟩ : BufTy).Contents (Elt F) → (⟨S320000, .i32⟩ : BufTy).Contents (Elt F)),
    StableHlo.binary main_v1 main_v4 main_v5 (cmpi .slt : (⟨S320000, .i32⟩ : BufTy).Contents (Elt F) → (⟨S320000, .i32⟩ : BufTy).Contents (Elt F) → (⟨S320000, .i1⟩ : BufTy).Contents (Elt F)),
    StableHlo.nullary main_c_0 (constantI S_ 32 10000#32),
    StableHlo.unary main_c_0 main_v6 (broadcastInDim S320000 ![] bcast_S_S320000 : (⟨S_, .i32⟩ : BufTy).Contents (Elt F) → (⟨S320000, .i32⟩ : BufTy).Contents (Elt F)),
    StableHlo.binary main_v1 main_v6 main_v7 (addi : (⟨S320000, .i32⟩ : BufTy).Contents (Elt F) → (⟨S320000, .i32⟩ : BufTy).Contents (Elt F) → (⟨S320000, .i32⟩ : BufTy).Contents (Elt F)),
    StableHlo.ternary main_v5 main_v7 main_v1 main_v8 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v8 main_v9 (broadcastInDim S320000x1 ![0] bcast_S320000_S320000x1_0 : (⟨S320000, .i32⟩ : BufTy).Contents (Elt F) → (⟨S320000x1, .i32⟩ : BufTy).Contents (Elt F)),
    StableHlo.binary main_arg1 main_v9 main_v10 ((fun x i => Host.gather gather_S10000x3_S320000x1_S320000x3_1_0_n_n_0_1_13 x i) : (⟨S10000x3, .f32⟩ : BufTy).Contents (Elt F) → (⟨S320000x1, .i32⟩ : BufTy).Contents (Elt F) → (⟨S320000x3, .f32⟩ : BufTy).Contents (Elt F)),
    StableHlo.nullary main_c_1 (constantI S_ 32 0#32),
    StableHlo.unary main_c_1 main_v11 (broadcastInDim S320000 ![] bcast_S_S320000 : (⟨S_, .i32⟩ : BufTy).Contents (Elt F) → (⟨S320000, .i32⟩ : BufTy).Contents (Elt F)),
    StableHlo.binary main_v3 main_v11 main_v12 (cmpi .slt : (⟨S320000, .i32⟩ : BufTy).Contents (Elt F) → (⟨S320000, .i32⟩ : BufTy).Contents (Elt F) → (⟨S320000, .i1⟩ : BufTy).Contents (Elt F)),
    StableHlo.nullary main_c_2 (constantI S_ 32 10000#32),
    StableHlo.unary main_c_2 main_v13 (broadcastInDim S320000 ![] bcast_S_S320000 : (⟨S_, .i32⟩ : BufTy).Contents (Elt F) → (⟨S320000, .i32⟩ : BufTy).Contents (Elt F)),
    StableHlo.binary main_v3 main_v13 main_v14 (addi : (⟨S320000, .i32⟩ : BufTy).Contents (Elt F) → (⟨S320000, .i32⟩ : BufTy).Contents (Elt F) → (⟨S320000, .i32⟩ : BufTy).Contents (Elt F)),
    StableHlo.ternary main_v12 main_v14 main_v3 main_v15 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v15 main_v16 (broadcastInDim S320000x1 ![0] bcast_S320000_S320000x1_0 : (⟨S320000, .i32⟩ : BufTy).Contents (Elt F) → (⟨S320000x1, .i32⟩ : BufTy).Contents (Elt F)),
    StableHlo.binary main_arg1 main_v16 main_v17 ((fun x i => Host.gather gather_S10000x3_S320000x1_S320000x3_1_0_n_n_0_1_13 x i) : (⟨S10000x3, .f32⟩ : BufTy).Contents (Elt F) → (⟨S320000x1, .i32⟩ : BufTy).Contents (Elt F) → (⟨S320000x3, .f32⟩ : BufTy).Contents (Elt F)),
    StableHlo.binary main_v10 main_v17 main_v18 (subf : (⟨S320000x3, .f32⟩ : BufTy).Contents (Elt F) → (⟨S320000x3, .f32⟩ : BufTy).Contents (Elt F) → (⟨S320000x3, .f32⟩ : BufTy).Contents (Elt F)),
    StableHlo.TRef.binary (.of main_v18 : StableHlo.TRef sig ⟨S320000x3, .f32⟩) (.of main_v18 : StableHlo.TRef sig ⟨S320000x3, .f32⟩) main_call0.v0 mulf,
    StableHlo.TRef.nullary main_call0.cst (constant S_ .f32 0x00000000#32),
    StableHlo.TRef.binary main_call0.v0 main_call0.cst main_call0.v1 (fun x v => Host.reduceAdd x v reducesTo_S320000x3_S320000_d1 h_S_),
    StableHlo.TRef.unary main_call0.v1 main_call0.v2 (broadcastInDim S320000x1 ![0] bcast_S320000_S320000x1_0),
    StableHlo.TRef.unary main_call0.v2 main_call0.v3 Host.sqrt,
    StableHlo.nullary main_cst_3 (constant S_ .f32 0x322BCC77#32),
    StableHlo.unary main_cst_3 main_v20 (broadcastInDim S320000x1 ![] bcast_S_S320000x1 : (⟨S_, .f32⟩ : BufTy).Contents (Elt F) → (⟨S320000x1, .f32⟩ : BufTy).Contents (Elt F)),
    StableHlo.binary main_v19 main_v20 main_v21 (addf : (⟨S320000x1, .f32⟩ : BufTy).Contents (Elt F) → (⟨S320000x1, .f32⟩ : BufTy).Contents (Elt F) → (⟨S320000x1, .f32⟩ : BufTy).Contents (Elt F)),
    StableHlo.unary main_v21 main_v22 (broadcastInDim S320000x3 ![0, 1] bcast_S320000x1_S320000x3_0_1 : (⟨S320000x1, .f32⟩ : BufTy).Contents (Elt F) → (⟨S320000x3, .f32⟩ : BufTy).Contents (Elt F)),
    StableHlo.binary main_v18 main_v22 main_v23 (Host.divf : (⟨S320000x3, .f32⟩ : BufTy).Contents (Elt F) → (⟨S320000x3, .f32⟩ : BufTy).Contents (Elt F) → (⟨S320000x3, .f32⟩ : BufTy).Contents (Elt F)),
    StableHlo.binary main_v23 main_v23 main_v24 (mulf : (⟨S320000x3, .f32⟩ : BufTy).Contents (Elt F) → (⟨S320000x3, .f32⟩ : BufTy).Contents (Elt F) → (⟨S320000x3, .f32⟩ : BufTy).Contents (Elt F)),
    StableHlo.nullary main_cst_4 (constant S_ .f32 0x00000000#32),
    StableHlo.binary main_v24 main_cst_4 main_v25 ((fun x v => Host.reduceAdd x v reducesTo_S320000x3_S320000_d1 h_S_) : (⟨S320000x3, .f32⟩ : BufTy).Contents (Elt F) → (⟨S_, .f32⟩ : BufTy).Contents (Elt F) → (⟨S320000, .f32⟩ : BufTy).Contents (Elt F)),
    StableHlo.unary main_v25 main_v26 (broadcastInDim S320000x1 ![0] bcast_S320000_S320000x1_0 : (⟨S320000, .f32⟩ : BufTy).Contents (Elt F) → (⟨S320000x1, .f32⟩ : BufTy).Contents (Elt F)),
    StableHlo.unary main_cst main_v27 (broadcastInDim S1x15 ![1] bcast_S15_S1x15_1 : (⟨S15, .f32⟩ : BufTy).Contents (Elt F) → (⟨S1x15, .f32⟩ : BufTy).Contents (Elt F)),
    StableHlo.unary main_v26 main_v28 (broadcastInDim S320000x15 ![0, 1] bcast_S320000x1_S320000x15_0_1 : (⟨S320000x1, .f32⟩ : BufTy).Contents (Elt F) → (⟨S320000x15, .f32⟩ : BufTy).Contents (Elt F)),
    StableHlo.unary main_v27 main_v29 (broadcastInDim S320000x15 ![0, 1] bcast_S1x15_S320000x15_0_1 : (⟨S1x15, .f32⟩ : BufTy).Contents (Elt F) → (⟨S320000x15, .f32⟩ : BufTy).Contents (Elt F)),
    StableHlo.binary main_v28 main_v29 main_v30 (mulf : (⟨S320000x15, .f32⟩ : BufTy).Contents (Elt F) → (⟨S320000x15, .f32⟩ : BufTy).Contents (Elt F) → (⟨S320000x15, .f32⟩ : BufTy).Contents (Elt F)),
    StableHlo.unary main_v30 main_v31 (Host.exp : (⟨S320000x15, .f32⟩ : BufTy).Contents (Elt F) → (⟨S320000x15, .f32⟩ : BufTy).Contents (Elt F)),
    StableHlo.nullary main_c_5 (constantI S_ 32 0#32),
    StableHlo.unary main_c_5 main_v32 (broadcastInDim S320000 ![] bcast_S_S320000 : (⟨S_, .i32⟩ : BufTy).Contents (Elt F) → (⟨S320000, .i32⟩ : BufTy).Contents (Elt F)),
    StableHlo.binary main_v1 main_v32 main_v33 (cmpi .slt : (⟨S320000, .i32⟩ : BufTy).Contents (Elt F) → (⟨S320000, .i32⟩ : BufTy).Contents (Elt F) → (⟨S320000, .i1⟩ : BufTy).Contents (Elt F)),
    StableHlo.nullary main_c_6 (constantI S_ 32 10000#32),
    StableHlo.unary main_c_6 main_v34 (broadcastInDim S320000 ![] bcast_S_S320000 : (⟨S_, .i32⟩ : BufTy).Contents (Elt F) → (⟨S320000, .i32⟩ : BufTy).Contents (Elt F)),
    StableHlo.binary main_v1 main_v34 main_v35 (addi : (⟨S320000, .i32⟩ : BufTy).Contents (Elt F) → (⟨S320000, .i32⟩ : BufTy).Contents (Elt F) → (⟨S320000, .i32⟩ : BufTy).Contents (Elt F)),
    StableHlo.ternary main_v33 main_v35 main_v1 main_v36 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v36 main_v37 (broadcastInDim S320000x1 ![0] bcast_S320000_S320000x1_0 : (⟨S320000, .i32⟩ : BufTy).Contents (Elt F) → (⟨S320000x1, .i32⟩ : BufTy).Contents (Elt F)),
    StableHlo.binary main_arg2 main_v37 main_v38 ((fun x i => Host.gather gather_S10000x5x3_S320000x1_S320000x5x3_12_0_n_n_0_1_153 x i) : (⟨S10000x5x3, .f32⟩ : BufTy).Contents (Elt F) → (⟨S320000x1, .i32⟩ : BufTy).Contents (Elt F) → (⟨S320000x5x3, .f32⟩ : BufTy).Contents (Elt F)),
    StableHlo.nullary main_c_7 (constantI S_ 32 0#32),
    StableHlo.unary main_c_7 main_v39 (broadcastInDim S320000 ![] bcast_S_S320000 : (⟨S_, .i32⟩ : BufTy).Contents (Elt F) → (⟨S320000, .i32⟩ : BufTy).Contents (Elt F)),
    StableHlo.binary main_v3 main_v39 main_v40 (cmpi .slt : (⟨S320000, .i32⟩ : BufTy).Contents (Elt F) → (⟨S320000, .i32⟩ : BufTy).Contents (Elt F) → (⟨S320000, .i1⟩ : BufTy).Contents (Elt F)),
    StableHlo.nullary main_c_8 (constantI S_ 32 10000#32),
    StableHlo.unary main_c_8 main_v41 (broadcastInDim S320000 ![] bcast_S_S320000 : (⟨S_, .i32⟩ : BufTy).Contents (Elt F) → (⟨S320000, .i32⟩ : BufTy).Contents (Elt F)),
    StableHlo.binary main_v3 main_v41 main_v42 (addi : (⟨S320000, .i32⟩ : BufTy).Contents (Elt F) → (⟨S320000, .i32⟩ : BufTy).Contents (Elt F) → (⟨S320000, .i32⟩ : BufTy).Contents (Elt F)),
    StableHlo.ternary main_v40 main_v42 main_v3 main_v43 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v43 main_v44 (broadcastInDim S320000x1 ![0] bcast_S320000_S320000x1_0 : (⟨S320000, .i32⟩ : BufTy).Contents (Elt F) → (⟨S320000x1, .i32⟩ : BufTy).Contents (Elt F)),
    StableHlo.binary main_arg2 main_v44 main_v45 ((fun x i => Host.gather gather_S10000x5x3_S320000x1_S320000x5x3_12_0_n_n_0_1_153 x i) : (⟨S10000x5x3, .f32⟩ : BufTy).Contents (Elt F) → (⟨S320000x1, .i32⟩ : BufTy).Contents (Elt F) → (⟨S320000x5x3, .f32⟩ : BufTy).Contents (Elt F)),
    StableHlo.binary main_v38 main_v45 main_v46 (mulf : (⟨S320000x5x3, .f32⟩ : BufTy).Contents (Elt F) → (⟨S320000x5x3, .f32⟩ : BufTy).Contents (Elt F) → (⟨S320000x5x3, .f32⟩ : BufTy).Contents (Elt F)),
    StableHlo.nullary main_cst_9 (constant S_ .f32 0x00000000#32),
    StableHlo.binary main_v46 main_cst_9 main_v47 ((fun x v => Host.reduceAdd x v reducesTo_S320000x5x3_S320000x5_d2 h_S_) : (⟨S320000x5x3, .f32⟩ : BufTy).Contents (Elt F) → (⟨S_, .f32⟩ : BufTy).Contents (Elt F) → (⟨S320000x5, .f32⟩ : BufTy).Contents (Elt F)),
    StableHlo.nullary main_c_10 (constantI S_ 32 0#32),
    StableHlo.unary main_c_10 main_v48 (broadcastInDim S320000 ![] bcast_S_S320000 : (⟨S_, .i32⟩ : BufTy).Contents (Elt F) → (⟨S320000, .i32⟩ : BufTy).Contents (Elt F)),
    StableHlo.binary main_v1 main_v48 main_v49 (cmpi .slt : (⟨S320000, .i32⟩ : BufTy).Contents (Elt F) → (⟨S320000, .i32⟩ : BufTy).Contents (Elt F) → (⟨S320000, .i1⟩ : BufTy).Contents (Elt F)),
    StableHlo.nullary main_c_11 (constantI S_ 32 10000#32),
    StableHlo.unary main_c_11 main_v50 (broadcastInDim S320000 ![] bcast_S_S320000 : (⟨S_, .i32⟩ : BufTy).Contents (Elt F) → (⟨S320000, .i32⟩ : BufTy).Contents (Elt F)),
    StableHlo.binary main_v1 main_v50 main_v51 (addi : (⟨S320000, .i32⟩ : BufTy).Contents (Elt F) → (⟨S320000, .i32⟩ : BufTy).Contents (Elt F) → (⟨S320000, .i32⟩ : BufTy).Contents (Elt F)),
    StableHlo.ternary main_v49 main_v51 main_v1 main_v52 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v52 main_v53 (broadcastInDim S320000x1 ![0] bcast_S320000_S320000x1_0 : (⟨S320000, .i32⟩ : BufTy).Contents (Elt F) → (⟨S320000x1, .i32⟩ : BufTy).Contents (Elt F)),
    StableHlo.binary main_arg0 main_v53 main_v54 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    StableHlo.nullary main_c_12 (constantI S_ 32 0#32),
    StableHlo.unary main_c_12 main_v55 (broadcastInDim S320000 ![] bcast_S_S320000 : (⟨S_, .i32⟩ : BufTy).Contents (Elt F) → (⟨S320000, .i32⟩ : BufTy).Contents (Elt F)),
    StableHlo.binary main_v3 main_v55 main_v56 (cmpi .slt : (⟨S320000, .i32⟩ : BufTy).Contents (Elt F) → (⟨S320000, .i32⟩ : BufTy).Contents (Elt F) → (⟨S320000, .i1⟩ : BufTy).Contents (Elt F)),
    StableHlo.nullary main_c_13 (constantI S_ 32 10000#32),
    StableHlo.unary main_c_13 main_v57 (broadcastInDim S320000 ![] bcast_S_S320000 : (⟨S_, .i32⟩ : BufTy).Contents (Elt F) → (⟨S320000, .i32⟩ : BufTy).Contents (Elt F)),
    StableHlo.binary main_v3 main_v57 main_v58 (addi : (⟨S320000, .i32⟩ : BufTy).Contents (Elt F) → (⟨S320000, .i32⟩ : BufTy).Contents (Elt F) → (⟨S320000, .i32⟩ : BufTy).Contents (Elt F)),
    StableHlo.ternary main_v56 main_v58 main_v3 main_v59 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v59 main_v60 (broadcastInDim S320000x1 ![0] bcast_S320000_S320000x1_0 : (⟨S320000, .i32⟩ : BufTy).Contents (Elt F) → (⟨S320000x1, .i32⟩ : BufTy).Contents (Elt F)),
    StableHlo.binary main_arg0 main_v60 main_v61 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    StableHlo.nullary main_c_14 (constantI S_ 32 0#32),
    StableHlo.unary main_c_14 main_v62 (broadcastInDim S320000 ![] bcast_S_S320000 : (⟨S_, .i32⟩ : BufTy).Contents (Elt F) → (⟨S320000, .i32⟩ : BufTy).Contents (Elt F)),
    StableHlo.binary main_v1 main_v62 main_v63 (cmpi .slt : (⟨S320000, .i32⟩ : BufTy).Contents (Elt F) → (⟨S320000, .i32⟩ : BufTy).Contents (Elt F) → (⟨S320000, .i1⟩ : BufTy).Contents (Elt F)),
    StableHlo.nullary main_c_15 (constantI S_ 32 10000#32),
    StableHlo.unary main_c_15 main_v64 (broadcastInDim S320000 ![] bcast_S_S320000 : (⟨S_, .i32⟩ : BufTy).Contents (Elt F) → (⟨S320000, .i32⟩ : BufTy).Contents (Elt F)),
    StableHlo.binary main_v1 main_v64 main_v65 (addi : (⟨S320000, .i32⟩ : BufTy).Contents (Elt F) → (⟨S320000, .i32⟩ : BufTy).Contents (Elt F) → (⟨S320000, .i32⟩ : BufTy).Contents (Elt F)),
    StableHlo.ternary main_v63 main_v65 main_v1 main_v66 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v66 main_v67 (broadcastInDim S320000x1 ![0] bcast_S320000_S320000x1_0 : (⟨S320000, .i32⟩ : BufTy).Contents (Elt F) → (⟨S320000x1, .i32⟩ : BufTy).Contents (Elt F)),
    StableHlo.binary main_arg3 main_v67 main_v68 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    StableHlo.nullary main_c_16 (constantI S_ 32 0#32),
    StableHlo.unary main_c_16 main_v69 (broadcastInDim S320000 ![] bcast_S_S320000 : (⟨S_, .i32⟩ : BufTy).Contents (Elt F) → (⟨S320000, .i32⟩ : BufTy).Contents (Elt F)),
    StableHlo.binary main_v3 main_v69 main_v70 (cmpi .slt : (⟨S320000, .i32⟩ : BufTy).Contents (Elt F) → (⟨S320000, .i32⟩ : BufTy).Contents (Elt F) → (⟨S320000, .i1⟩ : BufTy).Contents (Elt F)),
    StableHlo.nullary main_c_17 (constantI S_ 32 10000#32),
    StableHlo.unary main_c_17 main_v71 (broadcastInDim S320000 ![] bcast_S_S320000 : (⟨S_, .i32⟩ : BufTy).Contents (Elt F) → (⟨S320000, .i32⟩ : BufTy).Contents (Elt F)),
    StableHlo.binary main_v3 main_v71 main_v72 (addi : (⟨S320000, .i32⟩ : BufTy).Contents (Elt F) → (⟨S320000, .i32⟩ : BufTy).Contents (Elt F) → (⟨S320000, .i32⟩ : BufTy).Contents (Elt F)),
    StableHlo.ternary main_v70 main_v72 main_v3 main_v73 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v73 main_v74 (broadcastInDim S320000x1 ![0] bcast_S320000_S320000x1_0 : (⟨S320000, .i32⟩ : BufTy).Contents (Elt F) → (⟨S320000x1, .i32⟩ : BufTy).Contents (Elt F)),
    StableHlo.binary main_arg3 main_v74 main_v75 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)) ]

/-- The operations from the two concatenations on: the perceptrons, the gated product and the attention gate. -/
abbrev opsS : List (HloOp τ sig (Elt F)) :=
  [ StableHlo.nary ![main_v54, main_v61, main_v68, main_v75] main_v76 (fun u => concatenate S320000x512 1 [⟨S320000x128, u 0⟩, ⟨S320000x128, u 1⟩, ⟨S320000x128, u 2⟩, ⟨S320000x128, u 3⟩] concatenates_S320000x128_S320000x128_S320000x128_S320000x128_S320000x512_d1),
    StableHlo.binary main_v47 main_v31 main_v77 ((fun a b => concatenate S320000x20 1 [⟨S320000x5, a⟩, ⟨S320000x15, b⟩] concatenates_S320000x5_S320000x15_S320000x20_d1) : (⟨S320000x5, .f32⟩ : BufTy).Contents (Elt F) → (⟨S320000x15, .f32⟩ : BufTy).Contents (Elt F) → (⟨S320000x20, .f32⟩ : BufTy).Contents (Elt F)),
    StableHlo.binary main_v76 main_arg4 main_v78 ((fun l r => Host.dotGeneral dot_S320000x512_S512x128_S320000x128_1_0_0_1_n_n none l r) : (⟨S320000x512, .f32⟩ : BufTy).Contents (Elt F) → (⟨S512x128, .f32⟩ : BufTy).Contents (Elt F) → (⟨S320000x128, .f32⟩ : BufTy).Contents (Elt F)),
    StableHlo.unary main_arg5 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S320000x128 ![0, 1] bcast_S1x128_S320000x128_0_1 : (⟨S1x128, .f32⟩ : BufTy).Contents (Elt F) → (⟨S320000x128, .f32⟩ : BufTy).Contents (Elt F)),
    StableHlo.binary main_v78 main_v80 main_v81 (addf : (⟨S320000x128, .f32⟩ : BufTy).Contents (Elt F) → (⟨S320000x128, .f32⟩ : BufTy).Contents (Elt F) → (⟨S320000x128, .f32⟩ : BufTy).Contents (Elt F)),
    StableHlo.TRef.unary (.of main_v81 : StableHlo.TRef sig ⟨S320000x128, .f32⟩) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S320000x128 ![] bcast_S_S320000x128),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S320000x128 ![] bcast_S_S320000x128),
    StableHlo.TRef.binary main_call1.v4 main_call1.v3 main_call1.v5 Host.divf,
    StableHlo.TRef.binary (.of main_v81 : StableHlo.TRef sig ⟨S320000x128, .f32⟩) main_call1.v5 main_call1.v6 mulf,
    StableHlo.binary main_v82 main_arg6 main_v83 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    StableHlo.unary main_arg7 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S320000x128 ![0, 1] bcast_S1x128_S320000x128_0_1 : (⟨S1x128, .f32⟩ : BufTy).Contents (Elt F) → (⟨S320000x128, .f32⟩ : BufTy).Contents (Elt F)),
    StableHlo.binary main_v83 main_v85 main_v86 (addf : (⟨S320000x128, .f32⟩ : BufTy).Contents (Elt F) → (⟨S320000x128, .f32⟩ : BufTy).Contents (Elt F) → (⟨S320000x128, .f32⟩ : BufTy).Contents (Elt F)),
    StableHlo.TRef.unary (.of main_v86 : StableHlo.TRef sig ⟨S320000x128, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S320000x128 ![] bcast_S_S320000x128),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S320000x128 ![] bcast_S_S320000x128),
    StableHlo.TRef.binary main_call2.v4 main_call2.v3 main_call2.v5 Host.divf,
    StableHlo.TRef.binary (.of main_v86 : StableHlo.TRef sig ⟨S320000x128, .f32⟩) main_call2.v5 main_call2.v6 mulf,
    StableHlo.binary main_v77 main_arg8 main_v88 ((fun l r => Host.dotGeneral dot_S320000x20_S20x128_S320000x128_1_0_0_1_n_n none l r) : (⟨S320000x20, .f32⟩ : BufTy).Contents (Elt F) → (⟨S20x128, .f32⟩ : BufTy).Contents (Elt F) → (⟨S320000x128, .f32⟩ : BufTy).Contents (Elt F)),
    StableHlo.unary main_arg9 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S320000x128 ![0, 1] bcast_S1x128_S320000x128_0_1 : (⟨S1x128, .f32⟩ : BufTy).Contents (Elt F) → (⟨S320000x128, .f32⟩ : BufTy).Contents (Elt F)),
    StableHlo.binary main_v88 main_v90 main_v91 (addf : (⟨S320000x128, .f32⟩ : BufTy).Contents (Elt F) → (⟨S320000x128, .f32⟩ : BufTy).Contents (Elt F) → (⟨S320000x128, .f32⟩ : BufTy).Contents (Elt F)),
    StableHlo.TRef.unary (.of main_v91 : StableHlo.TRef sig ⟨S320000x128, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S320000x128 ![] bcast_S_S320000x128),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S320000x128 ![] bcast_S_S320000x128),
    StableHlo.TRef.binary main_call3.v4 main_call3.v3 main_call3.v5 Host.divf,
    StableHlo.TRef.binary (.of main_v91 : StableHlo.TRef sig ⟨S320000x128, .f32⟩) main_call3.v5 main_call3.v6 mulf,
    StableHlo.binary main_v92 main_arg10 main_v93 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    StableHlo.unary main_arg11 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S320000x128 ![0, 1] bcast_S1x128_S320000x128_0_1 : (⟨S1x128, .f32⟩ : BufTy).Contents (Elt F) → (⟨S320000x128, .f32⟩ : BufTy).Contents (Elt F)),
    StableHlo.binary main_v93 main_v95 main_v96 (addf : (⟨S320000x128, .f32⟩ : BufTy).Contents (Elt F) → (⟨S320000x128, .f32⟩ : BufTy).Contents (Elt F) → (⟨S320000x128, .f32⟩ : BufTy).Contents (Elt F)),
    StableHlo.TRef.unary (.of main_v96 : StableHlo.TRef sig ⟨S320000x128, .f32⟩) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S320000x128 ![] bcast_S_S320000x128),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S320000x128 ![] bcast_S_S320000x128),
    StableHlo.TRef.binary main_call4.v4 main_call4.v3 main_call4.v5 Host.divf,
    StableHlo.TRef.binary (.of main_v96 : StableHlo.TRef sig ⟨S320000x128, .f32⟩) main_call4.v5 main_call4.v6 mulf,
    StableHlo.binary main_v87 main_arg12 main_v98 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    StableHlo.unary main_arg13 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S320000x128 ![0, 1] bcast_S1x128_S320000x128_0_1 : (⟨S1x128, .f32⟩ : BufTy).Contents (Elt F) → (⟨S320000x128, .f32⟩ : BufTy).Contents (Elt F)),
    StableHlo.binary main_v98 main_v100 main_v101 (addf : (⟨S320000x128, .f32⟩ : BufTy).Contents (Elt F) → (⟨S320000x128, .f32⟩ : BufTy).Contents (Elt F) → (⟨S320000x128, .f32⟩ : BufTy).Contents (Elt F)),
    StableHlo.TRef.unary (.of main_v101 : StableHlo.TRef sig ⟨S320000x128, .f32⟩) main_call5.v0 Host.negf,
    StableHlo.TRef.unary main_call5.v0 main_call5.v1 Host.exp,
    StableHlo.TRef.nullary main_call5.cst (constant S_ .f32 0x3F800000#32),
    StableHlo.TRef.unary main_call5.cst main_call5.v2 (broadcastInDim S320000x128 ![] bcast_S_S320000x128),
    StableHlo.TRef.binary main_call5.v2 main_call5.v1 main_call5.v3 addf,
    StableHlo.TRef.nullary main_call5.cst_0 (constant S_ .f32 0x3F800000#32),
    StableHlo.TRef.unary main_call5.cst_0 main_call5.v4 (broadcastInDim S320000x128 ![] bcast_S_S320000x128),
    StableHlo.TRef.binary main_call5.v4 main_call5.v3 main_call5.v5 Host.divf,
    StableHlo.TRef.binary (.of main_v101 : StableHlo.TRef sig ⟨S320000x128, .f32⟩) main_call5.v5 main_call5.v6 mulf,
    StableHlo.binary main_v102 main_v97 main_v103 (mulf : (⟨S320000x128, .f32⟩ : BufTy).Contents (Elt F) → (⟨S320000x128, .f32⟩ : BufTy).Contents (Elt F) → (⟨S320000x128, .f32⟩ : BufTy).Contents (Elt F)),
    StableHlo.binary main_v103 main_arg14 main_v104 ((fun l r => Host.dotGeneral dot_S320000x128_S128x1_S320000x1_1_0_0_1_n_n none l r) : (⟨S320000x128, .f32⟩ : BufTy).Contents (Elt F) → (⟨S128x1, .f32⟩ : BufTy).Contents (Elt F) → (⟨S320000x1, .f32⟩ : BufTy).Contents (Elt F)),
    StableHlo.unary main_arg15 main_v105 (broadcastInDim S1x1 ![1] bcast_S1_S1x1_1 : (⟨S1, .f32⟩ : BufTy).Contents (Elt F) → (⟨S1x1, .f32⟩ : BufTy).Contents (Elt F)),
    StableHlo.unary main_v105 main_v106 (broadcastInDim S320000x1 ![0, 1] bcast_S1x1_S320000x1_0_1 : (⟨S1x1, .f32⟩ : BufTy).Contents (Elt F) → (⟨S320000x1, .f32⟩ : BufTy).Contents (Elt F)),
    StableHlo.binary main_v104 main_v106 main_v107 (addf : (⟨S320000x1, .f32⟩ : BufTy).Contents (Elt F) → (⟨S320000x1, .f32⟩ : BufTy).Contents (Elt F) → (⟨S320000x1, .f32⟩ : BufTy).Contents (Elt F)),
    StableHlo.unary main_v107 main_v108 (Host.negf : (⟨S320000x1, .f32⟩ : BufTy).Contents (Elt F) → (⟨S320000x1, .f32⟩ : BufTy).Contents (Elt F)),
    StableHlo.unary main_v108 main_v109 (Host.exp : (⟨S320000x1, .f32⟩ : BufTy).Contents (Elt F) → (⟨S320000x1, .f32⟩ : BufTy).Contents (Elt F)),
    StableHlo.nullary main_cst_18 (constant S_ .f32 0x3F800000#32),
    StableHlo.unary main_cst_18 main_v110 (broadcastInDim S320000x1 ![] bcast_S_S320000x1 : (⟨S_, .f32⟩ : BufTy).Contents (Elt F) → (⟨S320000x1, .f32⟩ : BufTy).Contents (Elt F)),
    StableHlo.binary main_v110 main_v109 main_v111 (addf : (⟨S320000x1, .f32⟩ : BufTy).Contents (Elt F) → (⟨S320000x1, .f32⟩ : BufTy).Contents (Elt F) → (⟨S320000x1, .f32⟩ : BufTy).Contents (Elt F)),
    StableHlo.nullary main_cst_19 (constant S_ .f32 0x3F800000#32),
    StableHlo.unary main_cst_19 main_v112 (broadcastInDim S320000x1 ![] bcast_S_S320000x1 : (⟨S_, .f32⟩ : BufTy).Contents (Elt F) → (⟨S320000x1, .f32⟩ : BufTy).Contents (Elt F)),
    StableHlo.binary main_v112 main_v111 main_v113 (Host.divf : (⟨S320000x1, .f32⟩ : BufTy).Contents (Elt F) → (⟨S320000x1, .f32⟩ : BufTy).Contents (Elt F) → (⟨S320000x1, .f32⟩ : BufTy).Contents (Elt F)),
    StableHlo.unary main_v113 main_v114 (broadcastInDim S320000x128 ![0, 1] bcast_S320000x1_S320000x128_0_1 : (⟨S320000x1, .f32⟩ : BufTy).Contents (Elt F) → (⟨S320000x128, .f32⟩ : BufTy).Contents (Elt F)),
    StableHlo.binary main_v103 main_v114 main_v115 (mulf : (⟨S320000x128, .f32⟩ : BufTy).Contents (Elt F) → (⟨S320000x128, .f32⟩ : BufTy).Contents (Elt F) → (⟨S320000x128, .f32⟩ : BufTy).Contents (Elt F)) ]

/-- The line cut after the last gather. -/
theorem ops_split : (ops : List (HloOp τ sig (Elt F))) = opsP ++ opsS := rfl

set_option maxRecDepth 4096 in
theorem part0_eq (c : Dev nD) : main_part0 (F := F) c = seq ops0 := by
  simp only [main_part0, fn_norm.body, seq, bind_assoc, pure_bind]
  rfl

set_option maxRecDepth 4096 in
theorem part1_eq (c : Dev nD) : main_part1 (F := F) c = seq ops1 := by
  simp only [main_part1, fn_silu.body, seq, bind_assoc, pure_bind]
  rfl

set_option maxRecDepth 4096 in
theorem part2_eq (c : Dev nD) : main_part2 (F := F) c = seq ops2 := by
  simp only [main_part2, fn_silu.body, seq, bind_assoc, pure_bind]

/-- `@main` is that one line: its three windows in order are the concatenation run as one. -/
theorem main_eq (c : Dev nD) : main (F := F) c = seq ops := by
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub ..⟩
theorem ops2_sub : (ops2 : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩
theorem ops_sub : (ops : List (HloOp τ sig (Elt F))).Forall fun op => op.bufs ⊆ tcRefs τ sig :=
  List.forall_append.mpr ⟨ops0_sub, List.forall_append.mpr ⟨ops1_sub, ops2_sub⟩⟩

/-- Every weakly fair execution of the reference's `@main` terminates, and every buffer ends at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HostRun

end
-- ==== Proof.RefAt.lean ====
/-
  The reference's second half read entry by entry.

  From the two concatenations on, every array the reference computes is, entry by entry, a function of the same row of
  its inputs: a plain matrix product read at an entry is the sum over the contracted index, the two-step bias broadcast
  read at an entry is the bias at the entry's column, the four-way concatenation read along a row is the four rows laid
  end to end, and `x · 1/(1 + e^(-x))` spelt with negate, exponential, add and divide is the gate of the row
  specification.  The three results — the feature perceptron, the geometric perceptron and the attention-gated product —
  are therefore the array forms of the row specification.
-/
import proofs.«174778_j83236466196758_2_alg».proof.Proof.RefRun
import proofs.«174778_j83236466196758_2_alg».proof.Proof.RowSpec
import Idealize.ShloMosaic.Lib.Pipeline.Value
import Idealize.ShloMosaic.PureOps.Ideal.Laws

noncomputable section

namespace Cert.ReferenceIdeal.RefAt

open Cert.ReferenceIdeal Cert.ReferenceIdeal.Gen Cert.ReferenceIdeal.HostRun Cert.EdgeMlp Idealize.ShloMosaic Idealize.ShloMosaic.TcCoe Idealize.SL.Sem Idealize.ShloMosaic.StableHlo Idealize.ShloMosaic.ValueIdx

/-! ## The array-level pieces, as the reference spells them -/

/-- `1/(1 + e^(-x))` on a whole array: the constant one splat twice, negate, exponential, add, divide. -/
def logisT {t : Shape} (h : S_.BroadcastsInDim t (![] : Fin 0 → Fin t.rank)) (x : FVec Ideal t .f32) : FVec Ideal t .f32 :=
  Host.divf (broadcastInDim t ![] h (constant (F := Ideal) S_ .f32 0x3F800000#32))
    (addf (broadcastInDim t ![] h (constant (F := Ideal) S_ .f32 0x3F800000#32)) (Host.exp (Host.negf x)))

/-- The gate `x · 1/(1 + e^(-x))` on a whole array. -/
def siluT {t : Shape} (h : S_.BroadcastsInDim t (![] : Fin 0 → Fin t.rank)) (x : FVec Ideal t .f32) : FVec Ideal t .f32 :=
  mulf x (logisT h x)

/-- A dense layer on a whole array: the plain product plus the bias broadcast in two steps. -/
def layerT {E K N : Nat} (d : DotDims ⟨2, ![E, K]⟩ ⟨2, ![K, N]⟩ ⟨2, ![E, N]⟩)
    (h1 : (⟨1, ![N]⟩ : Shape).BroadcastsInDim ⟨2, ![1, N]⟩ (![1] : Fin 1 → Fin 2))
    (h2 : (⟨2, ![1, N]⟩ : Shape).BroadcastsInDim ⟨2, ![E, N]⟩ (![0, 1] : Fin 2 → Fin 2))
    (x : FVec Ideal ⟨2, ![E, K]⟩ .f32) (w : FVec Ideal ⟨2, ![K, N]⟩ .f32) (b : FVec Ideal ⟨1, ![N]⟩ .f32) : FVec Ideal ⟨2, ![E, N]⟩ .f32 :=
  addf (Host.dotGeneral d none x w) (broadcastInDim ⟨2, ![E, N]⟩ ![0, 1] h2 (broadcastInDim ⟨2, ![1, N]⟩ ![1] h1 b))

/-! ## Each piece read at an entry -/

/-- The bit pattern `0x3F800000` is the real number one. -/
theorem one_f32 : Ideal.ofBits .f32 0x3F800000#32 = 1 := by
  simp [Ideal.ofBits, Ideal.ieee, -EReal.coe_mul]; norm_num

/-- The splat of the constant one is one at every entry. -/
theorem splat_one {t : Shape} (h : S_.BroadcastsInDim t (![] : Fin 0 → Fin t.rank)) (j : t.Idx) :
    broadcastInDim t ![] h (constant (F := Ideal) S_ .f32 0x3F800000#32) j = (1 : EReal) := by
  rw [broadcastInDim_apply ![] h _ j ix0 (fun a => a.elim0)]
  exact one_f32

/-- `1/(1 + e^(-x))` spelt with negate, exponential, add and divide is the logistic function at every entry. -/
theorem logisT_eq {t : Shape} (h : S_.BroadcastsInDim t (![] : Fin 0 → Fin t.rank)) (x : FVec Ideal t .f32) :
    logisT h x = fun j => Ideal.logistic (x j) := by
  funext j
  show FloatOps.hostDivf (broadcastInDim t ![] h (constant (F := Ideal) S_ .f32 0x3F800000#32) j)
    (FloatOps.addf (broadcastInDim t ![] h (constant (F := Ideal) S_ .f32 0x3F800000#32) j) (FloatOps.hostUnary .exp (FloatOps.hostNegf (x j)))) = _
  rw [splat_one]
  rfl

/-- The gate at every entry. -/
theorem siluT_eq {t : Shape} (h : S_.BroadcastsInDim t (![] : Fin 0 → Fin t.rank)) (x : FVec Ideal t .f32) :
    siluT h x = fun j => gate (x j) := by
  unfold siluT
  rw [logisT_eq]
  rfl

/-- A bias broadcast first to one row and then to every row, read at an entry, is the bias at the entry's column. -/
theorem bias_eq {E N : Nat}
    (h1 : (⟨1, ![N]⟩ : Shape).BroadcastsInDim ⟨2, ![1, N]⟩ (![1] : Fin 1 → Fin 2))
    (h2 : (⟨2, ![1, N]⟩ : Shape).BroadcastsInDim ⟨2, ![E, N]⟩ (![0, 1] : Fin 2 → Fin 2))
    (b : (⟨1, ![N]⟩ : Shape).Idx → EReal) (j : (⟨2, ![E, N]⟩ : Shape).Idx) :
    broadcastInDim ⟨2, ![E, N]⟩ ![0, 1] h2 (broadcastInDim ⟨2, ![1, N]⟩ ![1] h1 b) j = b (ix1 (j 1)) := by
  have hj : (j 1).val < N := (j 1).isLt
  refine (broadcastInDim_apply _ h2 _ j (ix2 (0 : Fin 1) (j 1)) ?_).trans (broadcastInDim_apply _ h1 b _ (ix1 (j 1)) ?_)
  · intro a
    match a with
    | ⟨0, _⟩ => exact (if_pos rfl).symm
    | ⟨1, _⟩ =>
      show (j 1).val = if N = 1 then 0 else (j 1).val
      split
      · omega
      · rfl
  · intro a
    match a with
    | ⟨0, _⟩ =>
      show (j 1).val = if N = 1 then 0 else (j 1).val
      split
      · omega
      · rfl

/-- A column broadcast along the rows, read at an entry, is the column at the entry's row. -/
theorem col_bcast_eq {E N : Nat}
    (h : (⟨2, ![E, 1]⟩ : Shape).BroadcastsInDim ⟨2, ![E, N]⟩ (![0, 1] : Fin 2 → Fin 2))
    (g : (⟨2, ![E, 1]⟩ : Shape).Idx → EReal) (j : (⟨2, ![E, N]⟩ : Shape).Idx) :
    broadcastInDim ⟨2, ![E, N]⟩ ![0, 1] h g j = g (ix2 (j 0) (0 : Fin 1)) := by
  have hj : (j 0).val < E := (j 0).isLt
  refine broadcastInDim_apply _ h g j (ix2 (j 0) (0 : Fin 1)) ?_
  intro a
  match a with
  | ⟨0, _⟩ =>
    show (j 0).val = if E = 1 then 0 else (j 0).val
    split
    · omega
    · rfl
  | ⟨1, _⟩ => exact (if_pos rfl).symm

/-- A plain matrix product read at an entry is the sum over the contracted index. -/
theorem dot_eq {A K B : Nat} (d : DotDims ⟨2, ![A, K]⟩ ⟨2, ![K, B]⟩ ⟨2, ![A, B]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (l : FVec Ideal ⟨2, ![A, K]⟩ .f32) (r : FVec Ideal ⟨2, ![K, B]⟩ .f32) :
    Host.dotGeneral d none l r = fun j => ∑ k : Fin K, l (ix2 (j 0) k) * r (ix2 k (j 1)) := by
  funext j
  exact (Ideal.dotGeneral_apply d none .single l r j).trans (plainDot_sum d hr hs hl0 hl1 hr0 hr1 l r j)

/-- A dense layer read at an entry is the row specification's dense layer on the entry's row. -/
theorem layerT_eq {E K N : Nat} (d : DotDims ⟨2, ![E, K]⟩ ⟨2, ![K, N]⟩ ⟨2, ![E, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (h1 : (⟨1, ![N]⟩ : Shape).BroadcastsInDim ⟨2, ![1, N]⟩ (![1] : Fin 1 → Fin 2))
    (h2 : (⟨2, ![1, N]⟩ : Shape).BroadcastsInDim ⟨2, ![E, N]⟩ (![0, 1] : Fin 2 → Fin 2))
    (x : FVec Ideal ⟨2, ![E, K]⟩ .f32) (w : FVec Ideal ⟨2, ![K, N]⟩ .f32) (b : FVec Ideal ⟨1, ![N]⟩ .f32) :
    layerT d h1 h2 x w b = fun j => dense (rowOf x (j 0)) (matOf w) (vecOf b) (j 1) := by
  funext j
  show Host.dotGeneral d none x w j + broadcastInDim ⟨2, ![E, N]⟩ ![0, 1] h2 (broadcastInDim ⟨2, ![1, N]⟩ ![1] h1 b) j = _
  rw [dot_eq d hr hs hl0 hl1 hr0 hr1, bias_eq]
  rfl

/-- The four dense layers of the reference. -/
theorem layer512_eq (x : FVec Ideal S320000x512 .f32) (w : FVec Ideal S512x128 .f32) (b : FVec Ideal S128 .f32) :
    layerT dot_S320000x512_S512x128_S320000x128_1_0_0_1_n_n bcast_S128_S1x128_1 bcast_S1x128_S320000x128_0_1 x w b
      = fun j => dense (rowOf x (j 0)) (matOf w) (vecOf b) (j 1) :=
  layerT_eq _ rfl rfl (fun _ _ => rfl) (fun _ _ => rfl) (fun _ _ => rfl) (fun _ _ => rfl) _ _ x w b

theorem layer128_eq (x : FVec Ideal S320000x128 .f32) (w : FVec Ideal S128x128 .f32) (b : FVec Ideal S128 .f32) :
    layerT dot_S320000x128_S128x128_S320000x128_1_0_0_1_n_n bcast_S128_S1x128_1 bcast_S1x128_S320000x128_0_1 x w b
      = fun j => dense (rowOf x (j 0)) (matOf w) (vecOf b) (j 1) :=
  layerT_eq _ rfl rfl (fun _ _ => rfl) (fun _ _ => rfl) (fun _ _ => rfl) (fun _ _ => rfl) _ _ x w b

theorem layer20_eq (x : FVec Ideal S320000x20 .f32) (w : FVec Ideal S20x128 .f32) (b : FVec Ideal S128 .f32) :
    layerT dot_S320000x20_S20x128_S320000x128_1_0_0_1_n_n bcast_S128_S1x128_1 bcast_S1x128_S320000x128_0_1 x w b
      = fun j => dense (rowOf x (j 0)) (matOf w) (vecOf b) (j 1) :=
  layerT_eq _ rfl rfl (fun _ _ => rfl) (fun _ _ => rfl) (fun _ _ => rfl) (fun _ _ => rfl) _ _ x w b

theorem layer1_eq (x : FVec Ideal S320000x128 .f32) (w : FVec Ideal S128x1 .f32) (b : FVec Ideal S1 .f32) :
    layerT dot_S320000x128_S128x1_S320000x1_1_0_0_1_n_n bcast_S1_S1x1_1 bcast_S1x1_S320000x1_0_1 x w b
      = fun j => dense (rowOf x (j 0)) (matOf w) (vecOf b) (j 1) :=
  layerT_eq _ rfl rfl (fun _ _ => rfl) (fun _ _ => rfl) (fun _ _ => rfl) (fun _ _ => rfl) _ _ x w b

/-! ## The four-way concatenation along a row -/

/-- Row `i` of the concatenation of four arrays along the columns is the four rows laid end to end. -/
theorem cat4_row (a b c d : Mat 320000 128) (i : Fin 320000) :
    rowOf (concatenate S320000x512 1 [⟨S320000x128, a⟩, ⟨S320000x128, b⟩, ⟨S320000x128, c⟩, ⟨S320000x128, d⟩]
        concatenates_S320000x128_S320000x128_S320000x128_S320000x128_S320000x512_d1) i
      = cat4 (rowOf a i) (rowOf b i) (rowOf c i) (rowOf d i) := by
  funext k
  have hk : k.val < 512 := k.isLt
  have hoff : ∀ (k' : Fin 128) (bb : Fin 2), Fin.cast (rfl : (2 : Nat) = 2) bb ≠ (1 : Fin 2) →
      ((ix2 i k' : (⟨2, ![320000, 128]⟩ : Shape).Idx) bb).val = ((ix2 i k : (⟨2, ![320000, 512]⟩ : Shape).Idx) (Fin.cast rfl bb)).val := by
    intro k' bb hb
    match bb with
    | ⟨0, _⟩ => rfl
    | ⟨1, _⟩ => exact absurd rfl hb
  show concatenate S320000x512 1 _ _ (ix2 i k) = _
  unfold cat4
  by_cases h0 : k.val < 128
  · rw [dif_pos h0]
    exact concatenate_apply_piece 1 _ _ (ix2 i k) 0 (by show (0 : Nat) < 4; omega) S320000x128 a rfl rfl 0 rfl (ix2 i ⟨k.val, h0⟩)
      (hoff _) (by show 0 + k.val = k.val; omega)
  · rw [dif_neg h0]
    by_cases h1 : k.val < 256
    · rw [dif_pos h1]
      exact concatenate_apply_piece 1 _ _ (ix2 i k) 1 (by show (1 : Nat) < 4; omega) S320000x128 b rfl rfl 128 rfl (ix2 i ⟨k.val - 128, by omega⟩)
        (hoff _) (by show 128 + (k.val - 128) = k.val; omega)
    · rw [dif_neg h1]
      by_cases h2 : k.val < 384
      · rw [dif_pos h2]
        exact concatenate_apply_piece 1 _ _ (ix2 i k) 2 (by show (2 : Nat) < 4; omega) S320000x128 c rfl rfl 256 rfl (ix2 i ⟨k.val - 256, by omega⟩)
          (hoff _) (by show 256 + (k.val - 256) = k.val; omega)
      · rw [dif_neg h2]
        exact concatenate_apply_piece 1 _ _ (ix2 i k) 3 (by show (3 : Nat) < 4; omega) S320000x128 d rfl rfl 384 rfl (ix2 i ⟨k.val - 384, by omega⟩)
          (hoff _) (by show 384 + (k.val - 384) = k.val; omega)

/-- The first layer of the feature perceptron: the dense layer on the concatenated row is the dense layer on the four
    quarters. -/
theorem layer512cat_eq (a b c d : Mat 320000 128) (w : FVec Ideal S512x128 .f32) (bias : FVec Ideal S128 .f32) :
    layerT dot_S320000x512_S512x128_S320000x128_1_0_0_1_n_n bcast_S128_S1x128_1 bcast_S1x128_S320000x128_0_1
        (concatenate S320000x512 1 [⟨S320000x128, a⟩, ⟨S320000x128, b⟩, ⟨S320000x128, c⟩, ⟨S320000x128, d⟩]
          concatenates_S320000x128_S320000x128_S320000x128_S320000x128_S320000x512_d1) w bias
      = fun j => dense4 (rowOf a (j 0)) (rowOf b (j 0)) (rowOf c (j 0)) (rowOf d (j 0)) (matOf w) (vecOf bias) (j 1) := by
  rw [layer512_eq]
  funext j
  beta_reduce
  rw [cat4_row a b c d (j 0)]
  exact dense_cat4 _ _ _ _ _ _ _

/-! ## The reference's three results as compositions of the pieces -/

/-- The feature perceptron on whole arrays. -/
def chemT (V1 : Valuation τ sig (Elt Ideal)) : FVec Ideal S320000x128 .f32 :=
  siluT bcast_S_S320000x128 (layerT dot_S320000x128_S128x128_S320000x128_1_0_0_1_n_n bcast_S128_S1x128_1 bcast_S1x128_S320000x128_0_1
    (siluT bcast_S_S320000x128 (layerT dot_S320000x512_S512x128_S320000x128_1_0_0_1_n_n bcast_S128_S1x128_1 bcast_S1x128_S320000x128_0_1
      (concatenate S320000x512 1 [⟨S320000x128, V1 (main_v54 : DevRef τ sig)⟩, ⟨S320000x128, V1 (main_v61 : DevRef τ sig)⟩,
          ⟨S320000x128, V1 (main_v68 : DevRef τ sig)⟩, ⟨S320000x128, V1 (main_v75 : DevRef τ sig)⟩]
        concatenates_S320000x128_S320000x128_S320000x128_S320000x128_S320000x512_d1)
      (V1 (main_arg4 : DevRef τ sig)) (V1 (main_arg5 : DevRef τ sig))))
    (V1 (main_arg6 : DevRef τ sig)) (V1 (main_arg7 : DevRef τ sig)))

/-- The geometric perceptron on whole arrays. -/
def posT (V1 : Valuation τ sig (Elt Ideal)) : FVec Ideal S320000x128 .f32 :=
  siluT bcast_S_S320000x128 (layerT dot_S320000x128_S128x128_S320000x128_1_0_0_1_n_n bcast_S128_S1x128_1 bcast_S1x128_S320000x128_0_1
    (siluT bcast_S_S320000x128 (layerT dot_S320000x20_S20x128_S320000x128_1_0_0_1_n_n bcast_S128_S1x128_1 bcast_S1x128_S320000x128_0_1
      (concatenate S320000x20 1 [⟨S320000x5, V1 (main_v47 : DevRef τ sig)⟩, ⟨S320000x15, V1 (main_v31 : DevRef τ sig)⟩]
        concatenates_S320000x5_S320000x15_S320000x20_d1)
      (V1 (main_arg8 : DevRef τ sig)) (V1 (main_arg9 : DevRef τ sig))))
    (V1 (main_arg10 : DevRef τ sig)) (V1 (main_arg11 : DevRef τ sig)))

/-- The gated product on whole arrays. -/
def preT (C P : FVec Ideal S320000x128 .f32) (w : FVec Ideal S128x128 .f32) (b : FVec Ideal S128 .f32) : FVec Ideal S320000x128 .f32 :=
  mulf (siluT bcast_S_S320000x128 (layerT dot_S320000x128_S128x128_S320000x128_1_0_0_1_n_n bcast_S128_S1x128_1 bcast_S1x128_S320000x128_0_1 C w b)) P

/-- The attention gate on whole arrays. -/
def outT (Q : FVec Ideal S320000x128 .f32) (aw : FVec Ideal S128x1 .f32) (ab : FVec Ideal S1 .f32) : FVec Ideal S320000x128 .f32 :=
  mulf Q (broadcastInDim S320000x128 ![0, 1] bcast_S320000x1_S320000x128_0_1
    (logisT bcast_S_S320000x1 (layerT dot_S320000x128_S128x1_S320000x1_1_0_0_1_n_n bcast_S1_S1x1_1 bcast_S1x1_S320000x1_0_1 Q aw ab)))

set_option maxRecDepth 16384 in
set_option maxHeartbeats 4000000 in
/-- Running the operations leaves the feature perceptron's composition in its buffer. -/
theorem chem_term (V1 : Valuation τ sig (Elt Ideal)) :
    after (opsS (F := Ideal)) V1 (main_v87 : DevRef τ sig) = chemT V1 := by
  after_results_simp
  rfl

set_option maxRecDepth 16384 in
set_option maxHeartbeats 4000000 in
/-- Running the operations leaves the geometric perceptron's composition in its buffer. -/
theorem pos_term (V1 : Valuation τ sig (Elt Ideal)) :
    after (opsS (F := Ideal)) V1 (main_v97 : DevRef τ sig) = posT V1 := by
  after_results_simp
  rfl

set_option maxRecDepth 16384 in
set_option maxHeartbeats 4000000 in
/-- Running the operations leaves the attention-gated product's composition in the result buffer. -/
theorem out_term (V1 : Valuation τ sig (Elt Ideal)) :
    after (opsS (F := Ideal)) V1 (main_v115 : DevRef τ sig)
      = outT (preT (chemT V1) (posT V1) (V1 (main_arg12 : DevRef τ sig)) (V1 (main_arg13 : DevRef τ sig)))
          (V1 (main_arg14 : DevRef τ sig)) (V1 (main_arg15 : DevRef τ sig)) := by
  after_results_simp
  rfl

/-! ## The compositions are the array forms of the row specification -/

theorem chemT_eq (V1 : Valuation τ sig (Elt Ideal)) :
    chemT V1 = chemArr (V1 (main_v54 : DevRef τ sig)) (V1 (main_v61 : DevRef τ sig)) (V1 (main_v68 : DevRef τ sig)) (V1 (main_v75 : DevRef τ sig))
      (V1 (main_arg4 : DevRef τ sig)) (vecOf (V1 (main_arg5 : DevRef τ sig))) (V1 (main_arg6 : DevRef τ sig)) (vecOf (V1 (main_arg7 : DevRef τ sig))) := by
  unfold chemT
  rw [layer512cat_eq, siluT_eq, layer128_eq, siluT_eq]
  rfl

theorem posT_eq (V1 : Valuation τ sig (Elt Ideal)) :
    posT V1 = posArr (concatenate S320000x20 1 [⟨S320000x5, V1 (main_v47 : DevRef τ sig)⟩, ⟨S320000x15, V1 (main_v31 : DevRef τ sig)⟩] concatenates_S320000x5_S320000x15_S320000x20_d1)
      (V1 (main_arg8 : DevRef τ sig)) (vecOf (V1 (main_arg9 : DevRef τ sig))) (V1 (main_arg10 : DevRef τ sig)) (vecOf (V1 (main_arg11 : DevRef τ sig))) := by
  unfold posT
  rw [layer20_eq, siluT_eq, layer128_eq, siluT_eq]
  rfl

theorem preT_eq (C P : FVec Ideal S320000x128 .f32) (w : FVec Ideal S128x128 .f32) (b : FVec Ideal S128 .f32) :
    preT C P w b = preArr C P w (vecOf b) := by
  unfold preT
  rw [layer128_eq, siluT_eq]
  rfl

theorem outT_eq (Q : FVec Ideal S320000x128 .f32) (aw : FVec Ideal S128x1 .f32) (ab : FVec Ideal S1 .f32) :
    outT Q aw ab = outArr Q aw (vecOf ab) := by
  funext i
  show Q i * broadcastInDim S320000x128 ![0, 1] bcast_S320000x1_S320000x128_0_1
    (logisT bcast_S_S320000x1 (layerT dot_S320000x128_S128x1_S320000x1_1_0_0_1_n_n bcast_S1_S1x1_1 bcast_S1x1_S320000x1_0_1 Q aw ab)) i = _
  rw [col_bcast_eq, logisT_eq, layer1_eq]
  rfl

/-! ## The three results -/

/-- The feature perceptron's buffer is the row specification on every row. -/
theorem chem_eq (V1 : Valuation τ sig (Elt Ideal)) :
    (after (opsS (F := Ideal)) V1 (main_v87 : DevRef τ sig) : Mat 320000 128)
      = chemArr (V1 (main_v54 : DevRef τ sig)) (V1 (main_v61 : DevRef τ sig)) (V1 (main_v68 : DevRef τ sig)) (V1 (main_v75 : DevRef τ sig))
          (V1 (main_arg4 : DevRef τ sig)) (vecOf (V1 (main_arg5 : DevRef τ sig))) (V1 (main_arg6 : DevRef τ sig)) (vecOf (V1 (main_arg7 : DevRef τ sig))) :=
  (chem_term V1).trans (chemT_eq V1)

/-- The geometric perceptron's buffer is the row specification on every row of the concatenated geometric features. -/
theorem pos_eq (V1 : Valuation τ sig (Elt Ideal)) :
    (after (opsS (F := Ideal)) V1 (main_v97 : DevRef τ sig) : Mat 320000 128)
      = posArr (concatenate S320000x20 1 [⟨S320000x5, V1 (main_v47 : DevRef τ sig)⟩, ⟨S320000x15, V1 (main_v31 : DevRef τ sig)⟩] concatenates_S320000x5_S320000x15_S320000x20_d1)
          (V1 (main_arg8 : DevRef τ sig)) (vecOf (V1 (main_arg9 : DevRef τ sig))) (V1 (main_arg10 : DevRef τ sig)) (vecOf (V1 (main_arg11 : DevRef τ sig))) :=
  (pos_term V1).trans (posT_eq V1)

/-- The result buffer is the attention-gated product of the row specification on every row. -/
theorem out_eq (V1 : Valuation τ sig (Elt Ideal)) :
    (after (opsS (F := Ideal)) V1 (main_v115 : DevRef τ sig) : Mat 320000 128)
      = outArr (preArr
          (chemArr (V1 (main_v54 : DevRef τ sig)) (V1 (main_v61 : DevRef τ sig)) (V1 (main_v68 : DevRef τ sig)) (V1 (main_v75 : DevRef τ sig))
            (V1 (main_arg4 : DevRef τ sig)) (vecOf (V1 (main_arg5 : DevRef τ sig))) (V1 (main_arg6 : DevRef τ sig)) (vecOf (V1 (main_arg7 : DevRef τ sig))))
          (posArr (concatenate S320000x20 1 [⟨S320000x5, V1 (main_v47 : DevRef τ sig)⟩, ⟨S320000x15, V1 (main_v31 : DevRef τ sig)⟩] concatenates_S320000x5_S320000x15_S320000x20_d1)
            (V1 (main_arg8 : DevRef τ sig)) (vecOf (V1 (main_arg9 : DevRef τ sig))) (V1 (main_arg10 : DevRef τ sig)) (vecOf (V1 (main_arg11 : DevRef τ sig))))
          (V1 (main_arg12 : DevRef τ sig)) (vecOf (V1 (main_arg13 : DevRef τ sig))))
        (V1 (main_arg14 : DevRef τ sig)) (vecOf (V1 (main_arg15 : DevRef τ sig))) := by
  rw [out_term, outT_eq, preT_eq, chemT_eq, posT_eq]

end Cert.ReferenceIdeal.RefAt

end
-- ==== Proof.RefKeep.lean ====
/-
  What the reference's line of host operations leaves alone.

  No operation of the line writes an argument buffer, so each argument is, after the whole line, what it was at launch;
  and no operation after the last gather writes the direction array, which is therefore what the first part left.
-/
import proofs.«174778_j83236466196758_2_alg».proof.Proof.RefRun
import Idealize.ShloMosaic.Lib.Pipeline.Frame

noncomputable section

namespace Cert.ReferenceIdeal.Keep

open Cert.ReferenceIdeal Cert.ReferenceIdeal.Gen Cert.ReferenceIdeal.HostRun Idealize.ShloMosaic Idealize.ShloMosaic.TcCoe Idealize.SL.Sem Idealize.ShloMosaic.StableHlo

variable {F : FTy → Type} [FloatOps F]

set_option maxRecDepth 16384
set_option maxHeartbeats 4000000

/-- The whole line is the part up to the last gather followed by the rest. -/
theorem after_split (L : Valuation τ sig (Elt F)) (b : DevRef τ sig) :
    after (ops (F := F)) L b = after (opsS (F := F)) (after (opsP (F := F)) L) b := by
  rw [ops_split, StableHlo.after_append]

theorem keepP_arg0 (L : Valuation τ sig (Elt F)) :
    after (opsP (F := F)) L (main_arg0 : DevRef τ sig) = L (main_arg0 : DevRef τ sig) := by
  after_results_simp

theorem keepS_arg0 (L : Valuation τ sig (Elt F)) :
    after (opsS (F := F)) L (main_arg0 : DevRef τ sig) = L (main_arg0 : DevRef τ sig) := by
  after_results_simp

theorem keep_arg0 (L : Valuation τ sig (Elt F)) :
    after (ops (F := F)) L (main_arg0 : DevRef τ sig) = L (main_arg0 : DevRef τ sig) := by
  rw [after_split, keepS_arg0, keepP_arg0]

theorem keepP_arg1 (L : Valuation τ sig (Elt F)) :
    after (opsP (F := F)) L (main_arg1 : DevRef τ sig) = L (main_arg1 : DevRef τ sig) := by
  after_results_simp

theorem keepS_arg1 (L : Valuation τ sig (Elt F)) :
    after (opsS (F := F)) L (main_arg1 : DevRef τ sig) = L (main_arg1 : DevRef τ sig) := by
  after_results_simp

theorem keep_arg1 (L : Valuation τ sig (Elt F)) :
    after (ops (F := F)) L (main_arg1 : DevRef τ sig) = L (main_arg1 : DevRef τ sig) := by
  rw [after_split, keepS_arg1, keepP_arg1]

theorem keepP_arg2 (L : Valuation τ sig (Elt F)) :
    after (opsP (F := F)) L (main_arg2 : DevRef τ sig) = L (main_arg2 : DevRef τ sig) := by
  after_results_simp

theorem keepS_arg2 (L : Valuation τ sig (Elt F)) :
    after (opsS (F := F)) L (main_arg2 : DevRef τ sig) = L (main_arg2 : DevRef τ sig) := by
  after_results_simp

theorem keep_arg2 (L : Valuation τ sig (Elt F)) :
    after (ops (F := F)) L (main_arg2 : DevRef τ sig) = L (main_arg2 : DevRef τ sig) := by
  rw [after_split, keepS_arg2, keepP_arg2]

theorem keepP_arg3 (L : Valuation τ sig (Elt F)) :
    after (opsP (F := F)) L (main_arg3 : DevRef τ sig) = L (main_arg3 : DevRef τ sig) := by
  after_results_simp

theorem keepS_arg3 (L : Valuation τ sig (Elt F)) :
    after (opsS (F := F)) L (main_arg3 : DevRef τ sig) = L (main_arg3 : DevRef τ sig) := by
  after_results_simp

theorem keep_arg3 (L : Valuation τ sig (Elt F)) :
    after (ops (F := F)) L (main_arg3 : DevRef τ sig) = L (main_arg3 : DevRef τ sig) := by
  rw [after_split, keepS_arg3, keepP_arg3]

theorem keepP_arg4 (L : Valuation τ sig (Elt F)) :
    after (opsP (F := F)) L (main_arg4 : DevRef τ sig) = L (main_arg4 : DevRef τ sig) := by
  after_results_simp

theorem keepS_arg4 (L : Valuation τ sig (Elt F)) :
    after (opsS (F := F)) L (main_arg4 : DevRef τ sig) = L (main_arg4 : DevRef τ sig) := by
  after_results_simp

theorem keep_arg4 (L : Valuation τ sig (Elt F)) :
    after (ops (F := F)) L (main_arg4 : DevRef τ sig) = L (main_arg4 : DevRef τ sig) := by
  rw [after_split, keepS_arg4, keepP_arg4]

theorem keepP_arg5 (L : Valuation τ sig (Elt F)) :
    after (opsP (F := F)) L (main_arg5 : DevRef τ sig) = L (main_arg5 : DevRef τ sig) := by
  after_results_simp

theorem keepS_arg5 (L : Valuation τ sig (Elt F)) :
    after (opsS (F := F)) L (main_arg5 : DevRef τ sig) = L (main_arg5 : DevRef τ sig) := by
  after_results_simp

theorem keep_arg5 (L : Valuation τ sig (Elt F)) :
    after (ops (F := F)) L (main_arg5 : DevRef τ sig) = L (main_arg5 : DevRef τ sig) := by
  rw [after_split, keepS_arg5, keepP_arg5]

theorem keepP_arg6 (L : Valuation τ sig (Elt F)) :
    after (opsP (F := F)) L (main_arg6 : DevRef τ sig) = L (main_arg6 : DevRef τ sig) := by
  after_results_simp

theorem keepS_arg6 (L : Valuation τ sig (Elt F)) :
    after (opsS (F := F)) L (main_arg6 : DevRef τ sig) = L (main_arg6 : DevRef τ sig) := by
  after_results_simp

theorem keep_arg6 (L : Valuation τ sig (Elt F)) :
    after (ops (F := F)) L (main_arg6 : DevRef τ sig) = L (main_arg6 : DevRef τ sig) := by
  rw [after_split, keepS_arg6, keepP_arg6]

theorem keepP_arg7 (L : Valuation τ sig (Elt F)) :
    after (opsP (F := F)) L (main_arg7 : DevRef τ sig) = L (main_arg7 : DevRef τ sig) := by
  after_results_simp

theorem keepS_arg7 (L : Valuation τ sig (Elt F)) :
    after (opsS (F := F)) L (main_arg7 : DevRef τ sig) = L (main_arg7 : DevRef τ sig) := by
  after_results_simp

theorem keep_arg7 (L : Valuation τ sig (Elt F)) :
    after (ops (F := F)) L (main_arg7 : DevRef τ sig) = L (main_arg7 : DevRef τ sig) := by
  rw [after_split, keepS_arg7, keepP_arg7]

theorem keepP_arg8 (L : Valuation τ sig (Elt F)) :
    after (opsP (F := F)) L (main_arg8 : DevRef τ sig) = L (main_arg8 : DevRef τ sig) := by
  after_results_simp

theorem keepS_arg8 (L : Valuation τ sig (Elt F)) :
    after (opsS (F := F)) L (main_arg8 : DevRef τ sig) = L (main_arg8 : DevRef τ sig) := by
  after_results_simp

theorem keep_arg8 (L : Valuation τ sig (Elt F)) :
    after (ops (F := F)) L (main_arg8 : DevRef τ sig) = L (main_arg8 : DevRef τ sig) := by
  rw [after_split, keepS_arg8, keepP_arg8]

theorem keepP_arg9 (L : Valuation τ sig (Elt F)) :
    after (opsP (F := F)) L (main_arg9 : DevRef τ sig) = L (main_arg9 : DevRef τ sig) := by
  after_results_simp

theorem keepS_arg9 (L : Valuation τ sig (Elt F)) :
    after (opsS (F := F)) L (main_arg9 : DevRef τ sig) = L (main_arg9 : DevRef τ sig) := by
  after_results_simp

theorem keep_arg9 (L : Valuation τ sig (Elt F)) :
    after (ops (F := F)) L (main_arg9 : DevRef τ sig) = L (main_arg9 : DevRef τ sig) := by
  rw [after_split, keepS_arg9, keepP_arg9]

theorem keepP_arg10 (L : Valuation τ sig (Elt F)) :
    after (opsP (F := F)) L (main_arg10 : DevRef τ sig) = L (main_arg10 : DevRef τ sig) := by
  after_results_simp

theorem keepS_arg10 (L : Valuation τ sig (Elt F)) :
    after (opsS (F := F)) L (main_arg10 : DevRef τ sig) = L (main_arg10 : DevRef τ sig) := by
  after_results_simp

theorem keep_arg10 (L : Valuation τ sig (Elt F)) :
    after (ops (F := F)) L (main_arg10 : DevRef τ sig) = L (main_arg10 : DevRef τ sig) := by
  rw [after_split, keepS_arg10, keepP_arg10]

theorem keepP_arg11 (L : Valuation τ sig (Elt F)) :
    after (opsP (F := F)) L (main_arg11 : DevRef τ sig) = L (main_arg11 : DevRef τ sig) := by
  after_results_simp

theorem keepS_arg11 (L : Valuation τ sig (Elt F)) :
    after (opsS (F := F)) L (main_arg11 : DevRef τ sig) = L (main_arg11 : DevRef τ sig) := by
  after_results_simp

theorem keep_arg11 (L : Valuation τ sig (Elt F)) :
    after (ops (F := F)) L (main_arg11 : DevRef τ sig) = L (main_arg11 : DevRef τ sig) := by
  rw [after_split, keepS_arg11, keepP_arg11]

theorem keepP_arg12 (L : Valuation τ sig (Elt F)) :
    after (opsP (F := F)) L (main_arg12 : DevRef τ sig) = L (main_arg12 : DevRef τ sig) := by
  after_results_simp

theorem keepS_arg12 (L : Valuation τ sig (Elt F)) :
    after (opsS (F := F)) L (main_arg12 : DevRef τ sig) = L (main_arg12 : DevRef τ sig) := by
  after_results_simp

theorem keep_arg12 (L : Valuation τ sig (Elt F)) :
    after (ops (F := F)) L (main_arg12 : DevRef τ sig) = L (main_arg12 : DevRef τ sig) := by
  rw [after_split, keepS_arg12, keepP_arg12]

theorem keepP_arg13 (L : Valuation τ sig (Elt F)) :
    after (opsP (F := F)) L (main_arg13 : DevRef τ sig) = L (main_arg13 : DevRef τ sig) := by
  after_results_simp

theorem keepS_arg13 (L : Valuation τ sig (Elt F)) :
    after (opsS (F := F)) L (main_arg13 : DevRef τ sig) = L (main_arg13 : DevRef τ sig) := by
  after_results_simp

theorem keep_arg13 (L : Valuation τ sig (Elt F)) :
    after (ops (F := F)) L (main_arg13 : DevRef τ sig) = L (main_arg13 : DevRef τ sig) := by
  rw [after_split, keepS_arg13, keepP_arg13]

theorem keepP_arg14 (L : Valuation τ sig (Elt F)) :
    after (opsP (F := F)) L (main_arg14 : DevRef τ sig) = L (main_arg14 : DevRef τ sig) := by
  after_results_simp

theorem keepS_arg14 (L : Valuation τ sig (Elt F)) :
    after (opsS (F := F)) L (main_arg14 : DevRef τ sig) = L (main_arg14 : DevRef τ sig) := by
  after_results_simp

theorem keep_arg14 (L : Valuation τ sig (Elt F)) :
    after (ops (F := F)) L (main_arg14 : DevRef τ sig) = L (main_arg14 : DevRef τ sig) := by
  rw [after_split, keepS_arg14, keepP_arg14]

theorem keepP_arg15 (L : Valuation τ sig (Elt F)) :
    after (opsP (F := F)) L (main_arg15 : DevRef τ sig) = L (main_arg15 : DevRef τ sig) := by
  after_results_simp

theorem keepS_arg15 (L : Valuation τ sig (Elt F)) :
    after (opsS (F := F)) L (main_arg15 : DevRef τ sig) = L (main_arg15 : DevRef τ sig) := by
  after_results_simp

theorem keep_arg15 (L : Valuation τ sig (Elt F)) :
    after (ops (F := F)) L (main_arg15 : DevRef τ sig) = L (main_arg15 : DevRef τ sig) := by
  rw [after_split, keepS_arg15, keepP_arg15]

theorem keepP_arg16 (L : Valuation τ sig (Elt F)) :
    after (opsP (F := F)) L (main_arg16 : DevRef τ sig) = L (main_arg16 : DevRef τ sig) := by
  after_results_simp

theorem keepS_arg16 (L : Valuation τ sig (Elt F)) :
    after (opsS (F := F)) L (main_arg16 : DevRef τ sig) = L (main_arg16 : DevRef τ sig) := by
  after_results_simp

theorem keep_arg16 (L : Valuation τ sig (Elt F)) :
    after (ops (F := F)) L (main_arg16 : DevRef τ sig) = L (main_arg16 : DevRef τ sig) := by
  rw [after_split, keepS_arg16, keepP_arg16]

/-- The direction array is not written after the last gather. -/
theorem keepS_v23 (L : Valuation τ sig (Elt F)) :
    after (opsS (F := F)) L (main_v23 : DevRef τ sig) = L (main_v23 : DevRef τ sig) := by
  after_results_simp

end Cert.ReferenceIdeal.Keep

end
-- ==== Proof.Bridge.lean ====
/-
  The two programs side by side.

  Before the network both programs do the same host work on the same arguments: the edge indices are normalised, the
  node features, coordinates and frame vectors are gathered at both ends of every edge, and the direction, the radial
  features and the frame products are computed.  The kernel's program only inserts changes of float format (the
  identity on the extended reals) and reshapes the biases to one row.  So the arrays the kernel's region finds are the
  arrays the reference has after its last gather, and the weights and biases are the arguments themselves; the
  network applied to them is therefore one function on both sides.
-/
import proofs.«174778_j83236466196758_2_alg».proof.Proof.KerFinal
import proofs.«174778_j83236466196758_2_alg».proof.Proof.RefAt
import proofs.«174778_j83236466196758_2_alg».proof.Proof.RefKeep
import Idealize.ShloMosaic.Lib.StableHlo.Run

noncomputable section

namespace Cert.Bridge

open Idealize.ShloMosaic Idealize.ShloMosaic.TcCoe Idealize.SL.Sem Idealize.ShloMosaic.StableHlo Idealize.ShloMosaic.ValueIdx Cert.EdgeMlp

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

set_option maxRecDepth 16384
set_option maxHeartbeats 4000000

/-! ## The shared arrays -/

/-- The node features gathered at the edges' first ends. -/
theorem x_hr (c : Dev Cert.KernelIdeal.nD) (h0 : launchContents m' c (Proc.devRef .tc Cert.ReferenceIdeal.main_arg0) = m (c, Proc.devRef .tc Cert.KernelIdeal.main_arg0)) (h16 : launchContents m' c (Proc.devRef .tc Cert.ReferenceIdeal.main_arg16) = m (c, Proc.devRef .tc Cert.KernelIdeal.main_arg16)) :
    (after (Cert.ReferenceIdeal.HostRun.opsP (F := Ideal)) (launchContents m' c) (Cert.ReferenceIdeal.main_v54 : DevRef Cert.ReferenceIdeal.τ Cert.ReferenceIdeal.sig) : Mat 320000 128) = Cert.KernelIdeal.Gen.V m c Cert.KernelIdeal.main_v12 := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h0, h16]
  rfl

/-- The node features gathered at the edges' second ends. -/
theorem x_hc (c : Dev Cert.KernelIdeal.nD) (h0 : launchContents m' c (Proc.devRef .tc Cert.ReferenceIdeal.main_arg0) = m (c, Proc.devRef .tc Cert.KernelIdeal.main_arg0)) (h16 : launchContents m' c (Proc.devRef .tc Cert.ReferenceIdeal.main_arg16) = m (c, Proc.devRef .tc Cert.KernelIdeal.main_arg16)) :
    (after (Cert.ReferenceIdeal.HostRun.opsP (F := Ideal)) (launchContents m' c) (Cert.ReferenceIdeal.main_v61 : DevRef Cert.ReferenceIdeal.τ Cert.ReferenceIdeal.sig) : Mat 320000 128) = Cert.KernelIdeal.Gen.V m c Cert.KernelIdeal.main_v19 := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h0, h16]
  rfl

/-- The node attributes gathered at the first ends. -/
theorem x_nr (c : Dev Cert.KernelIdeal.nD) (h3 : launchContents m' c (Proc.devRef .tc Cert.ReferenceIdeal.main_arg3) = m (c, Proc.devRef .tc Cert.KernelIdeal.main_arg3)) (h16 : launchContents m' c (Proc.devRef .tc Cert.ReferenceIdeal.main_arg16) = m (c, Proc.devRef .tc Cert.KernelIdeal.main_arg16)) :
    (after (Cert.ReferenceIdeal.HostRun.opsP (F := Ideal)) (launchContents m' c) (Cert.ReferenceIdeal.main_v68 : DevRef Cert.ReferenceIdeal.τ Cert.ReferenceIdeal.sig) : Mat 320000 128) = Cert.KernelIdeal.Gen.V m c Cert.KernelIdeal.main_v26 := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h3, h16]
  rfl

/-- The node attributes gathered at the second ends. -/
theorem x_nc (c : Dev Cert.KernelIdeal.nD) (h3 : launchContents m' c (Proc.devRef .tc Cert.ReferenceIdeal.main_arg3) = m (c, Proc.devRef .tc Cert.KernelIdeal.main_arg3)) (h16 : launchContents m' c (Proc.devRef .tc Cert.ReferenceIdeal.main_arg16) = m (c, Proc.devRef .tc Cert.KernelIdeal.main_arg16)) :
    (after (Cert.ReferenceIdeal.HostRun.opsP (F := Ideal)) (launchContents m' c) (Cert.ReferenceIdeal.main_v75 : DevRef Cert.ReferenceIdeal.τ Cert.ReferenceIdeal.sig) : Mat 320000 128) = Cert.KernelIdeal.Gen.V m c Cert.KernelIdeal.main_v33 := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h3, h16]
  rfl

/-- The unit direction of every edge. -/
theorem x_cd (c : Dev Cert.KernelIdeal.nD) (h1 : launchContents m' c (Proc.devRef .tc Cert.ReferenceIdeal.main_arg1) = m (c, Proc.devRef .tc Cert.KernelIdeal.main_arg1)) (h16 : launchContents m' c (Proc.devRef .tc Cert.ReferenceIdeal.main_arg16) = m (c, Proc.devRef .tc Cert.KernelIdeal.main_arg16)) :
    (after (Cert.ReferenceIdeal.HostRun.opsP (F := Ideal)) (launchContents m' c) (Cert.ReferenceIdeal.main_v23 : DevRef Cert.ReferenceIdeal.τ Cert.ReferenceIdeal.sig) : Mat 320000 3) = Cert.KernelIdeal.Gen.V m c Cert.KernelIdeal.main_v67 := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h1, h16]
  rfl

/-- The weights: the kernel's program changes their float format only. -/
theorem x_w4 (c : Dev Cert.KernelIdeal.nD) (h4 : launchContents m' c (Proc.devRef .tc Cert.ReferenceIdeal.main_arg4) = m (c, Proc.devRef .tc Cert.KernelIdeal.main_arg4)) :
    (after (Cert.ReferenceIdeal.HostRun.opsP (F := Ideal)) (launchContents m' c) (Cert.ReferenceIdeal.main_arg4 : DevRef Cert.ReferenceIdeal.τ Cert.ReferenceIdeal.sig) : Mat 512 128) = Cert.KernelIdeal.Gen.V m c Cert.KernelIdeal.main_v80 := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h4]
  rfl

theorem x_w6 (c : Dev Cert.KernelIdeal.nD) (h6 : launchContents m' c (Proc.devRef .tc Cert.ReferenceIdeal.main_arg6) = m (c, Proc.devRef .tc Cert.KernelIdeal.main_arg6)) :
    (after (Cert.ReferenceIdeal.HostRun.opsP (F := Ideal)) (launchContents m' c) (Cert.ReferenceIdeal.main_arg6 : DevRef Cert.ReferenceIdeal.τ Cert.ReferenceIdeal.sig) : Mat 128 128) = Cert.KernelIdeal.Gen.V m c Cert.KernelIdeal.main_v81 := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h6]
  rfl

theorem x_w8 (c : Dev Cert.KernelIdeal.nD) (h8 : launchContents m' c (Proc.devRef .tc Cert.ReferenceIdeal.main_arg8) = m (c, Proc.devRef .tc Cert.KernelIdeal.main_arg8)) :
    (after (Cert.ReferenceIdeal.HostRun.opsP (F := Ideal)) (launchContents m' c) (Cert.ReferenceIdeal.main_arg8 : DevRef Cert.ReferenceIdeal.τ Cert.ReferenceIdeal.sig) : Mat 20 128) = Cert.KernelIdeal.Gen.V m c Cert.KernelIdeal.main_v82 := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h8]
  rfl

theorem x_w10 (c : Dev Cert.KernelIdeal.nD) (h10 : launchContents m' c (Proc.devRef .tc Cert.ReferenceIdeal.main_arg10) = m (c, Proc.devRef .tc Cert.KernelIdeal.main_arg10)) :
    (after (Cert.ReferenceIdeal.HostRun.opsP (F := Ideal)) (launchContents m' c) (Cert.ReferenceIdeal.main_arg10 : DevRef Cert.ReferenceIdeal.τ Cert.ReferenceIdeal.sig) : Mat 128 128) = Cert.KernelIdeal.Gen.V m c Cert.KernelIdeal.main_v83 := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h10]
  rfl

theorem x_w12 (c : Dev Cert.KernelIdeal.nD) (h12 : launchContents m' c (Proc.devRef .tc Cert.ReferenceIdeal.main_arg12) = m (c, Proc.devRef .tc Cert.KernelIdeal.main_arg12)) :
    (after (Cert.ReferenceIdeal.HostRun.opsP (F := Ideal)) (launchContents m' c) (Cert.ReferenceIdeal.main_arg12 : DevRef Cert.ReferenceIdeal.τ Cert.ReferenceIdeal.sig) : Mat 128 128) = Cert.KernelIdeal.Gen.V m c Cert.KernelIdeal.main_v84 := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h12]
  rfl

theorem x_w14 (c : Dev Cert.KernelIdeal.nD) (h14 : launchContents m' c (Proc.devRef .tc Cert.ReferenceIdeal.main_arg14) = m (c, Proc.devRef .tc Cert.KernelIdeal.main_arg14)) :
    (after (Cert.ReferenceIdeal.HostRun.opsP (F := Ideal)) (launchContents m' c) (Cert.ReferenceIdeal.main_arg14 : DevRef Cert.ReferenceIdeal.τ Cert.ReferenceIdeal.sig) : Mat 128 1) = Cert.KernelIdeal.Gen.V m c Cert.KernelIdeal.main_v85 := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h14]
  rfl

/-! The biases: the kernel's program reshapes `[128]` to `[1, 128]`, entry `k` to entry `(0, k)`. -/

theorem x_b5 (c : Dev Cert.KernelIdeal.nD) (h5 : launchContents m' c (Proc.devRef .tc Cert.ReferenceIdeal.main_arg5) = m (c, Proc.devRef .tc Cert.KernelIdeal.main_arg5)) :
    vecOf (after (Cert.ReferenceIdeal.HostRun.opsP (F := Ideal)) (launchContents m' c) (Cert.ReferenceIdeal.main_arg5 : DevRef Cert.ReferenceIdeal.τ Cert.ReferenceIdeal.sig)) = fun k => Cert.KernelIdeal.Gen.V m c Cert.KernelIdeal.main_v86 (ix2 0 k) := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h5]
  funext k
  refine (shapeCast_apply (m (c, Proc.devRef .tc Cert.KernelIdeal.main_arg5)) _ (ix2 0 k) (ix1 k) ?_).symm
  show ((⟨1, ![128]⟩ : Shape).rowMajor (ix1 k)).val = ((⟨2, ![1, 128]⟩ : Shape).rowMajor (ix2 0 k)).val
  rw [Shape.rowMajor_val_one, Shape.rowMajor_val_two]
  show k.val = 0 * 128 + k.val
  omega

theorem x_b7 (c : Dev Cert.KernelIdeal.nD) (h7 : launchContents m' c (Proc.devRef .tc Cert.ReferenceIdeal.main_arg7) = m (c, Proc.devRef .tc Cert.KernelIdeal.main_arg7)) :
    vecOf (after (Cert.ReferenceIdeal.HostRun.opsP (F := Ideal)) (launchContents m' c) (Cert.ReferenceIdeal.main_arg7 : DevRef Cert.ReferenceIdeal.τ Cert.ReferenceIdeal.sig)) = fun k => Cert.KernelIdeal.Gen.V m c Cert.KernelIdeal.main_v87 (ix2 0 k) := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h7]
  funext k
  refine (shapeCast_apply (m (c, Proc.devRef .tc Cert.KernelIdeal.main_arg7)) _ (ix2 0 k) (ix1 k) ?_).symm
  show ((⟨1, ![128]⟩ : Shape).rowMajor (ix1 k)).val = ((⟨2, ![1, 128]⟩ : Shape).rowMajor (ix2 0 k)).val
  rw [Shape.rowMajor_val_one, Shape.rowMajor_val_two]
  show k.val = 0 * 128 + k.val
  omega

theorem x_b9 (c : Dev Cert.KernelIdeal.nD) (h9 : launchContents m' c (Proc.devRef .tc Cert.ReferenceIdeal.main_arg9) = m (c, Proc.devRef .tc Cert.KernelIdeal.main_arg9)) :
    vecOf (after (Cert.ReferenceIdeal.HostRun.opsP (F := Ideal)) (launchContents m' c) (Cert.ReferenceIdeal.main_arg9 : DevRef Cert.ReferenceIdeal.τ Cert.ReferenceIdeal.sig)) = fun k => Cert.KernelIdeal.Gen.V m c Cert.KernelIdeal.main_v88 (ix2 0 k) := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h9]
  funext k
  refine (shapeCast_apply (m (c, Proc.devRef .tc Cert.KernelIdeal.main_arg9)) _ (ix2 0 k) (ix1 k) ?_).symm
  show ((⟨1, ![128]⟩ : Shape).rowMajor (ix1 k)).val = ((⟨2, ![1, 128]⟩ : Shape).rowMajor (ix2 0 k)).val
  rw [Shape.rowMajor_val_one, Shape.rowMajor_val_two]
  show k.val = 0 * 128 + k.val
  omega

theorem x_b11 (c : Dev Cert.KernelIdeal.nD) (h11 : launchContents m' c (Proc.devRef .tc Cert.ReferenceIdeal.main_arg11) = m (c, Proc.devRef .tc Cert.KernelIdeal.main_arg11)) :
    vecOf (after (Cert.ReferenceIdeal.HostRun.opsP (F := Ideal)) (launchContents m' c) (Cert.ReferenceIdeal.main_arg11 : DevRef Cert.ReferenceIdeal.τ Cert.ReferenceIdeal.sig)) = fun k => Cert.KernelIdeal.Gen.V m c Cert.KernelIdeal.main_v89 (ix2 0 k) := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h11]
  funext k
  refine (shapeCast_apply (m (c, Proc.devRef .tc Cert.KernelIdeal.main_arg11)) _ (ix2 0 k) (ix1 k) ?_).symm
  show ((⟨1, ![128]⟩ : Shape).rowMajor (ix1 k)).val = ((⟨2, ![1, 128]⟩ : Shape).rowMajor (ix2 0 k)).val
  rw [Shape.rowMajor_val_one, Shape.rowMajor_val_two]
  show k.val = 0 * 128 + k.val
  omega

theorem x_b13 (c : Dev Cert.KernelIdeal.nD) (h13 : launchContents m' c (Proc.devRef .tc Cert.ReferenceIdeal.main_arg13) = m (c, Proc.devRef .tc Cert.KernelIdeal.main_arg13)) :
    vecOf (after (Cert.ReferenceIdeal.HostRun.opsP (F := Ideal)) (launchContents m' c) (Cert.ReferenceIdeal.main_arg13 : DevRef Cert.ReferenceIdeal.τ Cert.ReferenceIdeal.sig)) = fun k => Cert.KernelIdeal.Gen.V m c Cert.KernelIdeal.main_v90 (ix2 0 k) := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h13]
  funext k
  refine (shapeCast_apply (m (c, Proc.devRef .tc Cert.KernelIdeal.main_arg13)) _ (ix2 0 k) (ix1 k) ?_).symm
  show ((⟨1, ![128]⟩ : Shape).rowMajor (ix1 k)).val = ((⟨2, ![1, 128]⟩ : Shape).rowMajor (ix2 0 k)).val
  rw [Shape.rowMajor_val_one, Shape.rowMajor_val_two]
  show k.val = 0 * 128 + k.val
  omega

/-- The one attention bias: `[1]` reshaped to `[1, 1]`. -/
theorem x_b15 (c : Dev Cert.KernelIdeal.nD) (h15 : launchContents m' c (Proc.devRef .tc Cert.ReferenceIdeal.main_arg15) = m (c, Proc.devRef .tc Cert.KernelIdeal.main_arg15)) :
    vecOf (after (Cert.ReferenceIdeal.HostRun.opsP (F := Ideal)) (launchContents m' c) (Cert.ReferenceIdeal.main_arg15 : DevRef Cert.ReferenceIdeal.τ Cert.ReferenceIdeal.sig)) = fun _ => Cert.KernelIdeal.Gen.V m c Cert.KernelIdeal.main_v91 (ix2 0 0) := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rw [h15]
  funext k
  have hk : k = 0 := Subsingleton.elim _ _
  subst hk
  refine (shapeCast_apply (m (c, Proc.devRef .tc Cert.KernelIdeal.main_arg15)) _ (ix2 0 0) (ix1 0) ?_).symm
  show ((⟨1, ![1]⟩ : Shape).rowMajor (ix1 0)).val = ((⟨2, ![1, 1]⟩ : Shape).rowMajor (ix2 0 0)).val
  rw [Shape.rowMajor_val_one, Shape.rowMajor_val_two]
  rfl

/-- Two concatenations of equal pieces are equal. -/
theorem concat2_congr (S S1 S2 : Shape) (ax : Fin S.rank) (x x' : S1.Idx → EReal) (y y' : S2.Idx → EReal)
    (h : Shape.Concatenates ([(⟨S1, x⟩ : (s : Shape) × (s.Idx → EReal)), ⟨S2, y⟩].map (·.1)) S ax) (hx : x = x') (hy : y = y') :
    concatenate S ax [⟨S1, x⟩, ⟨S2, y⟩] h = concatenate S ax [⟨S1, x'⟩, ⟨S2, y'⟩] h := by
  subst hx hy
  rfl

/-- The twenty geometric features: the frame products and the radial features laid side by side. -/
theorem x_pin (c : Dev Cert.KernelIdeal.nD) (h1 : launchContents m' c (Proc.devRef .tc Cert.ReferenceIdeal.main_arg1) = m (c, Proc.devRef .tc Cert.KernelIdeal.main_arg1)) (h2 : launchContents m' c (Proc.devRef .tc Cert.ReferenceIdeal.main_arg2) = m (c, Proc.devRef .tc Cert.KernelIdeal.main_arg2)) (h16 : launchContents m' c (Proc.devRef .tc Cert.ReferenceIdeal.main_arg16) = m (c, Proc.devRef .tc Cert.KernelIdeal.main_arg16)) :
    (concatenate Cert.ReferenceIdeal.S320000x20 1 [⟨Cert.ReferenceIdeal.S320000x5, after (Cert.ReferenceIdeal.HostRun.opsP (F := Ideal)) (launchContents m' c) (Cert.ReferenceIdeal.main_v47 : DevRef Cert.ReferenceIdeal.τ Cert.ReferenceIdeal.sig)⟩, ⟨Cert.ReferenceIdeal.S320000x15, after (Cert.ReferenceIdeal.HostRun.opsP (F := Ideal)) (launchContents m' c) (Cert.ReferenceIdeal.main_v31 : DevRef Cert.ReferenceIdeal.τ Cert.ReferenceIdeal.sig)⟩]
        Cert.ReferenceIdeal.Gen.concatenates_S320000x5_S320000x15_S320000x20_d1 : Mat 320000 20)
      = Cert.KernelIdeal.Gen.V m c Cert.KernelIdeal.main_v79 := by
  dsimp only [Cert.KernelIdeal.Gen.V]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  refine concat2_congr _ _ _ _ _ _ _ _ _ ?_ ?_
  · after_results_simp
    rw [h2, h16]
    rfl
  · after_results_simp
    rw [h1, h16]
    rfl

/-! ## The reference's results are the kernel's -/

theorem ref_chem (c : Dev Cert.KernelIdeal.nD) (h0 : launchContents m' c (Proc.devRef .tc Cert.ReferenceIdeal.main_arg0) = m (c, Proc.devRef .tc Cert.KernelIdeal.main_arg0)) (h3 : launchContents m' c (Proc.devRef .tc Cert.ReferenceIdeal.main_arg3) = m (c, Proc.devRef .tc Cert.KernelIdeal.main_arg3)) (h4 : launchContents m' c (Proc.devRef .tc Cert.ReferenceIdeal.main_arg4) = m (c, Proc.devRef .tc Cert.KernelIdeal.main_arg4)) (h5 : launchContents m' c (Proc.devRef .tc Cert.ReferenceIdeal.main_arg5) = m (c, Proc.devRef .tc Cert.KernelIdeal.main_arg5)) (h6 : launchContents m' c (Proc.devRef .tc Cert.ReferenceIdeal.main_arg6) = m (c, Proc.devRef .tc Cert.KernelIdeal.main_arg6)) (h7 : launchContents m' c (Proc.devRef .tc Cert.ReferenceIdeal.main_arg7) = m (c, Proc.devRef .tc Cert.KernelIdeal.main_arg7)) (h16 : launchContents m' c (Proc.devRef .tc Cert.ReferenceIdeal.main_arg16) = m (c, Proc.devRef .tc Cert.KernelIdeal.main_arg16)) :
    (after (Cert.ReferenceIdeal.HostRun.ops (F := Ideal)) (launchContents m' c) (Cert.ReferenceIdeal.main_v87 : DevRef Cert.ReferenceIdeal.τ Cert.ReferenceIdeal.sig) : Mat 320000 128) = Cert.KernelIdeal.Final.Gchem m c := by
  rw [Cert.ReferenceIdeal.Keep.after_split, Cert.ReferenceIdeal.RefAt.chem_eq]
  unfold Cert.KernelIdeal.Final.Gchem
  rw [x_hr m m' c h0 h16, x_hc m m' c h0 h16, x_nr m m' c h3 h16, x_nc m m' c h3 h16, x_w4 m m' c h4, x_b5 m m' c h5,
    x_w6 m m' c h6, x_b7 m m' c h7]

theorem ref_pos (c : Dev Cert.KernelIdeal.nD) (h1 : launchContents m' c (Proc.devRef .tc Cert.ReferenceIdeal.main_arg1) = m (c, Proc.devRef .tc Cert.KernelIdeal.main_arg1)) (h2 : launchContents m' c (Proc.devRef .tc Cert.ReferenceIdeal.main_arg2) = m (c, Proc.devRef .tc Cert.KernelIdeal.main_arg2)) (h8 : launchContents m' c (Proc.devRef .tc Cert.ReferenceIdeal.main_arg8) = m (c, Proc.devRef .tc Cert.KernelIdeal.main_arg8)) (h9 : launchContents m' c (Proc.devRef .tc Cert.ReferenceIdeal.main_arg9) = m (c, Proc.devRef .tc Cert.KernelIdeal.main_arg9)) (h10 : launchContents m' c (Proc.devRef .tc Cert.ReferenceIdeal.main_arg10) = m (c, Proc.devRef .tc Cert.KernelIdeal.main_arg10)) (h11 : launchContents m' c (Proc.devRef .tc Cert.ReferenceIdeal.main_arg11) = m (c, Proc.devRef .tc Cert.KernelIdeal.main_arg11)) (h16 : launchContents m' c (Proc.devRef .tc Cert.ReferenceIdeal.main_arg16) = m (c, Proc.devRef .tc Cert.KernelIdeal.main_arg16)) :
    (after (Cert.ReferenceIdeal.HostRun.ops (F := Ideal)) (launchContents m' c) (Cert.ReferenceIdeal.main_v97 : DevRef Cert.ReferenceIdeal.τ Cert.ReferenceIdeal.sig) : Mat 320000 128) = Cert.KernelIdeal.Final.Gpos m c := by
  rw [Cert.ReferenceIdeal.Keep.after_split, Cert.ReferenceIdeal.RefAt.pos_eq]
  unfold Cert.KernelIdeal.Final.Gpos
  rw [x_pin m m' c h1 h2 h16, x_w8 m m' c h8, x_b9 m m' c h9, x_w10 m m' c h10, x_b11 m m' c h11]

theorem ref_out (c : Dev Cert.KernelIdeal.nD) (h0 : launchContents m' c (Proc.devRef .tc Cert.ReferenceIdeal.main_arg0) = m (c, Proc.devRef .tc Cert.KernelIdeal.main_arg0)) (h1 : launchContents m' c (Proc.devRef .tc Cert.ReferenceIdeal.main_arg1) = m (c, Proc.devRef .tc Cert.KernelIdeal.main_arg1)) (h2 : launchContents m' c (Proc.devRef .tc Cert.ReferenceIdeal.main_arg2) = m (c, Proc.devRef .tc Cert.KernelIdeal.main_arg2)) (h3 : launchContents m' c (Proc.devRef .tc Cert.ReferenceIdeal.main_arg3) = m (c, Proc.devRef .tc Cert.KernelIdeal.main_arg3)) (h4 : launchContents m' c (Proc.devRef .tc Cert.ReferenceIdeal.main_arg4) = m (c, Proc.devRef .tc Cert.KernelIdeal.main_arg4)) (h5 : launchContents m' c (Proc.devRef .tc Cert.ReferenceIdeal.main_arg5) = m (c, Proc.devRef .tc Cert.KernelIdeal.main_arg5)) (h6 : launchContents m' c (Proc.devRef .tc Cert.ReferenceIdeal.main_arg6) = m (c, Proc.devRef .tc Cert.KernelIdeal.main_arg6)) (h7 : launchContents m' c (Proc.devRef .tc Cert.ReferenceIdeal.main_arg7) = m (c, Proc.devRef .tc Cert.KernelIdeal.main_arg7)) (h8 : launchContents m' c (Proc.devRef .tc Cert.ReferenceIdeal.main_arg8) = m (c, Proc.devRef .tc Cert.KernelIdeal.main_arg8)) (h9 : launchContents m' c (Proc.devRef .tc Cert.ReferenceIdeal.main_arg9) = m (c, Proc.devRef .tc Cert.KernelIdeal.main_arg9)) (h10 : launchContents m' c (Proc.devRef .tc Cert.ReferenceIdeal.main_arg10) = m (c, Proc.devRef .tc Cert.KernelIdeal.main_arg10)) (h11 : launchContents m' c (Proc.devRef .tc Cert.ReferenceIdeal.main_arg11) = m (c, Proc.devRef .tc Cert.KernelIdeal.main_arg11)) (h12 : launchContents m' c (Proc.devRef .tc Cert.ReferenceIdeal.main_arg12) = m (c, Proc.devRef .tc Cert.KernelIdeal.main_arg12)) (h13 : launchContents m' c (Proc.devRef .tc Cert.ReferenceIdeal.main_arg13) = m (c, Proc.devRef .tc Cert.KernelIdeal.main_arg13)) (h14 : launchContents m' c (Proc.devRef .tc Cert.ReferenceIdeal.main_arg14) = m (c, Proc.devRef .tc Cert.KernelIdeal.main_arg14)) (h15 : launchContents m' c (Proc.devRef .tc Cert.ReferenceIdeal.main_arg15) = m (c, Proc.devRef .tc Cert.KernelIdeal.main_arg15)) (h16 : launchContents m' c (Proc.devRef .tc Cert.ReferenceIdeal.main_arg16) = m (c, Proc.devRef .tc Cert.KernelIdeal.main_arg16)) :
    (after (Cert.ReferenceIdeal.HostRun.ops (F := Ideal)) (launchContents m' c) (Cert.ReferenceIdeal.main_v115 : DevRef Cert.ReferenceIdeal.τ Cert.ReferenceIdeal.sig) : Mat 320000 128) = Cert.KernelIdeal.Final.Gout m c := by
  rw [Cert.ReferenceIdeal.Keep.after_split, Cert.ReferenceIdeal.RefAt.out_eq]
  unfold Cert.KernelIdeal.Final.Gout Cert.KernelIdeal.Final.Gpre Cert.KernelIdeal.Final.Gchem Cert.KernelIdeal.Final.Gpos
  rw [x_hr m m' c h0 h16, x_hc m m' c h0 h16, x_nr m m' c h3 h16, x_nc m m' c h3 h16, x_w4 m m' c h4, x_b5 m m' c h5,
    x_w6 m m' c h6, x_b7 m m' c h7, x_pin m m' c h1 h2 h16, x_w8 m m' c h8, x_b9 m m' c h9, x_w10 m m' c h10, x_b11 m m' c h11,
    x_w12 m m' c h12, x_b13 m m' c h13, x_w14 m m' c h14, x_b15 m m' c h15]

theorem ref_cd (c : Dev Cert.KernelIdeal.nD) (h1 : launchContents m' c (Proc.devRef .tc Cert.ReferenceIdeal.main_arg1) = m (c, Proc.devRef .tc Cert.KernelIdeal.main_arg1)) (h16 : launchContents m' c (Proc.devRef .tc Cert.ReferenceIdeal.main_arg16) = m (c, Proc.devRef .tc Cert.KernelIdeal.main_arg16)) :
    (after (Cert.ReferenceIdeal.HostRun.ops (F := Ideal)) (launchContents m' c) (Cert.ReferenceIdeal.main_v23 : DevRef Cert.ReferenceIdeal.τ Cert.ReferenceIdeal.sig) : Mat 320000 3) = Cert.KernelIdeal.Gen.V m c Cert.KernelIdeal.main_v67 := by
  rw [Cert.ReferenceIdeal.Keep.after_split, Cert.ReferenceIdeal.Keep.keepS_v23]
  exact x_cd m m' c h1 h16

end Cert.Bridge

end
-- ==== Proof.lean ====
/-
  An edge network of a graph layer, as a Pallas kernel over blocks of 3200 edges, against its jnp reference.

  Both programs gather the node features and attributes at the two ends of each of the 320000 edges, compute the unit
  direction of the edge, fifteen radial features `exp(s · |d|²)` of it and the five products of the ends' frame
  vectors, and then apply, row by row, two two-layer perceptrons with the gate `x · 1/(1 + e^(-x))`, a gated product
  and an attention gate; they return the gated result, the two perceptrons' outputs and the direction.

  On the extended reals the two programs compute the same function:
  * the host work before the network is the same operations on the same arguments — the kernel's program only adds
    changes of float format, which are the identity, and reshapes each bias to one row (`Proof/Bridge.lean`);
  * the kernel's body on a block of rows is the row functions of the specification on those rows
    (`Proof/KerPay.lean`), a block's rows are rows `3200·t …` of the arrays, and the 100 blocks tile them
    (`Proof/KerFinal.lean`);
  * the reference's network, read entry by entry, is the same row functions (`Proof/RefAt.lean`); the kernel's
    logistic operation is by definition `1/(1 + e^(-x))`, which the reference spells out;
  * the one rearrangement: the reference contracts the concatenation of the four gathered rows against the 512-row
    weight, the kernel adds the four quarter contractions — a finite sum split in four (`Proof/RowSpec.lean`), true in
    any additive commutative monoid, so the finiteness of the inputs is never used.
  The ideal pass rewrote nothing, so the sanctioned-idealization conjunct is `True`.  The kernel programs' frames are
  the generated ones; the reference has no kernel, and its frame is its run (`Proof/RefRun.lean`) with the arguments
  read back (`Proof/RefKeep.lean`).
-/
import proofs.«174778_j83236466196758_2_alg».proof.Defs
import proofs.«174778_j83236466196758_2_alg».proof.Proof.Gen.Kernel
import proofs.«174778_j83236466196758_2_alg».proof.Proof.Gen.Kernel.Skeleton
import proofs.«174778_j83236466196758_2_alg».proof.Proof.Gen.Kernel.Launch
import proofs.«174778_j83236466196758_2_alg».proof.Proof.Gen.Kernel.Points
import proofs.«174778_j83236466196758_2_alg».proof.Proof.Gen.Kernel.Frame
import proofs.«174778_j83236466196758_2_alg».proof.Proof.Gen.KernelIdeal
import proofs.«174778_j83236466196758_2_alg».proof.Proof.Gen.KernelIdeal.Skeleton
import proofs.«174778_j83236466196758_2_alg».proof.Proof.Gen.KernelIdeal.Launch
import proofs.«174778_j83236466196758_2_alg».proof.Proof.Gen.KernelIdeal.Points
import proofs.«174778_j83236466196758_2_alg».proof.Proof.Gen.KernelIdeal.Frame
import proofs.«174778_j83236466196758_2_alg».proof.Proof.KernelIdealValueP
import proofs.«174778_j83236466196758_2_alg».proof.Proof.Gen.ReferenceIdeal
import proofs.«174778_j83236466196758_2_alg».proof.Proof.Gen.Pre_finite_inputs
import proofs.«174778_j83236466196758_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono (fun r h c => ⟨(h c Cert.ReferenceIdeal.main_arg0).trans (Cert.ReferenceIdeal.Keep.keep_arg0 _),
      (h c Cert.ReferenceIdeal.main_arg1).trans (Cert.ReferenceIdeal.Keep.keep_arg1 _),
      (h c Cert.ReferenceIdeal.main_arg2).trans (Cert.ReferenceIdeal.Keep.keep_arg2 _),
      (h c Cert.ReferenceIdeal.main_arg3).trans (Cert.ReferenceIdeal.Keep.keep_arg3 _),
      (h c Cert.ReferenceIdeal.main_arg4).trans (Cert.ReferenceIdeal.Keep.keep_arg4 _),
      (h c Cert.ReferenceIdeal.main_arg5).trans (Cert.ReferenceIdeal.Keep.keep_arg5 _),
      (h c Cert.ReferenceIdeal.main_arg6).trans (Cert.ReferenceIdeal.Keep.keep_arg6 _),
      (h c Cert.ReferenceIdeal.main_arg7).trans (Cert.ReferenceIdeal.Keep.keep_arg7 _),
      (h c Cert.ReferenceIdeal.main_arg8).trans (Cert.ReferenceIdeal.Keep.keep_arg8 _),
      (h c Cert.ReferenceIdeal.main_arg9).trans (Cert.ReferenceIdeal.Keep.keep_arg9 _),
      (h c Cert.ReferenceIdeal.main_arg10).trans (Cert.ReferenceIdeal.Keep.keep_arg10 _),
      (h c Cert.ReferenceIdeal.main_arg11).trans (Cert.ReferenceIdeal.Keep.keep_arg11 _),
      (h c Cert.ReferenceIdeal.main_arg12).trans (Cert.ReferenceIdeal.Keep.keep_arg12 _),
      (h c Cert.ReferenceIdeal.main_arg13).trans (Cert.ReferenceIdeal.Keep.keep_arg13 _),
      (h c Cert.ReferenceIdeal.main_arg14).trans (Cert.ReferenceIdeal.Keep.keep_arg14 _),
      (h c Cert.ReferenceIdeal.main_arg15).trans (Cert.ReferenceIdeal.Keep.keep_arg15 _),
      (h c Cert.ReferenceIdeal.main_arg16).trans (Cert.ReferenceIdeal.Keep.keep_arg16 _)⟩)
    (Cert.ReferenceIdeal.HostRun.run_main (F := Ideal) m ρ)

theorem preserves : Cert.preserves_Kernel_KernelIdeal := trivial

/-- From memories agreeing on the arguments both programs end with the network's three arrays and the direction. -/
theorem algebraic : Cert.algebraic_KernelIdeal_ReferenceIdeal := by
  intro m ρ m' ρ' _ hagree
  refine ⟨fun c => Cert.KernelIdeal.Final.Gout m c, fun c => Cert.KernelIdeal.Final.Gchem m c, fun c => Cert.KernelIdeal.Final.Gpos m c,
    fun c => Cert.KernelIdeal.Gen.V m c Cert.KernelIdeal.main_v67, Cert.KernelIdeal.Final.run m ρ, ?_⟩
  refine (θ_run Cert.ReferenceIdeal.defs _ _).mono (fun r h c => ?_) (Cert.ReferenceIdeal.HostRun.run_main (F := Ideal) m' ρ')
  obtain ⟨h0, h1, h2, h3, h4, h5, h6, h7, h8, h9, h10, h11, h12, h13, h14, h15, h16⟩ := hagree c
  exact ⟨(h c Cert.ReferenceIdeal.main_v115).trans (Cert.Bridge.ref_out m m' c h0 h1 h2 h3 h4 h5 h6 h7 h8 h9 h10 h11 h12 h13 h14 h15 h16),
    (h c Cert.ReferenceIdeal.main_v87).trans (Cert.Bridge.ref_chem m m' c h0 h3 h4 h5 h6 h7 h16),
    (h c Cert.ReferenceIdeal.main_v97).trans (Cert.Bridge.ref_pos m m' c h1 h2 h8 h9 h10 h11 h16),
    (h c Cert.ReferenceIdeal.main_v23).trans (Cert.Bridge.ref_cd m m' c h1 h16),
    (h c Cert.ReferenceIdeal.main_arg0).trans (Cert.ReferenceIdeal.Keep.keep_arg0 _),
    (h c Cert.ReferenceIdeal.main_arg1).trans (Cert.ReferenceIdeal.Keep.keep_arg1 _),
    (h c Cert.ReferenceIdeal.main_arg2).trans (Cert.ReferenceIdeal.Keep.keep_arg2 _),
    (h c Cert.ReferenceIdeal.main_arg3).trans (Cert.ReferenceIdeal.Keep.keep_arg3 _),
    (h c Cert.ReferenceIdeal.main_arg4).trans (Cert.ReferenceIdeal.Keep.keep_arg4 _),
    (h c Cert.ReferenceIdeal.main_arg5).trans (Cert.ReferenceIdeal.Keep.keep_arg5 _),
    (h c Cert.ReferenceIdeal.main_arg6).trans (Cert.ReferenceIdeal.Keep.keep_arg6 _),
    (h c Cert.ReferenceIdeal.main_arg7).trans (Cert.ReferenceIdeal.Keep.keep_arg7 _),
    (h c Cert.ReferenceIdeal.main_arg8).trans (Cert.ReferenceIdeal.Keep.keep_arg8 _),
    (h c Cert.ReferenceIdeal.main_arg9).trans (Cert.ReferenceIdeal.Keep.keep_arg9 _),
    (h c Cert.ReferenceIdeal.main_arg10).trans (Cert.ReferenceIdeal.Keep.keep_arg10 _),
    (h c Cert.ReferenceIdeal.main_arg11).trans (Cert.ReferenceIdeal.Keep.keep_arg11 _),
    (h c Cert.ReferenceIdeal.main_arg12).trans (Cert.ReferenceIdeal.Keep.keep_arg12 _),
    (h c Cert.ReferenceIdeal.main_arg13).trans (Cert.ReferenceIdeal.Keep.keep_arg13 _),
    (h c Cert.ReferenceIdeal.main_arg14).trans (Cert.ReferenceIdeal.Keep.keep_arg14 _),
    (h c Cert.ReferenceIdeal.main_arg15).trans (Cert.ReferenceIdeal.Keep.keep_arg15 _),
    (h c Cert.ReferenceIdeal.main_arg16).trans (Cert.ReferenceIdeal.Keep.keep_arg16 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
